-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S30000x64 : Shape := ⟨2, ![30000, 64]⟩
abbrev S4000000 : Shape := ⟨1, ![4000000]⟩
abbrev S1600000 : Shape := ⟨1, ![1600000]⟩
abbrev S480000 : Shape := ⟨1, ![480000]⟩
abbrev S2x64x64 : Shape := ⟨3, ![2, 64, 64]⟩
abbrev S2x128x64 : Shape := ⟨3, ![2, 128, 64]⟩
abbrev S2x64 : Shape := ⟨2, ![2, 64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S30000x64 : S_.BroadcastsInDim S30000x64 (![] : Fin 0 → Fin S30000x64.rank)
  reducesTo_S30000x64_S_d0_1 : S30000x64.ReducesTo [0, 1] S_
  bcast_S_S4000000 : S_.BroadcastsInDim S4000000 (![] : Fin 0 → Fin S4000000.rank)
  reducesTo_S4000000_S_d0 : S4000000.ReducesTo [0] S_
  bcast_S_S1600000 : S_.BroadcastsInDim S1600000 (![] : Fin 0 → Fin S1600000.rank)
  reducesTo_S1600000_S_d0 : S1600000.ReducesTo [0] S_
  bcast_S_S480000 : S_.BroadcastsInDim S480000 (![] : Fin 0 → Fin S480000.rank)
  reducesTo_S480000_S_d0 : S480000.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64x64 .f32) (main_arg12 : FVec F S64x64 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  main_v63

def fn_part2 {F : FTy → Type} [FloatOps F] (main_arg7 : FVec F S2x128x64 .f32) (main_arg8 : FVec F S2x128x64 .f32) (main_arg9 : FVec F S2x64 .f32) (main_arg10 : FVec F S2x64 .f32) (main_arg11 : FVec F S64x64 .f32) (main_arg12 : FVec F S64x64 .f32) (main_v33 : IVec S_ 1) : IVec S_ 1 :=
  let main_v34 : FVec F S2x128x64 .f32 := Host.absf main_arg7
  let main_cst_12 : FVec F S_ .f32 := constant S_ .f32 0x7F800000#32
  let main_v35 : FVec F S2x128x64 .f32 := broadcastInDim S2x128x64 ![] bcast_S_S2x128x64 main_cst_12
  let main_v36 : IVec S2x128x64 1 := cmpf .olt main_v34 main_v35
  let main_c_13 : IVec S_ 1 := constantI S_ 1 1#1
  let main_v37 : IVec S_ 1 := (fun x v => Host.reduce IntOp.andi x v reducesTo_S2x128x64_S_d0_1_2 h_S_) main_v36 main_c_13
  let main_v38 : IVec S_ 1 := andi main_v33 main_v37
  let main_v39 : FVec F S2x128x64 .f32 := Host.absf main_arg8
  let main_cst_14 : FVec F S_ .f32 := constant S_ .f32 0x7F800000#32
  let main_v40 : FVec F S2x128x64 .f32 := broadcastInDim S2x128x64 ![] bcast_S_S2x128x64 main_cst_14
  let main_v41 : IVec S2x128x64 1 := cmpf .olt main_v39 main_v40
  let main_c_15 : IVec S_ 1 := constantI S_ 1 1#1
  let main_v42 : IVec S_ 1 := (fun x v => Host.reduce IntOp.andi x v reducesTo_S2x128x64_S_d0_1_2 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_v48 main_v49 main_v50

def fn_part1 {F : FTy → Type} [FloatOps F] (main_arg4 : FVec F S480000 .f32) (main_arg5 : FVec F S2x64x64 .f32) (main_arg6 : FVec F S2x64x64 .f32) (main_arg7 : FVec F S2x128x64 .f32) (main_arg8 : FVec F S2x128x64 .f32) (main_arg9 : FVec F S2x64 .f32) (main_arg10 : FVec F S2x64 .f32) (main_arg11 : FVec F S64x64 .f32) (main_arg12 : FVec F S64x64 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S480000 .f32 := Host.absf main_arg4
  let main_cst_6 : FVec F S_ .f32 := constant S_ .f32 0x7F800000#32
  let main_v20 : FVec F S480000 .f32 := broadcastInDim S480000 ![] bcast_S_S480000 main_cst_6
  let main_v21 : IVec S480000 1 := cmpf .olt main_v19 main_v20
  let main_c_7 : IVec S_ 1 := constantI S_ 1 1#1
  let main_v22 : IVec S_ 1 := (fun x v => Host.reduce IntOp.andi x v reducesTo_S480000_S_d0 h_S_) main_v21 main_c_7
  let main_v23 : IVec S_ 1 := andi main_v18 main_v22
  let main_v24 : FVec F S2x64x64 .f32 := Host.absf main_arg5
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64x64 .f32 := Host.absf main_arg6
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x64 .f32) (main_arg1 : FVec F S30000x64 .f32) (main_arg2 : FVec F S4000000 .f32) (main_arg3 : FVec F S1600000 .f32) (main_arg4 : FVec F S480000 .f32) (main_arg5 : FVec F S2x64x64 .f32) (main_arg6 : FVec F S2x64x64 .f32) (main_arg7 : FVec F S2x128x64 .f32) (main_arg8 : FVec F S2x128x64 .f32) (main_arg9 : FVec F S2x64 .f32) (main_arg10 : FVec F S2x64 .f32) (main_arg11 : FVec F S64x64 .f32) (main_arg12 : FVec F S64x64 .f32) (main_arg13 : IVec S4000000 32) (main_arg14 : IVec S4000000 32) (main_arg15 : IVec S1600000 32) (main_arg16 : IVec S1600000 32) (main_arg17 : IVec S480000 32) (main_arg18 : IVec S480000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S30000x64 .f32 := Host.absf main_arg1
  let main_cst_0 : FVec F S_ .f32 := constant S_ .f32 0x7F800000#32
  let main_v5 : FVec F S30000x64 .f32 := broadcastInDim S30000x64 ![] bcast_S_S30000x64 main_cst_0
  let main_v6 : IVec S30000x64 1 := cmpf .olt main_v4 main_v5
  let main_c_1 : IVec S_ 1 := constantI S_ 1 1#1
  let main_v7 : IVec S_ 1 := (fun x v => Host.reduce IntOp.andi x v reducesTo_S30000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_arg5 main_arg6 main_arg7 main_arg8 main_arg9 main_arg10 main_arg11 main_arg12 main_v13 main_v16
-- ==== Kernel.lean ====
abbrev S100000x64 : Shape := ⟨2, ![100000, 64]⟩
abbrev S30000x64 : Shape := ⟨2, ![30000, 64]⟩
abbrev S4000000 : Shape := ⟨1, ![4000000]⟩
abbrev S1600000 : Shape := ⟨1, ![1600000]⟩
abbrev S480000 : Shape := ⟨1, ![480000]⟩
abbrev S2x64x64 : Shape := ⟨3, ![2, 64, 64]⟩
abbrev S2x128x64 : Shape := ⟨3, ![2, 128, 64]⟩
abbrev S2x64 : Shape := ⟨2, ![2, 64]⟩
abbrev S64x64 : Shape := ⟨2, ![64, 64]⟩
abbrev S130000x64 : Shape := ⟨2, ![130000, 64]⟩
abbrev S4000000x1 : Shape := ⟨2, ![4000000, 1]⟩
abbrev S_ : Shape := ⟨0, ![]⟩
abbrev S4000000x64 : Shape := ⟨2, ![4000000, 64]⟩
abbrev S1x64x64 : Shape := ⟨3, ![1, 64, 64]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S5000x64 : Shape := ⟨2, ![5000, 64]⟩
abbrev S5000 : Shape := ⟨1, ![5000]⟩
abbrev S5000x1 : Shape := ⟨2, ![5000, 1]⟩
abbrev S1600000x1 : Shape := ⟨2, ![1600000, 1]⟩
abbrev S1600000x64 : Shape := ⟨2, ![1600000, 64]⟩
abbrev S480000x1 : Shape := ⟨2, ![480000, 1]⟩
abbrev S480000x64 : Shape := ⟨2, ![480000, 64]⟩

abbrev nBuf : Space → Nat
  | .hbm => 145
  | .vmem => 54
  | .smem => 0
  | _ => 0

abbrev hbmTy0_0 (i : Nat) : BufTy := match i % 128 with
  | 0 => ⟨S100000x64, .f32⟩
  | 1 => ⟨S30000x64, .f32⟩
  | 2 => ⟨S4000000, .f32⟩
  | 3 => ⟨S1600000, .f32⟩
  | 4 => ⟨S480000, .f32⟩
  | 5 => ⟨S2x64x64, .f32⟩
  | 6 => ⟨S2x64x64, .f32⟩
  | 7 => ⟨S2x128x64, .f32⟩
  | 8 => ⟨S2x128x64, .f32⟩
  | 9 => ⟨S2x64, .f32⟩
  | 10 => ⟨S2x64, .f32⟩
  | 11 => ⟨S64x64, .f32⟩
  | 12 => ⟨S64x64, .f32⟩
  | 13 => ⟨S4000000, .i32⟩
  | 14 => ⟨S4000000, .i32⟩
  | 15 => ⟨S1600000, .i32⟩
  | 16 => ⟨S1600000, .i32⟩
  | 17 => ⟨S480000, .i32⟩
  | 18 => ⟨S480000, .i32⟩
  | 19 => ⟨S130000x64, .f32⟩
  | 20 => ⟨S4000000x1, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000x64, .f32⟩
  | 30 => ⟨S4000000x64, .f32⟩
  | 31 => ⟨S4000000x64, .f32⟩
  | 32 => ⟨S_, .f32⟩
  | 33 => ⟨S130000x64, .f32⟩
  | 34 => ⟨S4000000x1, .i32⟩
  | 35 => ⟨S130000x64, .f32⟩
  | 36 => ⟨S1x64x64, .f32⟩
  | 37 => ⟨S64x64, .f32⟩
  | 38 => ⟨S1x128x64, .f32⟩
  | 39 => ⟨S128x64, .f32⟩
  | 40 => ⟨S1x64, .f32⟩
  | 41 => ⟨S64, .f32⟩
  | 42 => ⟨S64x64, .f32⟩
  | 43 => ⟨S64x64, .f32⟩
  | 44 => ⟨S1x64, .f32⟩
  | 45 => ⟨S130000x64, .f32⟩
  | 46 => ⟨S4000000x1, .f32⟩
  | 47 => ⟨S_, .i32⟩
  | 48 => ⟨S4000000, .i32⟩
  | 49 => ⟨S4000000, .i1⟩
  | 50 => ⟨S_, .i32⟩
  | 51 => ⟨S4000000, .i32⟩
  | 52 => ⟨S4000000, .i32⟩
  | 53 => ⟨S4000000, .i32⟩
  | 54 => ⟨S4000000x1, .i32⟩
  | 55 => ⟨S4000000x64, .f32⟩
  | 56 => ⟨S4000000x64, .f32⟩
  | 57 => ⟨S4000000x64, .f32⟩
  | 58 => ⟨S_, .f32⟩
  | 59 => ⟨S130000x64, .f32⟩
  | 60 => ⟨S4000000x1, .i32⟩
  | 61 => ⟨S130000x64, .f32⟩
  | 62 => ⟨S1x64x64, .f32⟩
  | 63 => ⟨S64x64, .f32⟩
  | 64 => ⟨S1x128x64, .f32⟩
  | 65 => ⟨S128x64, .f32⟩
  | 66 => ⟨S1x64, .f32⟩
  | 67 => ⟨S64, .f32⟩
  | 68 => ⟨S64x64, .f32⟩
  | 69 => ⟨S64x64, .f32⟩
  | 70 => ⟨S1x64, .f32⟩
  | 71 => ⟨S130000x64, .f32⟩
  | 72 => ⟨S1x64x64, .f32⟩
  | 73 => ⟨S64x64, .f32⟩
  | 74 => ⟨S1x128x64, .f32⟩
  | 75 => ⟨S128x64, .f32⟩
  | 76 => ⟨S1x64, .f32⟩
  | 77 => ⟨S64, .f32⟩
  | 78 => ⟨S64x64, .f32⟩
  | 79 => ⟨S64x64, .f32⟩
  | 80 => ⟨S1x64, .f32⟩
  | 81 => ⟨S130000x64, .f32⟩
  | 82 => ⟨S4000000x1, .f32⟩
  | 83 => ⟨S_, .i32⟩
  | 84 => ⟨S4000000, .i32⟩
  | 85 => ⟨S4000000, .i1⟩
  | 86 => ⟨S_, .i32⟩
  | 87 => ⟨S4000000, .i32⟩
  | 88 => ⟨S4000000, .i32⟩
  | 89 => ⟨S4000000, .i32⟩
  | 90 => ⟨S4000000x1, .i32⟩
  | 91 => ⟨S4000000x64, .f32⟩
  | 92 => ⟨S4000000x64, .f32⟩
  | 93 => ⟨S4000000x64, .f32⟩
  | 94 => ⟨S_, .f32⟩
  | 95 => ⟨S130000x64, .f32⟩
  | 96 => ⟨S4000000x1, .i32⟩
  | 97 => ⟨S130000x64, .f32⟩
  | 98 => ⟨S1x64x64, .f32⟩
  | 99 => ⟨S64x64, .f32⟩
  | 100 => ⟨S1x128x64, .f32⟩
  | 101 => ⟨S128x64, .f32⟩
  | 102 => ⟨S1x64, .f32⟩
  | 103 => ⟨S64, .f32⟩
  | 104 => ⟨S64x64, .f32⟩
  | 105 => ⟨S64x64, .f32⟩
  | 106 => ⟨S1x64, .f32⟩
  | 107 => ⟨S130000x64, .f32⟩
  | 108 => ⟨S100000x64, .f32⟩
  | 109 => ⟨S30000x64, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x64, .f32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S480000x1, .f32⟩
  | 127 => ⟨S_, .i32⟩
  | _ => ⟨S100000x64, .f32⟩

abbrev hbmTy0_1 (i : Nat) : BufTy := match i % 128 with
  | 0 => ⟨S480000, .i32⟩
  | 1 => ⟨S480000, .i1⟩
  | 2 => ⟨S_, .i32⟩
  | 3 => ⟨S480000, .i32⟩
  | 4 => ⟨S480000, .i32⟩
  | 5 => ⟨S480000, .i32⟩
  | 6 => ⟨S480000x1, .i32⟩
  | 7 => ⟨S480000x64, .f32⟩
  | 8 => ⟨S480000x64, .f32⟩
  | 9 => ⟨S480000x64, .f32⟩
  | 10 => ⟨S_, .f32⟩
  | 11 => ⟨S30000x64, .f32⟩
  | 12 => ⟨S480000x1, .i32⟩
  | 13 => ⟨S30000x64, .f32⟩
  | 14 => ⟨S100000x64, .f32⟩
  | 15 => ⟨S30000x64, .f32⟩
  | 16 => ⟨S130000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S64x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S64x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_4 : Ref sig .tc := ⟨.hbm, 83, rfl⟩
abbrev main_v58 : Ref sig .tc := ⟨.hbm, 84, rfl⟩
abbrev main_v59 : Ref sig .tc := ⟨.hbm, 85, rfl⟩
abbrev main_c_5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_6 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_7 : Ref sig .tc := ⟨.hbm, 111, rfl⟩
abbrev main_v83 : Ref sig .tc := ⟨.hbm, 112, rfl⟩
abbrev main_v84 : Ref sig .tc := ⟨.hbm, 113, rfl⟩
abbrev main_c_8 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_9 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_10 : Ref sig .tc := ⟨.hbm, 127, rfl⟩
abbrev main_v96 : Ref sig .tc := ⟨.hbm, 128, rfl⟩
abbrev main_v97 : Ref sig .tc := ⟨.hbm, 129, rfl⟩
abbrev main_c_11 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_12 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51
abbrev cc5_sem3_0 : DmaSem sig := 52
abbrev cc5_sem3_1 : DmaSem sig := 53

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![26], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![26], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![26], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![6], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  concatenates_S100000x64_S30000x64_S130000x64_d0 : Shape.Concatenates [S100000x64, S30000x64] S130000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S130000x64 : S_.BroadcastsInDim S130000x64 (![] : Fin 0 → Fin S130000x64.rank)
  slices_S2x64x64_S1x64x64_0_0_0 : S2x64x64.Slices ![0, 0, 0] S1x64x64
  shapeCasts_S1x64x64_S64x64 : S1x64x64.ShapeCasts S64x64
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S5000x64 : S1x64.Broadcasts S5000x64
  slices_S2x64x64_S1x64x64_1_0_0 : S2x64x64.Slices ![1, 0, 0] S1x64x64
  slices_S2x128x64_S1x128x64_1_0_0 : S2x128x64.Slices ![1, 0, 0] S1x128x64
  slices_S2x64_S1x64_1_0 : S2x64.Slices ![1, 0] S1x64
  reduces_S5000x64_S5000 : S5000x64.Reduces [1] S5000
  shapeCasts_S5000_S5000x1 : S5000.ShapeCasts S5000x1
  broadcasts_S5000x1_S5000x64 : S5000x1.Broadcasts S5000x64
  slices_S130000x64_S100000x64_0_0 : S130000x64.Slices ![0, 0] S100000x64
  slices_S130000x64_S30000x64_100000_0 : S130000x64.Slices ![100000, 0] S30000x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x64_0_1 : S480000x1.BroadcastsInDim S480000x64 (![0, 1] : Fin 2 → Fin S480000x64.rank)
  bcast_S_S30000x64 : S_.BroadcastsInDim S30000x64 (![] : Fin 0 → Fin S30000x64.rank)
  gather_S130000x64_S4000000x1_S4000000x64_1_0_n_n_0_1_164_wf : GatherDims.WF S130000x64 S4000000x1 S4000000x64 [1] [0] [] [0] [] 1 ![1, 64]
  scatter_S130000x64_S4000000x1_S4000000x64_1_0_0_1_wf : ScatterDims.WF S130000x64 S4000000x1 S4000000x64 [1] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S30000x64_S480000x1_S480000x64_1_0_n_n_0_1_164_wf : GatherDims.WF S30000x64 S480000x1 S480000x64 [1] [0] [] [0] [] 1 ![1, 64]
  scatter_S30000x64_S480000x1_S480000x64_1_0_0_1_wf : ScatterDims.WF S30000x64 S480000x1 S480000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S130000x64.size a
  hwx0_0 : ∀ i : grid0.Coords, EltTy.bits .f32 = 32 ∨ (Rect.block (s := S130000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S130000x64.size a
  hwx0_1 : ∀ i : grid0.Coords, EltTy.bits .f32 = 32 ∨ (Rect.block (s := S130000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S130000x64.size a
  hwx0_6 : ∀ i : grid0.Coords, EltTy.bits .f32 = 32 ∨ (Rect.block (s := S130000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S130000x64.size a
  hwx1_0 : ∀ i : grid1.Coords, EltTy.bits .f32 = 32 ∨ (Rect.block (s := S130000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S130000x64.size a
  hwx1_1 : ∀ i : grid1.Coords, EltTy.bits .f32 = 32 ∨ (Rect.block (s := S130000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S130000x64.size a
  hwx1_6 : ∀ i : grid1.Coords, EltTy.bits .f32 = 32 ∨ (Rect.block (s := S130000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S130000x64.size a
  hwx2_0 : ∀ i : grid2.Coords, EltTy.bits .f32 = 32 ∨ (Rect.block (s := S130000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S130000x64.size a
  hwx2_1 : ∀ i : grid2.Coords, EltTy.bits .f32 = 32 ∨ (Rect.block (s := S130000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S130000x64.size a
  hwx2_6 : ∀ i : grid2.Coords, EltTy.bits .f32 = 32 ∨ (Rect.block (s := S130000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S130000x64.size a
  hwx3_0 : ∀ i : grid3.Coords, EltTy.bits .f32 = 32 ∨ (Rect.block (s := S130000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S130000x64.size a
  hwx3_1 : ∀ i : grid3.Coords, EltTy.bits .f32 = 32 ∨ (Rect.block (s := S130000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S130000x64.size a
  hwx3_6 : ∀ i : grid3.Coords, EltTy.bits .f32 = 32 ∨ (Rect.block (s := S130000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S30000x64.size a
  hwx5_0 : ∀ i : grid5.Coords, EltTy.bits .f32 = 32 ∨ (Rect.block (s := S30000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S30000x64.size a
  hwx5_2 : ∀ i : grid5.Coords, EltTy.bits .f32 = 32 ∨ (Rect.block (s := S30000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S30000x64.size a
  hwx5_3 : ∀ i : grid5.Coords, EltTy.bits .f32 = 32 ∨ (Rect.block (s := S30000x64) S5000x64.size (cc5_transform_3 i) (hinb5_3 i)).WholeWords (EltTy.packing .f32)

variable [Facts₀]

def gather_S130000x64_S4000000x1_S4000000x64_1_0_n_n_0_1_164 : GatherDims S130000x64 S4000000x1 S4000000x64 where
  offsetDims := [1]
  collapsedSliceDims := [0]
  operandBatchingDims := []
  startIndicesBatchingDims := []
  startIndexMap := [0]
  indexVectorDim := 1
  sliceSizes := ![1, 64]
  wf := gather_S130000x64_S4000000x1_S4000000x64_1_0_n_n_0_1_164_wf
def scatter_S130000x64_S4000000x1_S4000000x64_1_0_0_1 : ScatterDims S130000x64 S4000000x1 S4000000x64 where
  updateWindowDims := [1]
  insertedWindowDims := [0]
  scatterDimsToOperandDims := [0]
  indexVectorDim := 1
  wf := scatter_S130000x64_S4000000x1_S4000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v94) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v108) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v107) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v109) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S30000x64 : Shape := ⟨2, ![30000, 64]⟩
abbrev S4000000 : Shape := ⟨1, ![4000000]⟩
abbrev S1600000 : Shape := ⟨1, ![1600000]⟩
abbrev S480000 : Shape := ⟨1, ![480000]⟩
abbrev S2x64x64 : Shape := ⟨3, ![2, 64, 64]⟩
abbrev S2x128x64 : Shape := ⟨3, ![2, 128, 64]⟩
abbrev S2x64 : Shape := ⟨2, ![2, 64]⟩
abbrev S64x64 : Shape := ⟨2, ![64, 64]⟩
abbrev S130000x64 : Shape := ⟨2, ![130000, 64]⟩
abbrev S4000000x1 : Shape := ⟨2, ![4000000, 1]⟩
abbrev S_ : Shape := ⟨0, ![]⟩
abbrev S4000000x64 : Shape := ⟨2, ![4000000, 64]⟩
abbrev S1x64x64 : Shape := ⟨3, ![1, 64, 64]⟩
abbrev S130000x128 : Shape := ⟨2, ![130000, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S130000 : Shape := ⟨1, ![130000]⟩
abbrev S130000x1 : Shape := ⟨2, ![130000, 1]⟩
abbrev S1600000x1 : Shape := ⟨2, ![1600000, 1]⟩
abbrev S1600000x64 : Shape := ⟨2, ![1600000, 64]⟩
abbrev S480000x1 : Shape := ⟨2, ![480000, 1]⟩
abbrev S480000x64 : Shape := ⟨2, ![480000, 64]⟩

abbrev nBuf : Space → Nat
  | .hbm => 201
  | .vmem => 0
  | .smem => 0
  | _ => 0

abbrev hbmTy0_0 (i : Nat) : BufTy := match i % 128 with
  | 0 => ⟨S100000x64, .f32⟩
  | 1 => ⟨S30000x64, .f32⟩
  | 2 => ⟨S4000000, .f32⟩
  | 3 => ⟨S1600000, .f32⟩
  | 4 => ⟨S480000, .f32⟩
  | 5 => ⟨S2x64x64, .f32⟩
  | 6 => ⟨S2x64x64, .f32⟩
  | 7 => ⟨S2x128x64, .f32⟩
  | 8 => ⟨S2x128x64, .f32⟩
  | 9 => ⟨S2x64, .f32⟩
  | 10 => ⟨S2x64, .f32⟩
  | 11 => ⟨S64x64, .f32⟩
  | 12 => ⟨S64x64, .f32⟩
  | 13 => ⟨S4000000, .i32⟩
  | 14 => ⟨S4000000, .i32⟩
  | 15 => ⟨S1600000, .i32⟩
  | 16 => ⟨S1600000, .i32⟩
  | 17 => ⟨S480000, .i32⟩
  | 18 => ⟨S480000, .i32⟩
  | 19 => ⟨S130000x64, .f32⟩
  | 20 => ⟨S4000000x1, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000x64, .f32⟩
  | 30 => ⟨S4000000x64, .f32⟩
  | 31 => ⟨S4000000x64, .f32⟩
  | 32 => ⟨S_, .f32⟩
  | 33 => ⟨S130000x64, .f32⟩
  | 34 => ⟨S4000000x1, .i32⟩
  | 35 => ⟨S130000x64, .f32⟩
  | 36 => ⟨S1x64x64, .f32⟩
  | 37 => ⟨S64x64, .f32⟩
  | 38 => ⟨S130000x64, .f32⟩
  | 39 => ⟨S130000x64, .f32⟩
  | 40 => ⟨S130000x128, .f32⟩
  | 41 => ⟨S1x128x64, .f32⟩
  | 42 => ⟨S128x64, .f32⟩
  | 43 => ⟨S130000x64, .f32⟩
  | 44 => ⟨S1x64, .f32⟩
  | 45 => ⟨S64, .f32⟩
  | 46 => ⟨S1x64, .f32⟩
  | 47 => ⟨S130000x64, .f32⟩
  | 48 => ⟨S130000x64, .f32⟩
  | 49 => ⟨S130000x64, .f32⟩
  | 50 => ⟨S4000000x1, .f32⟩
  | 51 => ⟨S_, .i32⟩
  | 52 => ⟨S4000000, .i32⟩
  | 53 => ⟨S4000000, .i1⟩
  | 54 => ⟨S_, .i32⟩
  | 55 => ⟨S4000000, .i32⟩
  | 56 => ⟨S4000000, .i32⟩
  | 57 => ⟨S4000000, .i32⟩
  | 58 => ⟨S4000000x1, .i32⟩
  | 59 => ⟨S4000000x64, .f32⟩
  | 60 => ⟨S4000000x64, .f32⟩
  | 61 => ⟨S4000000x64, .f32⟩
  | 62 => ⟨S_, .f32⟩
  | 63 => ⟨S130000x64, .f32⟩
  | 64 => ⟨S4000000x1, .i32⟩
  | 65 => ⟨S130000x64, .f32⟩
  | 66 => ⟨S1x64x64, .f32⟩
  | 67 => ⟨S64x64, .f32⟩
  | 68 => ⟨S130000x64, .f32⟩
  | 69 => ⟨S130000x64, .f32⟩
  | 70 => ⟨S130000x128, .f32⟩
  | 71 => ⟨S1x128x64, .f32⟩
  | 72 => ⟨S128x64, .f32⟩
  | 73 => ⟨S130000x64, .f32⟩
  | 74 => ⟨S1x64, .f32⟩
  | 75 => ⟨S64, .f32⟩
  | 76 => ⟨S1x64, .f32⟩
  | 77 => ⟨S130000x64, .f32⟩
  | 78 => ⟨S130000x64, .f32⟩
  | 79 => ⟨S130000x64, .f32⟩
  | 80 => ⟨S130000x64, .f32⟩
  | 81 => ⟨S_, .f32⟩
  | 82 => ⟨S130000, .f32⟩
  | 83 => ⟨S130000x1, .f32⟩
  | 84 => ⟨S130000x1, .f32⟩
  | 85 => ⟨S_, .f32⟩
  | 86 => ⟨S130000x1, .f32⟩
  | 87 => ⟨S130000x1, .f32⟩
  | 88 => ⟨S130000x64, .f32⟩
  | 89 => ⟨S130000x64, .f32⟩
  | 90 => ⟨S4000000x1, .f32⟩
  | 91 => ⟨S_, .i32⟩
  | 92 => ⟨S4000000, .i32⟩
  | 93 => ⟨S4000000, .i1⟩
  | 94 => ⟨S_, .i32⟩
  | 95 => ⟨S4000000, .i32⟩
  | 96 => ⟨S4000000, .i32⟩
  | 97 => ⟨S4000000, .i32⟩
  | 98 => ⟨S4000000x1, .i32⟩
  | 99 => ⟨S4000000x64, .f32⟩
  | 100 => ⟨S4000000x64, .f32⟩
  | 101 => ⟨S4000000x64, .f32⟩
  | 102 => ⟨S_, .f32⟩
  | 103 => ⟨S130000x64, .f32⟩
  | 104 => ⟨S4000000x1, .i32⟩
  | 105 => ⟨S130000x64, .f32⟩
  | 106 => ⟨S1x64x64, .f32⟩
  | 107 => ⟨S64x64, .f32⟩
  | 108 => ⟨S130000x64, .f32⟩
  | 109 => ⟨S130000x64, .f32⟩
  | 110 => ⟨S130000x128, .f32⟩
  | 111 => ⟨S1x128x64, .f32⟩
  | 112 => ⟨S128x64, .f32⟩
  | 113 => ⟨S130000x64, .f32⟩
  | 114 => ⟨S1x64, .f32⟩
  | 115 => ⟨S64, .f32⟩
  | 116 => ⟨S1x64, .f32⟩
  | 117 => ⟨S130000x64, .f32⟩
  | 118 => ⟨S130000x64, .f32⟩
  | 119 => ⟨S130000x64, .f32⟩
  | 120 => ⟨S4000000x1, .f32⟩
  | 121 => ⟨S_, .i32⟩
  | 122 => ⟨S4000000, .i32⟩
  | 123 => ⟨S4000000, .i1⟩
  | 124 => ⟨S_, .i32⟩
  | 125 => ⟨S4000000, .i32⟩
  | 126 => ⟨S4000000, .i32⟩
  | 127 => ⟨S4000000, .i32⟩
  | _ => ⟨S100000x64, .f32⟩

abbrev hbmTy0_1 (i : Nat) : BufTy := match i % 128 with
  | 0 => ⟨S4000000x1, .i32⟩
  | 1 => ⟨S4000000x64, .f32⟩
  | 2 => ⟨S4000000x64, .f32⟩
  | 3 => ⟨S4000000x64, .f32⟩
  | 4 => ⟨S_, .f32⟩
  | 5 => ⟨S130000x64, .f32⟩
  | 6 => ⟨S4000000x1, .i32⟩
  | 7 => ⟨S130000x64, .f32⟩
  | 8 => ⟨S1x64x64, .f32⟩
  | 9 => ⟨S64x64, .f32⟩
  | 10 => ⟨S130000x64, .f32⟩
  | 11 => ⟨S130000x64, .f32⟩
  | 12 => ⟨S130000x128, .f32⟩
  | 13 => ⟨S1x128x64, .f32⟩
  | 14 => ⟨S128x64, .f32⟩
  | 15 => ⟨S130000x64, .f32⟩
  | 16 => ⟨S1x64, .f32⟩
  | 17 => ⟨S64, .f32⟩
  | 18 => ⟨S1x64, .f32⟩
  | 19 => ⟨S130000x64, .f32⟩
  | 20 => ⟨S130000x64, .f32⟩
  | 21 => ⟨S130000x64, .f32⟩
  | 22 => ⟨S130000x64, .f32⟩
  | 23 => ⟨S_, .f32⟩
  | 24 => ⟨S130000, .f32⟩
  | 25 => ⟨S130000x1, .f32⟩
  | 26 => ⟨S130000x1, .f32⟩
  | 27 => ⟨S_, .f32⟩
  | 28 => ⟨S130000x1, .f32⟩
  | 29 => ⟨S130000x1, .f32⟩
  | 30 => ⟨S130000x64, .f32⟩
  | 31 => ⟨S130000x64, .f32⟩
  | 32 => ⟨S100000x64, .f32⟩
  | 33 => ⟨S30000x64, .f32⟩
  | 34 => ⟨S1600000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S1600000x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S100000x64, .f32⟩
  | 51 => ⟨S100000x64, .f32⟩
  | 52 => ⟨S480000x1, .f32⟩
  | 53 => ⟨S_, .i32⟩
  | 54 => ⟨S480000, .i32⟩
  | 55 => ⟨S480000, .i1⟩
  | 56 => ⟨S_, .i32⟩
  | 57 => ⟨S480000, .i32⟩
  | 58 => ⟨S480000, .i32⟩
  | 59 => ⟨S480000, .i32⟩
  | 60 => ⟨S480000x1, .i32⟩
  | 61 => ⟨S480000x64, .f32⟩
  | 62 => ⟨S480000x64, .f32⟩
  | 63 => ⟨S480000x64, .f32⟩
  | 64 => ⟨S_, .f32⟩
  | 65 => ⟨S30000x64, .f32⟩
  | 66 => ⟨S480000x1, .i32⟩
  | 67 => ⟨S30000x64, .f32⟩
  | 68 => ⟨S30000x64, .f32⟩
  | 69 => ⟨S30000x64, .f32⟩
  | 70 => ⟨S100000x64, .f32⟩
  | 71 => ⟨S30000x64, .f32⟩
  | 72 => ⟨S130000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_1 : Ref sig .tc := ⟨.hbm, 51, rfl⟩
abbrev main_v29 : Ref sig .tc := ⟨.hbm, 52, rfl⟩
abbrev main_v30 : Ref sig .tc := ⟨.hbm, 53, rfl⟩
abbrev main_c_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_4 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_5 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_6 : Ref sig .tc := ⟨.hbm, 91, rfl⟩
abbrev main_v64 : Ref sig .tc := ⟨.hbm, 92, rfl⟩
abbrev main_v65 : Ref sig .tc := ⟨.hbm, 93, rfl⟩
abbrev main_c_7 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_8 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_9 : Ref sig .tc := ⟨.hbm, 121, rfl⟩
abbrev main_v91 : Ref sig .tc := ⟨.hbm, 122, rfl⟩
abbrev main_v92 : Ref sig .tc := ⟨.hbm, 123, rfl⟩
abbrev main_c_10 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_11 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_12 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_13 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_c_14 : Ref sig .tc := ⟨.hbm, 163, rfl⟩
abbrev main_v128 : Ref sig .tc := ⟨.hbm, 164, rfl⟩
abbrev main_v129 : Ref sig .tc := ⟨.hbm, 165, rfl⟩
abbrev main_c_15 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_16 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_c_17 : Ref sig .tc := ⟨.hbm, 181, rfl⟩
abbrev main_v143 : Ref sig .tc := ⟨.hbm, 182, rfl⟩
abbrev main_v144 : Ref sig .tc := ⟨.hbm, 183, rfl⟩
abbrev main_c_18 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_19 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩

abbrev nD : Nat := 1
abbrev τ : Topo := Topo.v7x

variable {F : FTy → Type} [FloatOps F]

class Facts₀ : Prop where
  concatenates_S100000x64_S30000x64_S130000x64_d0 : Shape.Concatenates [S100000x64, S30000x64] S130000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S130000x64 : S_.BroadcastsInDim S130000x64 (![] : Fin 0 → Fin S130000x64.rank)
  slices_S2x64x64_S1x64x64_0_0_0 : S2x64x64.Slices ![0, 0, 0] S1x64x64
  shapeCasts_S1x64x64_S64x64 : S1x64x64.ShapeCasts S64x64
  concatenates_S130000x64_S130000x64_S130000x128_d1 : Shape.Concatenates [S130000x64, S130000x64] S130000x128 1
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S130000x64_0_1 : S1x64.BroadcastsInDim S130000x64 (![0, 1] : Fin 2 → Fin S130000x64.rank)
  slices_S2x64x64_S1x64x64_1_0_0 : S2x64x64.Slices ![1, 0, 0] S1x64x64
  slices_S2x128x64_S1x128x64_1_0_0 : S2x128x64.Slices ![1, 0, 0] S1x128x64
  slices_S2x64_S1x64_1_0 : S2x64.Slices ![1, 0] S1x64
  reducesTo_S130000x64_S130000_d1 : S130000x64.ReducesTo [1] S130000
  h_S_ : 0 < S_.numel
  bcast_S130000_S130000x1_0 : S130000.BroadcastsInDim S130000x1 (![0] : Fin 1 → Fin S130000x1.rank)
  bcast_S_S130000x1 : S_.BroadcastsInDim S130000x1 (![] : Fin 0 → Fin S130000x1.rank)
  bcast_S130000x1_S130000x64_0_1 : S130000x1.BroadcastsInDim S130000x64 (![0, 1] : Fin 2 → Fin S130000x64.rank)
  slices_S130000x64_S100000x64_0_0 : S130000x64.Slices ![0, 0] S100000x64
  slices_S130000x64_S30000x64_100000_0 : S130000x64.Slices ![100000, 0] S30000x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x64_0_1 : S480000x1.BroadcastsInDim S480000x64 (![0, 1] : Fin 2 → Fin S480000x64.rank)
  bcast_S_S30000x64 : S_.BroadcastsInDim S30000x64 (![] : Fin 0 → Fin S30000x64.rank)
  gather_S130000x64_S4000000x1_S4000000x64_1_0_n_n_0_1_164_wf : GatherDims.WF S130000x64 S4000000x1 S4000000x64 [1] [0] [] [0] [] 1 ![1, 64]
  scatter_S130000x64_S4000000x1_S4000000x64_1_0_0_1_wf : ScatterDims.WF S130000x64 S4000000x1 S4000000x64 [1] [0] [0] 1
  dot_S130000x64_S64x64_S130000x64_1_0_0_1_n_n_wf : DotDims.WF S130000x64 S64x64 S130000x64 [1] [0] [0] [1] [] []
  dot_S130000x128_S128x64_S130000x64_1_0_0_1_n_n_wf : DotDims.WF S130000x128 S128x64 S130000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S30000x64_S480000x1_S480000x64_1_0_n_n_0_1_164_wf : GatherDims.WF S30000x64 S480000x1 S480000x64 [1] [0] [] [0] [] 1 ![1, 64]
  scatter_S30000x64_S480000x1_S480000x64_1_0_0_1_wf : ScatterDims.WF S30000x64 S480000x1 S480000x64 [1] [0] [0] 1
  dot_S30000x64_S64x64_S30000x64_1_0_0_1_n_n_wf : DotDims.WF S30000x64 S64x64 S30000x64 [1] [0] [0] [1] [] []

variable [Facts₀]

def gather_S130000x64_S4000000x1_S4000000x64_1_0_n_n_0_1_164 : GatherDims S130000x64 S4000000x1 S4000000x64 where
  offsetDims := [1]
  collapsedSliceDims := [0]
  operandBatchingDims := []
  startIndicesBatchingDims := []
  startIndexMap := [0]
  indexVectorDim := 1
  sliceSizes := ![1, 64]
  wf := gather_S130000x64_S4000000x1_S4000000x64_1_0_n_n_0_1_164_wf
def scatter_S130000x64_S4000000x1_S4000000x64_1_0_0_1 : ScatterDims S130000x64 S4000000x1 S4000000x64 where
  updateWindowDims := [1]
  insertedWindowDims := [0]
  scatterDimsToOperandDims := [0]
  indexVectorDim := 1
  wf := scatter_S130000x64_S4000000x1_S4000000x64_1_0_0_1_wf
def dot_S130000x64_S64x64_S130000x64_1_0_0_1_n_n : DotDims S130000x64 S64x64 S130000x64 where
  lhsContracting := [1]
  rhsContracting := [0]
  lhsNonContracting := [0]
  rhsNonContracting := [1]
  lhsBatch := []
  rhsBatch := []
  wf := dot_S130000x64_S64x64_S130000x64_1_0_0_1_n_n_wf
def dot_S130000x128_S128x64_S130000x64_1_0_0_1_n_n : DotDims S130000x128 S128x64 S130000x64 where
  lhsContracting := [1]
  rhsContracting := [0]
  lhsNonContracting := [0]
  rhsNonContracting := [1]
  lhsBatch := []
  rhsBatch := []
  wf := dot_S130000x128_S128x64_S130000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf

class Facts : Prop extends Facts₀ where

variable [Facts]
-- ==== Proof.KRun.lean ====
/-
  The idealized kernel program's run with its RESULT named: every weakly fair execution of @main terminates,
  nothing faulting, with the result buffer holding what the last stretch of host operations leaves there — the
  fold of the host stretches and of the six regions' write-backs from the launch memory — and every argument
  array as launched. The run is the one that proves the frame; only the final state is read at one more buffer.
-/
import proofs.«170398_j17961553231970_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main on the TensorCores terminates, nothing
    faulting; in every final state the result buffer holds the boundary contents after the last host stretch and
    the argument arrays are as launched. -/
theorem run_value : θ_run defs (onTc (τ := τ) (main (F := F))) ⟨m, fun _ => 0, ρ⟩ (fun r => ∀ c : Dev nD,
      r.2.mem ((c.tc : Thread nD τ).loc main_v110) = W12 m ρ c (Proc.devRef .tc main_v110) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v110 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.RunValue

end
-- ==== Proof.Skel.lean ====
/-
  The whole computation as ONE composition of its components, so that two programs which agree component by
  component agree on the result.

  From the user rows `u` and the item rows `i`: stack them (`cat`), aggregate over the adjacency (`spA`), run each
  branch's two layers — the second one on the aggregate of the first one's output —, keep the user rows of the user
  branch (`top`) and the item rows of the item branch (`bot`), add each to its pairwise branch (`P4` on the symptom
  aggregate `su`, `P5` on the herb aggregate `sh`) and stack the two results.
-/
import Idealize.ShloMosaic.PureOps.Ideal

noncomputable section

namespace Cert.Bridge

open Idealize.ShloMosaic

/-- Arrays of 130000, 100000 and 30000 rows of 64 extended reals. -/
abbrev A130 : Type := FVec Ideal ⟨2, ![130000, 64]⟩ .f32
abbrev A100 : Type := FVec Ideal ⟨2, ![100000, 64]⟩ .f32
abbrev A30 : Type := FVec Ideal ⟨2, ![30000, 64]⟩ .f32

/-- A branch: the first layer on the stacked embeddings and their aggregate, the second on its output and that
    output's aggregate. -/
def branch (spA : A130 → A130) (L0 L1 : A130 → A130 → A130) (e : A130) : A130 :=
  L1 (L0 e (spA e)) (spA (L0 e (spA e)))

/-- The result of the whole computation over its components. -/
def skeleton (cat : A100 → A30 → A130) (spA : A130 → A130) (L0u L1u L0i L1i : A130 → A130 → A130)
    (top : A130 → A100) (bot : A130 → A30) (P4 : A100 → A100 → A100) (P5 : A30 → A30 → A30)
    (su : A100) (sh : A30) (u : A100) (i : A30) : A130 :=
  cat (P4 su (top (branch spA L0u L1u (cat u i)))) (P5 sh (bot (branch spA L0i L1i (cat u i))))

end Cert.Bridge

end
-- ==== Proof.Spec.lean ====
/-
  The mathematics both programs compute, row by row, on the extended reals.

  A node's update in one graph-convolution layer reads only that node's own row of the current embedding
  `ego` and of the neighbourhood aggregate `agg`, and the layer's small dense matrices:
    hid      = tanh (agg · Q)                                   (64 hidden features)
    layer    = tanh (ego · W_top + hid · W_bot + b)             (the 128 × 64 matrix W split into its two halves)
    unitRow  = x / max (sqrt (Σ_k x_k²)) ε                      (the row scaled to unit length, guarded by ε)
    pairRow  = tanh (x · M) + g                                 (the pairwise branch added to the graph branch)
  Every sum is a finite sum in the extended reals, a commutative additive monoid, so its order and grouping do not
  matter; no distributivity or cancellation is used anywhere, hence no finiteness of the inputs either.
-/
import Idealize.ShloMosaic.PureOps.Ideal
import Idealize.ShloMosaic.Lib.ValueIdx

noncomputable section

namespace Cert.Bridge

open Idealize.ShloMosaic Idealize.ShloMosaic.ValueIdx
open scoped BigOperators

/-- A rank-2 array read as a matrix of extended reals. -/
def mat {a b : Nat} (x : (⟨2, ![a, b]⟩ : Shape).Idx → EReal) : Fin a → Fin b → EReal := fun p q => x (ix2 p q)

/-- The single row of a `1 × b` array. -/
def row0 {b : Nat} (x : (⟨2, ![1, b]⟩ : Shape).Idx → EReal) : Fin b → EReal := fun q => x (ix2 0 q)

/-- The hidden features of a node: `tanh` of its aggregate row against `Q`. -/
def hid {r : Nat} (agg : Fin r → Fin 64 → EReal) (Q : Fin 64 → Fin 64 → EReal) : Fin r → Fin 64 → EReal :=
  fun p k => Ideal.tanh (∑ j : Fin 64, agg p j * Q j k)

/-- One layer's update of a node's row: `tanh (ego · We + hid · Wh + b)`. -/
def layer {r : Nat} (ego agg : Fin r → Fin 64 → EReal) (Q We Wh : Fin 64 → Fin 64 → EReal) (b : Fin 64 → EReal) :
    Fin r → Fin 64 → EReal :=
  fun p q => Ideal.tanh ((∑ k : Fin 64, ego p k * We k q + ∑ k : Fin 64, hid agg Q p k * Wh k q) + b q)

/-- A row's sum of squares. -/
def sumSq {r : Nat} (x : Fin r → Fin 64 → EReal) : Fin r → EReal := fun p => ∑ k : Fin 64, x p k * x p k

/-- A row divided by its length, the length guarded from below by `ε`. -/
def unitRow {r : Nat} (x : Fin r → Fin 64 → EReal) (ε : EReal) : Fin r → Fin 64 → EReal :=
  fun p q => Ideal.div (x p q) (max (Ideal.sqrt (sumSq x p)) ε)

/-- The pairwise branch of a node added to its graph branch: `tanh (x · M) + g`. -/
def pairRow {r : Nat} (x : Fin r → Fin 64 → EReal) (M : Fin 64 → Fin 64 → EReal) (g : Fin r → Fin 64 → EReal) :
    Fin r → Fin 64 → EReal :=
  fun p q => Ideal.tanh (∑ k : Fin 64, x p k * M k q) + g p q

/-- The guard `ε` of the unit-length scaling: the binary32 word both programs carry. -/
def eps : EReal := Ideal.ofBits .f32 0x2B8CBCCC#32

/-! ## The same functions on whole arrays of `n` rows -/

/-- A matrix written back as a rank-2 array. -/
def arr {a b : Nat} (f : Fin a → Fin b → EReal) : (⟨2, ![a, b]⟩ : Shape).Idx → EReal := fun i => f (i 0) (i 1)

theorem arr_ix2 {a b : Nat} (f : Fin a → Fin b → EReal) (p : Fin a) (q : Fin b) : arr f (ix2 p q) = f p q := rfl

theorem mat_arr {a b : Nat} (f : Fin a → Fin b → EReal) : mat (arr f) = f := rfl

/-- A layer on whole arrays. -/
def layerA {n : Nat} (ego agg : (⟨2, ![n, 64]⟩ : Shape).Idx → EReal) (Q We Wh : (⟨2, ![64, 64]⟩ : Shape).Idx → EReal)
    (b : (⟨2, ![1, 64]⟩ : Shape).Idx → EReal) : (⟨2, ![n, 64]⟩ : Shape).Idx → EReal :=
  arr (layer (mat ego) (mat agg) (mat Q) (mat We) (mat Wh) (row0 b))

/-- The unit-length scaling on whole arrays. -/
def unitA {n : Nat} (x : (⟨2, ![n, 64]⟩ : Shape).Idx → EReal) : (⟨2, ![n, 64]⟩ : Shape).Idx → EReal :=
  arr (unitRow (mat x) eps)

/-- The pairwise branch on whole arrays. -/
def pairA {n : Nat} (x : (⟨2, ![n, 64]⟩ : Shape).Idx → EReal) (M : (⟨2, ![64, 64]⟩ : Shape).Idx → EReal)
    (g : (⟨2, ![n, 64]⟩ : Shape).Idx → EReal) : (⟨2, ![n, 64]⟩ : Shape).Idx → EReal :=
  arr (pairRow (mat x) (mat M) (mat g))

end Cert.Bridge

end
-- ==== Proof.KDefs.lean ====
/-
  The kernel program's result as the composition of its components.

  Around its six tiled regions the program runs the same host operations as the reference — stacking the rows,
  the three sparse aggregations, cutting each layer's matrices out of the stacked parameters — and between them
  the regions compute a layer, a layer followed by the scaling to unit length, or the pairwise branch, each row
  by row. Named here are those pieces, in this program's own spelling, and their composition.
-/
import proofs.«170398_j17961553231970_2_alg».proof.Proof.Gen.KernelIdeal
import proofs.«170398_j17961553231970_2_alg».proof.Proof.Skel
import proofs.«170398_j17961553231970_2_alg».proof.Proof.Spec

set_option maxRecDepth 16384

noncomputable section

namespace Cert.Bridge.K

open Cert.KernelIdeal Cert.KernelIdeal.Gen
open Idealize.ShloMosaic Idealize.ShloMosaic.TcCoe Idealize.SL.Sem

/-- The user rows stacked on the item rows. -/
def cat (a : A100) (b : A30) : A130 :=
  concatenate S130000x64 0 [⟨S100000x64, a⟩, ⟨S30000x64, b⟩] concatenates_S100000x64_S30000x64_S130000x64_d0

/-- The adjacency aggregation of a 130000-row array: row `rows e` collects `vals e` times row `cols e`. -/
def spA (vals : FVec Ideal S4000000 .f32) (rows cols : IVec S4000000 32) (x : A130) : A130 :=
  Host.scatterAdd (F := Ideal) scatter_S130000x64_S4000000x1_S4000000x64_1_0_0_1 (broadcastInDim S130000x64 ![] bcast_S_S130000x64 (constant S_ .f32 0x00000000#32)) (broadcastInDim S4000000x1 ![0] bcast_S4000000_S4000000x1_0 rows) (mulf (broadcastInDim S4000000x64 ![0, 1] bcast_S4000000x1_S4000000x64_0_1 (broadcastInDim S4000000x1 ![0] bcast_S4000000_S4000000x1_0 vals)) (Host.gather gather_S130000x64_S4000000x1_S4000000x64_1_0_n_n_0_1_164 x (broadcastInDim S4000000x1 ![0] bcast_S4000000_S4000000x1_0 (select (cmpi .slt cols (broadcastInDim S4000000 ![] bcast_S_S4000000 (constantI S_ 32 0#32))) (addi cols (broadcastInDim S4000000 ![] bcast_S_S4000000 (constantI S_ 32 130000#32))) cols))))

/-- The symptom aggregation of the user rows. -/
def spS (vals : FVec Ideal S1600000 .f32) (rows cols : IVec S1600000 32) (x : A100) : A100 :=
  Host.scatterAdd (F := Ideal) scatter_S100000x64_S1600000x1_S1600000x64_1_0_0_1 (broadcastInDim S100000x64 ![] bcast_S_S100000x64 (constant S_ .f32 0x00000000#32)) (broadcastInDim S1600000x1 ![0] bcast_S1600000_S1600000x1_0 rows) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 x (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))

/-- The herb aggregation of the item rows. -/
def spH (vals : FVec Ideal S480000 .f32) (rows cols : IVec S480000 32) (x : A30) : A30 :=
  Host.scatterAdd (F := Ideal) scatter_S30000x64_S480000x1_S480000x64_1_0_0_1 (broadcastInDim S30000x64 ![] bcast_S_S30000x64 (constant S_ .f32 0x00000000#32)) (broadcastInDim S480000x1 ![0] bcast_S480000_S480000x1_0 rows) (mulf (broadcastInDim S480000x64 ![0, 1] bcast_S480000x1_S480000x64_0_1 (broadcastInDim S480000x1 ![0] bcast_S480000_S480000x1_0 vals)) (Host.gather gather_S30000x64_S480000x1_S480000x64_1_0_n_n_0_1_164 x (broadcastInDim S480000x1 ![0] bcast_S480000_S480000x1_0 (select (cmpi .slt cols (broadcastInDim S480000 ![] bcast_S_S480000 (constantI S_ 32 0#32))) (addi cols (broadcastInDim S480000 ![] bcast_S_S480000 (constantI S_ 32 30000#32))) cols))))

/-- Layer `l`'s 64 × 64 matrix `Q`, its 128 × 64 matrix `W` and its bias vector, cut out of the stacked parameters. -/
def q0 (Q : FVec Ideal S2x64x64 .f32) : FVec Ideal S64x64 .f32 :=
  shapeCast _ (extractStridedSlice S1x64x64 ![0, 0, 0] Q slices_S2x64x64_S1x64x64_0_0_0) shapeCasts_S1x64x64_S64x64
def q1 (Q : FVec Ideal S2x64x64 .f32) : FVec Ideal S64x64 .f32 :=
  shapeCast _ (extractStridedSlice S1x64x64 ![1, 0, 0] Q slices_S2x64x64_S1x64x64_1_0_0) shapeCasts_S1x64x64_S64x64
def w0 (W : FVec Ideal S2x128x64 .f32) : FVec Ideal S128x64 .f32 :=
  shapeCast _ (extractStridedSlice S1x128x64 ![0, 0, 0] W slices_S2x128x64_S1x128x64_0_0_0) shapeCasts_S1x128x64_S128x64
def w1 (W : FVec Ideal S2x128x64 .f32) : FVec Ideal S128x64 .f32 :=
  shapeCast _ (extractStridedSlice S1x128x64 ![1, 0, 0] W slices_S2x128x64_S1x128x64_1_0_0) shapeCasts_S1x128x64_S128x64
def b0 (b : FVec Ideal S2x64 .f32) : FVec Ideal S64 .f32 :=
  shapeCast _ (extractStridedSlice S1x64 ![0, 0] b slices_S2x64_S1x64_0_0) shapeCasts_S1x64_S64
def b1 (b : FVec Ideal S2x64 .f32) : FVec Ideal S64 .f32 :=
  shapeCast _ (extractStridedSlice S1x64 ![1, 0] b slices_S2x64_S1x64_1_0) shapeCasts_S1x64_S64

/-- The rows 0–63 and 64–127 of a layer's `W`, and its bias vector as a one-row block. -/
def wTop (W : FVec Ideal S128x64 .f32) : FVec Ideal S64x64 .f32 := extractStridedSlice S64x64 ![0, 0] W slices_S128x64_S64x64_0_0
def wBot (W : FVec Ideal S128x64 .f32) : FVec Ideal S64x64 .f32 := extractStridedSlice S64x64 ![64, 0] W slices_S128x64_S64x64_64_0
def bRow (bvec : FVec Ideal S64 .f32) : FVec Ideal S1x64 .f32 := shapeCast _ bvec shapeCasts_S64_S1x64

/-- One layer on whole arrays, over the split `W`. -/
def kLayer (Q : FVec Ideal S64x64 .f32) (W : FVec Ideal S128x64 .f32) (bvec : FVec Ideal S64 .f32) (ego agg : A130) : A130 :=
  layerA ego agg Q (wTop W) (wBot W) (bRow bvec)

/-- The user rows and the item rows of a stacked array. -/
def top (X : A130) : A100 := extractStridedSlice S100000x64 ![0, 0] X slices_S130000x64_S100000x64_0_0
def bot (X : A130) : A30 := extractStridedSlice S30000x64 ![100000, 0] X slices_S130000x64_S30000x64_100000_0

/-- The kernel program's result as a function of its nineteen argument arrays. -/
def resultOf (a0 : A100) (a1 : A30) (a2 : FVec Ideal S4000000 .f32) (a3 : FVec Ideal S1600000 .f32) (a4 : FVec Ideal S480000 .f32)
    (a5 a6 : FVec Ideal S2x64x64 .f32) (a7 a8 : FVec Ideal S2x128x64 .f32) (a9 a10 : FVec Ideal S2x64 .f32)
    (a11 a12 : FVec Ideal S64x64 .f32) (a13 a14 : IVec S4000000 32) (a15 a16 : IVec S1600000 32) (a17 a18 : IVec S480000 32) : A130 :=
  skeleton cat (spA a2 a13 a14)
    (kLayer (q0 a5) (w0 a7) (b0 a9)) (fun e a => unitA (kLayer (q1 a5) (w1 a7) (b1 a9) e a))
    (kLayer (q0 a6) (w0 a8) (b0 a10)) (fun e a => unitA (kLayer (q1 a6) (w1 a8) (b1 a10) e a))
    top bot (fun x g => pairA x a11 g) (fun x g => pairA x a12 g)
    (spS a3 a15 a16 a0) (spH a4 a17 a18 a1) a0 a1

end Cert.Bridge.K

end
-- ==== Proof.KKeep.lean ====
/-
  Which buffers of the idealized kernel program keep their contents, and the arrays the two branches pass on.

  The buffer contents at each boundary of @main are a fold from the launch memory: a host stretch applies its
  operations and writes only their result buffers, a region writes only its own arrays. A buffer that nothing
  between two boundaries writes has the same contents at both; an argument array has its launch contents at every
  boundary up to the region that reads it.
-/
import proofs.«170398_j17961553231970_2_alg».proof.Proof.Gen.KernelIdeal.Frame
import proofs.«170398_j17961553231970_2_alg».proof.Proof.KDefs
import Idealize.ShloMosaic.Lib.StableHlo.Run

set_option maxRecDepth 16384

noncomputable section

namespace Cert.Bridge.K

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What each host stretch writes, and what it keeps -/

/-- The buffers host stretch 0 writes. -/
abbrev wr0 : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_v22]
theorem wr0_sub : (hostOps0 : List (HloOp τ sig (Elt Ideal))).Forall fun op => op.writes ⊆ (wr0.map (Proc.devRef (τ := τ) .tc)).toFinset := by
  simp only [hostOps0, List.Forall, nullary_writes, unary_writes, binary_writes, ternary_writes, reshape_writes, Finset.singleton_subset_iff, List.mem_toFinset]
  repeat' apply And.intro
  all_goals exact List.mem_map_of_mem (by decide)
/-- A buffer stretch 0 does not write keeps its contents through it. -/
theorem keep0 (b : Ref sig .tc) (hb : b ∉ wr0) : W1 m ρ c (Proc.devRef .tc b) = W0 m ρ c (Proc.devRef .tc b) :=
  after_of_writes_sub hostOps0 _ wr0_sub hb

/-- The buffers host stretch 1 writes. -/
abbrev wr1 : List (Ref sig .tc) := [main_v24, main_c_1, main_v25, main_v26, main_c_2, main_v27, main_v28, main_v29, main_v30, main_v31, main_v32, main_v33, main_cst_3, main_v34, main_v35, main_v36, main_v37, main_v38, main_v39, main_v40, main_v41, main_v42, main_v43, main_v44, main_v45]
theorem wr1_sub : (hostOps1 : List (HloOp τ sig (Elt Ideal))).Forall fun op => op.writes ⊆ (wr1.map (Proc.devRef (τ := τ) .tc)).toFinset := by
  simp only [hostOps1, List.Forall, nullary_writes, unary_writes, binary_writes, ternary_writes, reshape_writes, Finset.singleton_subset_iff, List.mem_toFinset]
  repeat' apply And.intro
  all_goals exact List.mem_map_of_mem (by decide)
/-- A buffer stretch 1 does not write keeps its contents through it. -/
theorem keep1 (b : Ref sig .tc) (hb : b ∉ wr1) : W3 m ρ c (Proc.devRef .tc b) = W2 m ρ c (Proc.devRef .tc b) :=
  after_of_writes_sub hostOps1 _ wr1_sub hb

/-- The buffers host stretch 2 writes. -/
abbrev wr2 : List (Ref sig .tc) := [main_v47, main_v48, main_v49, main_v50, main_v51, main_v52, main_v53, main_v54, main_v55]
theorem wr2_sub : (hostOps2 : List (HloOp τ sig (Elt Ideal))).Forall fun op => op.writes ⊆ (wr2.map (Proc.devRef (τ := τ) .tc)).toFinset := by
  simp only [hostOps2, List.Forall, nullary_writes, unary_writes, binary_writes, ternary_writes, reshape_writes, Finset.singleton_subset_iff, List.mem_toFinset]
  repeat' apply And.intro
  all_goals exact List.mem_map_of_mem (by decide)
/-- A buffer stretch 2 does not write keeps its contents through it. -/
theorem keep2 (b : Ref sig .tc) (hb : b ∉ wr2) : W5 m ρ c (Proc.devRef .tc b) = W4 m ρ c (Proc.devRef .tc b) :=
  after_of_writes_sub hostOps2 _ wr2_sub hb

/-- The buffers host stretch 3 writes. -/
abbrev wr3 : List (Ref sig .tc) := [main_v57, main_c_4, main_v58, main_v59, main_c_5, main_v60, main_v61, main_v62, main_v63, main_v64, main_v65, main_v66, main_cst_6, main_v67, main_v68, main_v69, main_v70, main_v71, main_v72, main_v73, main_v74, main_v75, main_v76, main_v77, main_v78]
theorem wr3_sub : (hostOps3 : List (HloOp τ sig (Elt Ideal))).Forall fun op => op.writes ⊆ (wr3.map (Proc.devRef (τ := τ) .tc)).toFinset := by
  simp only [hostOps3, List.Forall, nullary_writes, unary_writes, binary_writes, ternary_writes, reshape_writes, Finset.singleton_subset_iff, List.mem_toFinset]
  repeat' apply And.intro
  all_goals exact List.mem_map_of_mem (by decide)
/-- A buffer stretch 3 does not write keeps its contents through it. -/
theorem keep3 (b : Ref sig .tc) (hb : b ∉ wr3) : W7 m ρ c (Proc.devRef .tc b) = W6 m ρ c (Proc.devRef .tc b) :=
  after_of_writes_sub hostOps3 _ wr3_sub hb

/-- The buffers host stretch 4 writes. -/
abbrev wr4 : List (Ref sig .tc) := [main_v80, main_v81, main_v82, main_c_7, main_v83, main_v84, main_c_8, main_v85, main_v86, main_v87, main_v88, main_v89, main_v90, main_v91, main_cst_9, main_v92, main_v93, main_v94, main_v95, main_c_10, main_v96, main_v97, main_c_11, main_v98, main_v99, main_v100, main_v101, main_v102, main_v103, main_v104, main_cst_12, main_v105, main_v106, main_v107]
theorem wr4_sub : (hostOps4 : List (HloOp τ sig (Elt Ideal))).Forall fun op => op.writes ⊆ (wr4.map (Proc.devRef (τ := τ) .tc)).toFinset := by
  simp only [hostOps4, List.Forall, nullary_writes, unary_writes, binary_writes, ternary_writes, reshape_writes, Finset.singleton_subset_iff, List.mem_toFinset]
  repeat' apply And.intro
  all_goals exact List.mem_map_of_mem (by decide)
/-- A buffer stretch 4 does not write keeps its contents through it. -/
theorem keep4 (b : Ref sig .tc) (hb : b ∉ wr4) : W9 m ρ c (Proc.devRef .tc b) = W8 m ρ c (Proc.devRef .tc b) :=
  after_of_writes_sub hostOps4 _ wr4_sub hb

/-- The buffers host stretch 6 writes. -/
abbrev wr6 : List (Ref sig .tc) := [main_v110]
theorem wr6_sub : (hostOps6 : List (HloOp τ sig (Elt Ideal))).Forall fun op => op.writes ⊆ (wr6.map (Proc.devRef (τ := τ) .tc)).toFinset := by
  simp only [hostOps6, List.Forall, nullary_writes, unary_writes, binary_writes, ternary_writes, reshape_writes, Finset.singleton_subset_iff, List.mem_toFinset]
  repeat' apply And.intro
  all_goals exact List.mem_map_of_mem (by decide)
/-- A buffer stretch 6 does not write keeps its contents through it. -/
theorem keep6 (b : Ref sig .tc) (hb : b ∉ wr6) : W12 m ρ c (Proc.devRef .tc b) = W11 m ρ c (Proc.devRef .tc b) :=
  after_of_writes_sub hostOps6 _ wr6_sub hb

/-! ## A buffer nothing writes, at the later boundaries -/

theorem to2 (b : Ref sig .tc) (h0 : b ∉ wr0) (n0 : ∀ w, Pipeline.arrRef spec0 w ≠ b) :
    W2 m ρ c (Proc.devRef .tc b) = W0 m ρ c (Proc.devRef .tc b) :=
  (W2_of_ne m ρ c b n0).trans (keep0 m ρ c b h0)
theorem to4 (b : Ref sig .tc) (h0 : b ∉ wr0) (n0 : ∀ w, Pipeline.arrRef spec0 w ≠ b) (h1 : b ∉ wr1) (n1 : ∀ w, Pipeline.arrRef spec1 w ≠ b) :
    W4 m ρ c (Proc.devRef .tc b) = W0 m ρ c (Proc.devRef .tc b) :=
  (W4_of_ne m ρ c b n1).trans ((keep1 m ρ c b h1).trans (to2 m ρ c b h0 n0))
theorem to6 (b : Ref sig .tc) (h0 : b ∉ wr0) (n0 : ∀ w, Pipeline.arrRef spec0 w ≠ b) (h1 : b ∉ wr1) (n1 : ∀ w, Pipeline.arrRef spec1 w ≠ b)
    (h2 : b ∉ wr2) (n2 : ∀ w, Pipeline.arrRef spec2 w ≠ b) : W6 m ρ c (Proc.devRef .tc b) = W0 m ρ c (Proc.devRef .tc b) :=
  (W6_of_ne m ρ c b n2).trans ((keep2 m ρ c b h2).trans (to4 m ρ c b h0 n0 h1 n1))
theorem to8 (b : Ref sig .tc) (h0 : b ∉ wr0) (n0 : ∀ w, Pipeline.arrRef spec0 w ≠ b) (h1 : b ∉ wr1) (n1 : ∀ w, Pipeline.arrRef spec1 w ≠ b)
    (h2 : b ∉ wr2) (n2 : ∀ w, Pipeline.arrRef spec2 w ≠ b) (h3 : b ∉ wr3) (n3 : ∀ w, Pipeline.arrRef spec3 w ≠ b) :
    W8 m ρ c (Proc.devRef .tc b) = W0 m ρ c (Proc.devRef .tc b) :=
  (W8_of_ne m ρ c b n3).trans ((keep3 m ρ c b h3).trans (to6 m ρ c b h0 n0 h1 n1 h2 n2))

/-! ## The arrays the two branches pass on -/

/-- The stacked embeddings and their adjacency aggregate. -/
def E0 : A130 := cat (m ((c : Thread nD τ).loc main_arg0)) (m ((c : Thread nD τ).loc main_arg1))
def G0 : A130 := spA (m ((c : Thread nD τ).loc main_arg2)) (m ((c : Thread nD τ).loc main_arg13)) (m ((c : Thread nD τ).loc main_arg14)) (E0 m c)
/-- The user branch after its first and after its second, normalising, layer. -/
def U1 : A130 := kLayer (q0 (m ((c : Thread nD τ).loc main_arg5))) (w0 (m ((c : Thread nD τ).loc main_arg7))) (b0 (m ((c : Thread nD τ).loc main_arg9))) (E0 m c) (G0 m c)
def U2 : A130 := unitA (kLayer (q1 (m ((c : Thread nD τ).loc main_arg5))) (w1 (m ((c : Thread nD τ).loc main_arg7))) (b1 (m ((c : Thread nD τ).loc main_arg9))) (U1 m c) (spA (m ((c : Thread nD τ).loc main_arg2)) (m ((c : Thread nD τ).loc main_arg13)) (m ((c : Thread nD τ).loc main_arg14)) (U1 m c)))
/-- The item branch after its first and after its second, normalising, layer. -/
def I1 : A130 := kLayer (q0 (m ((c : Thread nD τ).loc main_arg6))) (w0 (m ((c : Thread nD τ).loc main_arg8))) (b0 (m ((c : Thread nD τ).loc main_arg10))) (E0 m c) (G0 m c)
def I2 : A130 := unitA (kLayer (q1 (m ((c : Thread nD τ).loc main_arg6))) (w1 (m ((c : Thread nD τ).loc main_arg8))) (b1 (m ((c : Thread nD τ).loc main_arg10))) (I1 m c) (spA (m ((c : Thread nD τ).loc main_arg2)) (m ((c : Thread nD τ).loc main_arg13)) (m ((c : Thread nD τ).loc main_arg14)) (I1 m c)))

end Cert.Bridge.K

end
-- ==== Proof.KSt0.lean ====
/-
  What the first host stretch of the idealized kernel program leaves in the buffers the first region reads: the
  stacked embeddings, their adjacency aggregate, and the first user layer's matrices cut out of the stacked
  parameters, each as the named component applied to the launch contents of the argument arrays.
-/
import proofs.«170398_j17961553231970_2_alg».proof.Proof.Gen.KernelIdeal.Frame
import proofs.«170398_j17961553231970_2_alg».proof.Proof.KDefs
import Idealize.ShloMosaic.Lib.StableHlo.Run

set_option maxRecDepth 16384

noncomputable section

namespace Cert.Bridge.K

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem s0_v0 : W1 m ρ c (Proc.devRef .tc main_v0) = cat (m ((c : Thread nD τ).loc main_arg0)) (m ((c : Thread nD τ).loc main_arg1)) := by
  dsimp only [W1, hostOps0]
  after_results_simp
  rfl

set_option maxHeartbeats 1000000 in
theorem s0_v13 : W1 m ρ c (Proc.devRef .tc main_v13) = spA (m ((c : Thread nD τ).loc main_arg2)) (m ((c : Thread nD τ).loc main_arg13)) (m ((c : Thread nD τ).loc main_arg14)) (cat (m ((c : Thread nD τ).loc main_arg0)) (m ((c : Thread nD τ).loc main_arg1))) := by
  dsimp only [W1, hostOps0]
  after_results_simp
  rfl

theorem s0_v15 : W1 m ρ c (Proc.devRef .tc main_v15) = q0 (m ((c : Thread nD τ).loc main_arg5)) := by
  dsimp only [W1, hostOps0]
  after_results_simp
  rfl

theorem s0_v20 : W1 m ρ c (Proc.devRef .tc main_v20) = wTop (w0 (m ((c : Thread nD τ).loc main_arg7))) := by
  dsimp only [W1, hostOps0]
  after_results_simp
  rfl

theorem s0_v21 : W1 m ρ c (Proc.devRef .tc main_v21) = wBot (w0 (m ((c : Thread nD τ).loc main_arg7))) := by
  dsimp only [W1, hostOps0]
  after_results_simp
  rfl

theorem s0_v22 : W1 m ρ c (Proc.devRef .tc main_v22) = bRow (b0 (m ((c : Thread nD τ).loc main_arg9))) := by
  dsimp only [W1, hostOps0]
  after_results_simp
  rfl

end Cert.Bridge.K

end
-- ==== Proof.KSt1.lean ====
/-
  What the second host stretch leaves in the buffers the second region reads, over the contents it finds: the
  adjacency aggregate of the first user layer's output, and the second user layer's matrices.
-/
import proofs.«170398_j17961553231970_2_alg».proof.Proof.Gen.KernelIdeal.Frame
import proofs.«170398_j17961553231970_2_alg».proof.Proof.KDefs
import Idealize.ShloMosaic.Lib.StableHlo.Run

set_option maxRecDepth 16384

noncomputable section

namespace Cert.Bridge.K

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 1000000 in
theorem st1_v36 : W3 m ρ c (Proc.devRef .tc main_v36) = spA (W2 m ρ c (Proc.devRef .tc main_arg2)) (W2 m ρ c (Proc.devRef .tc main_arg13)) (W2 m ρ c (Proc.devRef .tc main_arg14)) (W2 m ρ c (Proc.devRef .tc main_v23)) := by
  dsimp only [W3, hostOps1]
  after_results_simp
  rfl

theorem st1_v38 : W3 m ρ c (Proc.devRef .tc main_v38) = q1 (W2 m ρ c (Proc.devRef .tc main_arg5)) := by
  dsimp only [W3, hostOps1]
  after_results_simp
  rfl

theorem st1_v43 : W3 m ρ c (Proc.devRef .tc main_v43) = wTop (w1 (W2 m ρ c (Proc.devRef .tc main_arg7))) := by
  dsimp only [W3, hostOps1]
  after_results_simp
  rfl

theorem st1_v44 : W3 m ρ c (Proc.devRef .tc main_v44) = wBot (w1 (W2 m ρ c (Proc.devRef .tc main_arg7))) := by
  dsimp only [W3, hostOps1]
  after_results_simp
  rfl

theorem st1_v45 : W3 m ρ c (Proc.devRef .tc main_v45) = bRow (b1 (W2 m ρ c (Proc.devRef .tc main_arg9))) := by
  dsimp only [W3, hostOps1]
  after_results_simp
  rfl

end Cert.Bridge.K

end
-- ==== Proof.KSt2.lean ====
/-
  What the third host stretch leaves in the buffers the third region reads, over the contents it finds: the first
  item layer's matrices.
-/
import proofs.«170398_j17961553231970_2_alg».proof.Proof.Gen.KernelIdeal.Frame
import proofs.«170398_j17961553231970_2_alg».proof.Proof.KDefs
import Idealize.ShloMosaic.Lib.StableHlo.Run

set_option maxRecDepth 16384

noncomputable section

namespace Cert.Bridge.K

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem st2_v48 : W5 m ρ c (Proc.devRef .tc main_v48) = q0 (W4 m ρ c (Proc.devRef .tc main_arg6)) := by
  dsimp only [W5, hostOps2]
  after_results_simp
  rfl

theorem st2_v53 : W5 m ρ c (Proc.devRef .tc main_v53) = wTop (w0 (W4 m ρ c (Proc.devRef .tc main_arg8))) := by
  dsimp only [W5, hostOps2]
  after_results_simp
  rfl

theorem st2_v54 : W5 m ρ c (Proc.devRef .tc main_v54) = wBot (w0 (W4 m ρ c (Proc.devRef .tc main_arg8))) := by
  dsimp only [W5, hostOps2]
  after_results_simp
  rfl

theorem st2_v55 : W5 m ρ c (Proc.devRef .tc main_v55) = bRow (b0 (W4 m ρ c (Proc.devRef .tc main_arg10))) := by
  dsimp only [W5, hostOps2]
  after_results_simp
  rfl

end Cert.Bridge.K

end
-- ==== Proof.KSt3.lean ====
/-
  What the fourth host stretch leaves in the buffers the fourth region reads, over the contents it finds: the
  adjacency aggregate of the first item layer's output, and the second item layer's matrices.
-/
import proofs.«170398_j17961553231970_2_alg».proof.Proof.Gen.KernelIdeal.Frame
import proofs.«170398_j17961553231970_2_alg».proof.Proof.KDefs
import Idealize.ShloMosaic.Lib.StableHlo.Run

set_option maxRecDepth 16384

noncomputable section

namespace Cert.Bridge.K

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 1000000 in
theorem st3_v69 : W7 m ρ c (Proc.devRef .tc main_v69) = spA (W6 m ρ c (Proc.devRef .tc main_arg2)) (W6 m ρ c (Proc.devRef .tc main_arg13)) (W6 m ρ c (Proc.devRef .tc main_arg14)) (W6 m ρ c (Proc.devRef .tc main_v56)) := by
  dsimp only [W7, hostOps3]
  after_results_simp
  rfl

theorem st3_v71 : W7 m ρ c (Proc.devRef .tc main_v71) = q1 (W6 m ρ c (Proc.devRef .tc main_arg6)) := by
  dsimp only [W7, hostOps3]
  after_results_simp
  rfl

theorem st3_v76 : W7 m ρ c (Proc.devRef .tc main_v76) = wTop (w1 (W6 m ρ c (Proc.devRef .tc main_arg8))) := by
  dsimp only [W7, hostOps3]
  after_results_simp
  rfl

theorem st3_v77 : W7 m ρ c (Proc.devRef .tc main_v77) = wBot (w1 (W6 m ρ c (Proc.devRef .tc main_arg8))) := by
  dsimp only [W7, hostOps3]
  after_results_simp
  rfl

theorem st3_v78 : W7 m ρ c (Proc.devRef .tc main_v78) = bRow (b1 (W6 m ρ c (Proc.devRef .tc main_arg10))) := by
  dsimp only [W7, hostOps3]
  after_results_simp
  rfl

end Cert.Bridge.K

end
-- ==== Proof.KSt4.lean ====
/-
  What the fifth host stretch leaves in the buffers the last two regions read, over the contents it finds: the
  user rows of the user branch, the item rows of the item branch, and the two sparse aggregations of the argument
  rows.
-/
import proofs.«170398_j17961553231970_2_alg».proof.Proof.Gen.KernelIdeal.Frame
import proofs.«170398_j17961553231970_2_alg».proof.Proof.KDefs
import Idealize.ShloMosaic.Lib.StableHlo.Run

set_option maxRecDepth 16384

noncomputable section

namespace Cert.Bridge.K

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem st4_v80 : W9 m ρ c (Proc.devRef .tc main_v80) = top (W8 m ρ c (Proc.devRef .tc main_v46)) := by
  dsimp only [W9, hostOps4]
  after_results_simp
  rfl

theorem st4_v81 : W9 m ρ c (Proc.devRef .tc main_v81) = bot (W8 m ρ c (Proc.devRef .tc main_v79)) := by
  dsimp only [W9, hostOps4]
  after_results_simp
  rfl

set_option maxHeartbeats 1000000 in
theorem st4_v94 : W9 m ρ c (Proc.devRef .tc main_v94) = spS (W8 m ρ c (Proc.devRef .tc main_arg3)) (W8 m ρ c (Proc.devRef .tc main_arg15)) (W8 m ρ c (Proc.devRef .tc main_arg16)) (W8 m ρ c (Proc.devRef .tc main_arg0)) := by
  dsimp only [W9, hostOps4]
  after_results_simp
  rfl

set_option maxHeartbeats 1000000 in
theorem st4_v107 : W9 m ρ c (Proc.devRef .tc main_v107) = spH (W8 m ρ c (Proc.devRef .tc main_arg4)) (W8 m ρ c (Proc.devRef .tc main_arg17)) (W8 m ρ c (Proc.devRef .tc main_arg18)) (W8 m ρ c (Proc.devRef .tc main_arg1)) := by
  dsimp only [W9, hostOps4]
  after_results_simp
  rfl

end Cert.Bridge.K

end
-- ==== Proof.LibMatmulAt.lean ====
/-
  A matrix product with one contracted axis, read at an entry, on the extended reals: whatever record of dimension
  numbers describes "rows of the left factor against columns of the right one", the product into a zero accumulator
  (the form a kernel body has) and the host's product (the form a reference has) are both the plain sum over the
  contracted coordinate. The record enters only through four facts about where it sends an output index and a
  contraction index, which are decided per record.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : Nat} (D : DotDims ⟨2, ![a, K]⟩ ⟨2, ![K, b]⟩ ⟨2, ![a, b]⟩)
  (hr : D.contr.rank = 1) (hs : D.contr.size ⟨0, by omega⟩ = K)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
  {φ₁ φ₂ : FTy}

include hr hs hl0 hl1 hr0 hr1 in
/-- The contraction sum of a rows-by-columns product at `(p, q)` is the sum over `k` of `l (p, k) * r (k, q)`. -/
theorem contr_sum_apply (l : FVec Ideal ⟨2, ![a, K]⟩ φ₁) (r : FVec Ideal ⟨2, ![K, b]⟩ φ₂) (p : Fin a) (q : Fin b) :
    (∑ k : D.contr.Idx, l (D.lhsIdx (ix2 p q) k) * r (D.rhsIdx (ix2 p q) k)) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun x => Fin.ext (by
    match x with
    | ⟨0, _⟩ => exact hl0 _ _
    | ⟨1, _⟩ => exact (hl1 _ _).trans hk)
  have er : D.rhsIdx (ix2 p q) ((contrEquiv1 D K hr hs).symm k) = ix2 k q := funext fun x => Fin.ext (by
    match x with
    | ⟨0, _⟩ => exact (hr0 _ _).trans hk
    | ⟨1, _⟩ => exact hr1 _ _)
  rw [el, er]

include hr hs hl0 hl1 hr0 hr1 in
/-- A kernel body's product into the zero accumulator, at `(p, q)`. -/
theorem matmul_zero_apply (l : FVec Ideal ⟨2, ![a, K]⟩ φ₁) (r : FVec Ideal ⟨2, ![K, b]⟩ φ₂) (p : Fin a) (q : Fin b) :
    matmul D none l r (constant ⟨2, ![a, b]⟩ .f32 0x00000000#32) (ix2 p q) = ∑ k : Fin K, l (ix2 p k) * r (ix2 k q) := by
  refine (Ideal.matmul_constant_zero_apply D none l r (ix2 p q)).trans ?_
  exact contr_sum_apply D hr hs hl0 hl1 hr0 hr1 l r p q

include hr hs hl0 hl1 hr0 hr1 in
/-- The host's product, at `(p, q)`. -/
theorem dotGeneral_plain_apply (prec : Option ContractPrecision) (sched : HostSchedule)
    (l : FVec Ideal ⟨2, ![a, K]⟩ φ₁) (r : FVec Ideal ⟨2, ![K, b]⟩ φ₂) (p : Fin a) (q : Fin b) :
    FloatOps.dotGeneral D prec sched l r (ix2 p q) = ∑ k : Fin K, l (ix2 p k) * r (ix2 k q) := by
  refine (Ideal.dotGeneral_apply D prec sched l r (ix2 p q)).trans ?_
  exact contr_sum_apply D hr hs hl0 hl1 hr0 hr1 l r p q

end Cert.Lib

end
-- ==== Proof.Body.lean ====
/-
  What each kernel body leaves in its output block, read at a row `p` and a feature `q` of the block.

  The six bodies are three texts, each used twice. The layer body multiplies the aggregate block by `Q`, takes
  `tanh`, multiplies the embedding block and those hidden features by the two halves of `W`, adds the bias row and
  takes `tanh` again; the final-layer body also divides each row by its guarded length; the pair body is
  `tanh (x · M) + g`. A change of float format is the identity on the extended reals, and a product accumulated
  into the zero block is the plain sum over the contracted coordinate.
-/
import proofs.«170398_j17961553231970_2_alg».proof.Proof.Gen.KernelIdeal.Frame
import proofs.«170398_j17961553231970_2_alg».proof.Proof.Spec
import proofs.«170398_j17961553231970_2_alg».proof.Proof.LibMatmulAt
import Idealize.ShloMosaic.Lib.ValueLayout

noncomputable section

namespace Cert.Bridge

open Idealize.ShloMosaic Idealize.ShloMosaic.ValueIdx Cert.KernelIdeal Cert.KernelIdeal.Gen
open scoped BigOperators

/-! ## A row sum that keeps its axis, read at an entry

The row sums of an `a × b` array form a length-`a` vector; written as an `a × 1` column and spread back over the
`b` columns it reads, at `(p, q)`, the sum of row `p`. -/

section RowSum
variable {α : Type}

/-- A length-`a` vector written as an `a × 1` column reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` columns reads, at `(p, c)`, the column at row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `a × b` array reads, at `p`, the sum of row `p`. -/
private theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

end RowSum

/-! ## The one product shape of the six bodies -/

/-- A `5000 × 64` block times a `64 × 64` matrix into the zero block, at an entry: the sum over the contracted
    coordinate. -/
private theorem mm_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) :=
  Cert.Lib.matmul_zero_apply dot_S5000x64_S64x64_S5000x64_1_0_0_1_n_n rfl rfl (fun _ _ => rfl) (fun _ _ => rfl)
    (fun _ _ => rfl) (fun _ _ => rfl) l r p q

/-- The bodies' product: both factors change format first, which changes nothing on the extended reals. -/
private def mmT (l : FVec Ideal S5000x64 .f32) (r : FVec Ideal S64x64 .f32) : FVec Ideal S5000x64 .f32 :=
  matmul dot_S5000x64_S64x64_S5000x64_1_0_0_1_n_n none (truncf .bf16 l bitsLt_bf16_f32) (truncf .bf16 r bitsLt_bf16_f32)
    (constant S5000x64 .f32 0x00000000#32)

private theorem mmT_apply (l : FVec Ideal S5000x64 .f32) (r : FVec Ideal S64x64 .f32) (p : Fin 5000) (q : Fin 64) :
    mmT l r (ix2 p q) = ∑ k : Fin 64, l (ix2 p k) * r (ix2 k q) :=
  mm_apply (truncf .bf16 l bitsLt_bf16_f32) (truncf .bf16 r bitsLt_bf16_f32) p q

/-- The offsets of a whole-block access are all zero. -/
private theorem zero_offsets : (![0, 0] : Fin 2 → Nat) = fun _ => 0 := funext fun a => by fin_cases a <;> rfl

/-! ## The layer body -/

/-- The layer body's text on its six blocks (after the casts to the same shape, which are the identity). -/
private def layerV (x0 x1 : FVec Ideal S5000x64 .f32) (x2 x3 x4 : FVec Ideal S64x64 .f32) (x5 : FVec Ideal S1x64 .f32) :
    FVec Ideal S5000x64 .f32 :=
  tanh (addf (addf (mmT x0 x3) (mmT (tanh (mmT x1 x2)) x4)) (broadcastTo S5000x64 x5 broadcasts_S1x64_S5000x64))

private theorem layerV_apply (x0 x1 : FVec Ideal S5000x64 .f32) (x2 x3 x4 : FVec Ideal S64x64 .f32) (x5 : FVec Ideal S1x64 .f32)
    (p : Fin 5000) (q : Fin 64) :
    layerV x0 x1 x2 x3 x4 x5 (ix2 p q) = layer (mat x0) (mat x1) (mat x2) (mat x3) (mat x4) (row0 x5) p q := by
  have hh : ∀ k : Fin 64, tanh (mmT x1 x2) (ix2 p k) = hid (mat x1) (mat x2) p k := fun k =>
    congrArg Ideal.tanh (mmT_apply x1 x2 p k)
  have hb : broadcastTo S5000x64 x5 broadcasts_S1x64_S5000x64 (ix2 p q) = x5 (ix2 (0 : Fin 1) q) :=
    broadcastTo_1b_ab_apply x5 broadcasts_S1x64_S5000x64 p q
  show Ideal.tanh ((mmT x0 x3 (ix2 p q) + mmT (tanh (mmT x1 x2)) x4 (ix2 p q))
      + broadcastTo S5000x64 x5 broadcasts_S1x64_S5000x64 (ix2 p q)) = _
  rw [mmT_apply, mmT_apply, hb]
  simp only [hh]
  rfl

private theorem k0_eq (x0 x1 : Vec Ideal S5000x64 .f32) (x2 x3 x4 : Vec Ideal S64x64 .f32) (x5 : Vec Ideal S1x64 .f32) :
    k0_pay1 (F := Ideal) x0 x1 x2 x3 x4 x5 = layerV x0 x1 x2 x3 x4 x5 := by
  show layerV (shapeCast S5000x64 x0 shapeCasts_S5000x64_S5000x64) (shapeCast S5000x64 x1 shapeCasts_S5000x64_S5000x64)
      (shapeCast S64x64 x2 shapeCasts_S64x64_S64x64) (shapeCast S64x64 x3 shapeCasts_S64x64_S64x64)
      (shapeCast S64x64 x4 shapeCasts_S64x64_S64x64) (shapeCast S1x64 x5 shapeCasts_S1x64_S1x64) = _
  simp only [shapeCast_self]

private theorem k2_eq (x0 x1 : Vec Ideal S5000x64 .f32) (x2 x3 x4 : Vec Ideal S64x64 .f32) (x5 : Vec Ideal S1x64 .f32) :
    k2_pay1 (F := Ideal) x0 x1 x2 x3 x4 x5 = layerV x0 x1 x2 x3 x4 x5 := by
  show layerV (shapeCast S5000x64 x0 shapeCasts_S5000x64_S5000x64) (shapeCast S5000x64 x1 shapeCasts_S5000x64_S5000x64)
      (shapeCast S64x64 x2 shapeCasts_S64x64_S64x64) (shapeCast S64x64 x3 shapeCasts_S64x64_S64x64)
      (shapeCast S64x64 x4 shapeCasts_S64x64_S64x64) (shapeCast S1x64 x5 shapeCasts_S1x64_S1x64) = _
  simp only [shapeCast_self]

/-! ## The final-layer body: the layer, then each row divided by its guarded length -/

/-- The sums of squares of the rows. -/
private def sumV (v : FVec Ideal S5000x64 .f32) : FVec Ideal S5000 .f32 :=
  multiReduction .add [1] S5000 (mulf v v) 0x00000000#32 reduces_S5000x64_S5000 (.inl rfl) rfl

/-- The guarded lengths of the rows, as a column. -/
private def lenV (v : FVec Ideal S5000x64 .f32) : FVec Ideal S5000x1 .f32 :=
  maximumf (sqrt (shapeCast S5000x1 (sumV v) shapeCasts_S5000_S5000x1))
    (broadcast S5000x1 (Scalar.ofBits .f32 0x2B8CBCCC#32 : Ideal .f32))

/-- Each row divided by its guarded length. -/
private def unitV (v : FVec Ideal S5000x64 .f32) : FVec Ideal S5000x64 .f32 :=
  divf v (broadcastTo S5000x64 (lenV v) broadcasts_S5000x1_S5000x64)

private theorem unitV_apply (v : FVec Ideal S5000x64 .f32) (p : Fin 5000) (q : Fin 64) :
    unitV v (ix2 p q) = unitRow (mat v) eps p q := by
  have e1 : broadcastTo S5000x64 (lenV v) broadcasts_S5000x1_S5000x64 (ix2 p q) = lenV v (ix2 p (0 : Fin 1)) :=
    broadcastTo_a1_ab_apply (lenV v) broadcasts_S5000x1_S5000x64 p q
  have e2 : shapeCast S5000x1 (sumV v) shapeCasts_S5000_S5000x1 (ix2 p (0 : Fin 1)) = sumV v (ix1 p) :=
    shapeCast_a_a1_apply (sumV v) shapeCasts_S5000_S5000x1 p 0
  have e3 : sumV v (ix1 p) = ∑ k : Fin 64, v (ix2 p k) * v (ix2 p k) :=
    rowSum_apply (mulf v v) 0x00000000#32 reduces_S5000x64_S5000 (.inl rfl) rfl p
  show Ideal.div (v (ix2 p q)) (broadcastTo S5000x64 (lenV v) broadcasts_S5000x1_S5000x64 (ix2 p q)) = _
  rw [e1]
  show Ideal.div (v (ix2 p q))
      (max (Ideal.sqrt (shapeCast S5000x1 (sumV v) shapeCasts_S5000_S5000x1 (ix2 p (0 : Fin 1)))) eps) = _
  rw [e2, e3]
  rfl

private theorem k1_eq (x0 x1 : Vec Ideal S5000x64 .f32) (x2 x3 x4 : Vec Ideal S64x64 .f32) (x5 : Vec Ideal S1x64 .f32) :
    k1_pay1 (F := Ideal) x0 x1 x2 x3 x4 x5 = unitV (layerV x0 x1 x2 x3 x4 x5) := by
  show unitV (layerV (shapeCast S5000x64 x0 shapeCasts_S5000x64_S5000x64) (shapeCast S5000x64 x1 shapeCasts_S5000x64_S5000x64)
      (shapeCast S64x64 x2 shapeCasts_S64x64_S64x64) (shapeCast S64x64 x3 shapeCasts_S64x64_S64x64)
      (shapeCast S64x64 x4 shapeCasts_S64x64_S64x64) (shapeCast S1x64 x5 shapeCasts_S1x64_S1x64)) = _
  simp only [shapeCast_self]

private theorem k3_eq (x0 x1 : Vec Ideal S5000x64 .f32) (x2 x3 x4 : Vec Ideal S64x64 .f32) (x5 : Vec Ideal S1x64 .f32) :
    k3_pay1 (F := Ideal) x0 x1 x2 x3 x4 x5 = unitV (layerV x0 x1 x2 x3 x4 x5) := by
  show unitV (layerV (shapeCast S5000x64 x0 shapeCasts_S5000x64_S5000x64) (shapeCast S5000x64 x1 shapeCasts_S5000x64_S5000x64)
      (shapeCast S64x64 x2 shapeCasts_S64x64_S64x64) (shapeCast S64x64 x3 shapeCasts_S64x64_S64x64)
      (shapeCast S64x64 x4 shapeCasts_S64x64_S64x64) (shapeCast S1x64 x5 shapeCasts_S1x64_S1x64)) = _
  simp only [shapeCast_self]

private theorem unit_layer_apply (x0 x1 : FVec Ideal S5000x64 .f32) (x2 x3 x4 : FVec Ideal S64x64 .f32)
    (x5 : FVec Ideal S1x64 .f32) (p : Fin 5000) (q : Fin 64) :
    unitV (layerV x0 x1 x2 x3 x4 x5) (ix2 p q)
      = unitRow (layer (mat x0) (mat x1) (mat x2) (mat x3) (mat x4) (row0 x5)) eps p q :=
  (unitV_apply (layerV x0 x1 x2 x3 x4 x5) p q).trans
    (congrArg (fun f => unitRow f eps p q) (funext fun p' => funext fun q' => layerV_apply x0 x1 x2 x3 x4 x5 p' q'))

/-! ## The pair body -/

private def pairV (x0 : FVec Ideal S5000x64 .f32) (x1 : FVec Ideal S64x64 .f32) (x2 : FVec Ideal S5000x64 .f32) :
    FVec Ideal S5000x64 .f32 :=
  addf (tanh (mmT x0 x1)) x2

private theorem pairV_apply (x0 : FVec Ideal S5000x64 .f32) (x1 : FVec Ideal S64x64 .f32) (x2 : FVec Ideal S5000x64 .f32)
    (p : Fin 5000) (q : Fin 64) : pairV x0 x1 x2 (ix2 p q) = pairRow (mat x0) (mat x1) (mat x2) p q := by
  show Ideal.tanh (mmT x0 x1 (ix2 p q)) + x2 (ix2 p q) = _
  rw [mmT_apply]
  rfl

private theorem k4_eq (x0 : Vec Ideal S5000x64 .f32) (x1 : Vec Ideal S64x64 .f32) (x2 : Vec Ideal S5000x64 .f32) :
    k4_pay1 (F := Ideal) x0 x1 x2 = pairV x0 x1 x2 := by
  show pairV (shapeCast S5000x64 x0 shapeCasts_S5000x64_S5000x64) x1 (shapeCast S5000x64 x2 shapeCasts_S5000x64_S5000x64) = _
  simp only [shapeCast_self]

private theorem k5_eq (x0 : Vec Ideal S5000x64 .f32) (x1 : Vec Ideal S64x64 .f32) (x2 : Vec Ideal S5000x64 .f32) :
    k5_pay1 (F := Ideal) x0 x1 x2 = pairV x0 x1 x2 := by
  show pairV (shapeCast S5000x64 x0 shapeCasts_S5000x64_S5000x64) x1 (shapeCast S5000x64 x2 shapeCasts_S5000x64_S5000x64) = _
  simp only [shapeCast_self]

/-! ## The six output blocks -/

theorem body_plain0 (x0 x1 : Vec Ideal S5000x64 .f32) (x2 x3 x4 : Vec Ideal S64x64 .f32) (x5 : Vec Ideal S1x64 .f32)
    (p : Fin 5000) (q : Fin 64) :
    out0_6 (F := Ideal) x0 x1 x2 x3 x4 x5 (ix2 p q) = layer (mat x0) (mat x1) (mat x2) (mat x3) (mat x4) (row0 x5) p q := by
  unfold out0_6
  rw [View.canon_unit_zero zero_offsets]
  simp only [View.ld_unit_zero (S := S5000x64) zero_offsets, View.ld_unit_zero (S := S64x64) zero_offsets,
    View.ld_unit_zero (S := S1x64) zero_offsets]
  rw [k0_eq]
  exact layerV_apply x0 x1 x2 x3 x4 x5 p q

theorem body_norm1 (x0 x1 : Vec Ideal S5000x64 .f32) (x2 x3 x4 : Vec Ideal S64x64 .f32) (x5 : Vec Ideal S1x64 .f32)
    (p : Fin 5000) (q : Fin 64) :
    out1_6 (F := Ideal) x0 x1 x2 x3 x4 x5 (ix2 p q)
      = unitRow (layer (mat x0) (mat x1) (mat x2) (mat x3) (mat x4) (row0 x5)) eps p q := by
  unfold out1_6
  rw [View.canon_unit_zero zero_offsets]
  simp only [View.ld_unit_zero (S := S5000x64) zero_offsets, View.ld_unit_zero (S := S64x64) zero_offsets,
    View.ld_unit_zero (S := S1x64) zero_offsets]
  rw [k1_eq]
  exact unit_layer_apply x0 x1 x2 x3 x4 x5 p q

theorem body_plain2 (x0 x1 : Vec Ideal S5000x64 .f32) (x2 x3 x4 : Vec Ideal S64x64 .f32) (x5 : Vec Ideal S1x64 .f32)
    (p : Fin 5000) (q : Fin 64) :
    out2_6 (F := Ideal) x0 x1 x2 x3 x4 x5 (ix2 p q) = layer (mat x0) (mat x1) (mat x2) (mat x3) (mat x4) (row0 x5) p q := by
  unfold out2_6
  rw [View.canon_unit_zero zero_offsets]
  simp only [View.ld_unit_zero (S := S5000x64) zero_offsets, View.ld_unit_zero (S := S64x64) zero_offsets,
    View.ld_unit_zero (S := S1x64) zero_offsets]
  rw [k2_eq]
  exact layerV_apply x0 x1 x2 x3 x4 x5 p q

theorem body_norm3 (x0 x1 : Vec Ideal S5000x64 .f32) (x2 x3 x4 : Vec Ideal S64x64 .f32) (x5 : Vec Ideal S1x64 .f32)
    (p : Fin 5000) (q : Fin 64) :
    out3_6 (F := Ideal) x0 x1 x2 x3 x4 x5 (ix2 p q)
      = unitRow (layer (mat x0) (mat x1) (mat x2) (mat x3) (mat x4) (row0 x5)) eps p q := by
  unfold out3_6
  rw [View.canon_unit_zero zero_offsets]
  simp only [View.ld_unit_zero (S := S5000x64) zero_offsets, View.ld_unit_zero (S := S64x64) zero_offsets,
    View.ld_unit_zero (S := S1x64) zero_offsets]
  rw [k3_eq]
  exact unit_layer_apply x0 x1 x2 x3 x4 x5 p q

theorem body_pair4 (x0 : Vec Ideal S5000x64 .f32) (x1 : Vec Ideal S64x64 .f32) (x2 : Vec Ideal S5000x64 .f32)
    (p : Fin 5000) (q : Fin 64) :
    out4_3 (F := Ideal) x0 x1 x2 (ix2 p q) = pairRow (mat x0) (mat x1) (mat x2) p q := by
  unfold out4_3
  rw [View.canon_unit_zero zero_offsets]
  simp only [View.ld_unit_zero (S := S5000x64) zero_offsets, View.ld_unit_zero (S := S64x64) zero_offsets]
  rw [k4_eq]
  exact pairV_apply x0 x1 x2 p q

theorem body_pair5 (x0 : Vec Ideal S5000x64 .f32) (x1 : Vec Ideal S64x64 .f32) (x2 : Vec Ideal S5000x64 .f32)
    (p : Fin 5000) (q : Fin 64) :
    out5_3 (F := Ideal) x0 x1 x2 (ix2 p q) = pairRow (mat x0) (mat x1) (mat x2) p q := by
  unfold out5_3
  rw [View.canon_unit_zero zero_offsets]
  simp only [View.ld_unit_zero (S := S5000x64) zero_offsets, View.ld_unit_zero (S := S64x64) zero_offsets]
  rw [k5_eq]
  exact pairV_apply x0 x1 x2 p q

end Cert.Bridge

end
-- ==== Proof.RegionLib.lean ====
/-
  Each row function of the specification reads its row-indexed arguments at one row only: two evaluations agree
  as soon as the rows that are read agree and the small dense matrices agree entry by entry. The rows may belong to
  arrays of different heights (a block of an array, and the array).
-/
import proofs.«170398_j17961553231970_2_alg».proof.Proof.Spec

noncomputable section

namespace Cert.Bridge

open scoped BigOperators

/-- A layer's value at `(p, q)` depends on the embedding and the aggregate through their row `p` only. -/
theorem layer_congr {r r' : Nat} {ego agg : Fin r → Fin 64 → EReal} {ego' agg' : Fin r' → Fin 64 → EReal}
    {Q Q' We We' Wh Wh' : Fin 64 → Fin 64 → EReal} {b b' : Fin 64 → EReal} {p : Fin r} {p' : Fin r'} (q : Fin 64)
    (he : ∀ k, ego p k = ego' p' k) (ha : ∀ k, agg p k = agg' p' k)
    (hQ : ∀ j k, Q j k = Q' j k) (hWe : ∀ j k, We j k = We' j k) (hWh : ∀ j k, Wh j k = Wh' j k)
    (hb : ∀ k, b k = b' k) :
    layer ego agg Q We Wh b p q = layer ego' agg' Q' We' Wh' b' p' q := by
  obtain rfl : Q = Q' := funext fun j => funext (hQ j)
  obtain rfl : We = We' := funext fun j => funext (hWe j)
  obtain rfl : Wh = Wh' := funext fun j => funext (hWh j)
  obtain rfl : b = b' := funext hb
  unfold layer hid
  simp only [he, ha]

/-- The unit-length scaling at `(p, q)` depends on its argument through row `p` only. -/
theorem unitRow_congr {r r' : Nat} {x : Fin r → Fin 64 → EReal} {x' : Fin r' → Fin 64 → EReal} (ε : EReal)
    {p : Fin r} {p' : Fin r'} (q : Fin 64) (h : ∀ k, x p k = x' p' k) :
    unitRow x ε p q = unitRow x' ε p' q := by
  unfold unitRow sumSq
  simp only [h]

/-- The pairwise branch at `(p, q)` depends on `x` and `g` through their row `p` only. -/
theorem pairRow_congr {r r' : Nat} {x g : Fin r → Fin 64 → EReal} {x' g' : Fin r' → Fin 64 → EReal}
    {M M' : Fin 64 → Fin 64 → EReal} {p : Fin r} {p' : Fin r'} (q : Fin 64)
    (hx : ∀ k, x p k = x' p' k) (hM : ∀ j k, M j k = M' j k) (hg : ∀ k, g p k = g' p' k) :
    pairRow x M g p q = pairRow x' M' g' p' q := by
  obtain rfl : M = M' := funext fun j => funext (hM j)
  unfold pairRow
  simp only [hx, hg]

end Cert.Bridge

end
-- ==== Proof.Region0.lean ====
/-
  The first graph-convolution layer of one branch on whole arrays. Each of the grid's 26 points writes back one block
  of 5000 rows: the layer's update of those rows of the arrays found when the region is entered. The blocks tile
  the 130000 rows, so the output array ends holding the layer of the whole arrays.
-/
import proofs.«170398_j17961553231970_2_alg».proof.Proof.Gen.KernelIdeal.Frame
import proofs.«170398_j17961553231970_2_alg».proof.Proof.Spec
import proofs.«170398_j17961553231970_2_alg».proof.Proof.Body
import proofs.«170398_j17961553231970_2_alg».proof.Proof.RegionLib
import Idealize.ShloMosaic.Lib.Pipeline.Value

noncomputable section

namespace Cert.Bridge

open Cert.KernelIdeal Cert.KernelIdeal.Gen Idealize.ShloMosaic Idealize.ShloMosaic.ValueIdx
open Idealize.ShloMosaic.TcCoe
open Idealize.ShloMosaic.Pipeline (Dat)

/-! ## The block indices over the grid: the row-tiled windows are at block `(t, 0)`, the small ones at `(0, 0)` -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)

/-! ## Where a block's element sits in its array: block index × block size + the coordinate inside the block -/

/-- An element `(p, k)` of window 0's block at point `t` is the element `(5000 t + p, k)` of its array. -/
theorem emb0_0 (t : Fin cfg0.N) (p : Fin 5000) (k : Fin 64) (h : t.val * 5000 + p.val < 130000) :
    ((cfg0.win 0).blk t).view.emb (ix2 p k : S5000x64.Idx) = (ix2 ⟨t.val * 5000 + p.val, h⟩ k : S130000x64.Idx) := by
  obtain ⟨e0, e1⟩ := idx0_0 t
  funext a; apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- An element `(p, k)` of window 1's block at point `t` is the element `(5000 t + p, k)` of its array. -/
theorem emb0_1 (t : Fin cfg0.N) (p : Fin 5000) (k : Fin 64) (h : t.val * 5000 + p.val < 130000) :
    ((cfg0.win 1).blk t).view.emb (ix2 p k : S5000x64.Idx) = (ix2 ⟨t.val * 5000 + p.val, h⟩ k : S130000x64.Idx) := by
  obtain ⟨e0, e1⟩ := idx0_1 t
  funext a; apply Fin.ext
  match a with
  | ⟨0, _⟩ => show win0_1.index t (0 : Fin 2) * 5000 + 1 * p.val = t.val * 5000 + p.val; rw [e0]; omega
  | ⟨1, _⟩ => show win0_1.index t (1 : Fin 2) * 64 + 1 * k.val = k.val; rw [e1]; omega

/-- Window 2's block is its whole array at every point. -/
theorem emb0_2 (t : Fin cfg0.N) (j : Fin 64) (k : Fin 64) :
    ((cfg0.win 2).blk t).view.emb (ix2 j k : S64x64.Idx) = (ix2 j k : S64x64.Idx) := by
  obtain ⟨e0, e1⟩ := idx0_2 t
  funext a; apply Fin.ext
  match a with
  | ⟨0, _⟩ => show win0_2.index t (0 : Fin 2) * 64 + 1 * j.val = j.val; rw [e0]; omega
  | ⟨1, _⟩ => show win0_2.index t (1 : Fin 2) * 64 + 1 * k.val = k.val; rw [e1]; omega

/-- Window 3's block is its whole array at every point. -/
theorem emb0_3 (t : Fin cfg0.N) (j : Fin 64) (k : Fin 64) :
    ((cfg0.win 3).blk t).view.emb (ix2 j k : S64x64.Idx) = (ix2 j k : S64x64.Idx) := by
  obtain ⟨e0, e1⟩ := idx0_3 t
  funext a; apply Fin.ext
  match a with
  | ⟨0, _⟩ => show win0_3.index t (0 : Fin 2) * 64 + 1 * j.val = j.val; rw [e0]; omega
  | ⟨1, _⟩ => show win0_3.index t (1 : Fin 2) * 64 + 1 * k.val = k.val; rw [e1]; omega

/-- Window 4's block is its whole array at every point. -/
theorem emb0_4 (t : Fin cfg0.N) (j : Fin 64) (k : Fin 64) :
    ((cfg0.win 4).blk t).view.emb (ix2 j k : S64x64.Idx) = (ix2 j k : S64x64.Idx) := by
  obtain ⟨e0, e1⟩ := idx0_4 t
  funext a; apply Fin.ext
  match a with
  | ⟨0, _⟩ => show win0_4.index t (0 : Fin 2) * 64 + 1 * j.val = j.val; rw [e0]; omega
  | ⟨1, _⟩ => show win0_4.index t (1 : Fin 2) * 64 + 1 * k.val = k.val; rw [e1]; omega

/-- Window 5's block is its whole array at every point. -/
theorem emb0_5 (t : Fin cfg0.N) (j : Fin 1) (k : Fin 64) :
    ((cfg0.win 5).blk t).view.emb (ix2 j k : S1x64.Idx) = (ix2 j k : S1x64.Idx) := by
  obtain ⟨e0, e1⟩ := idx0_5 t
  funext a; apply Fin.ext
  match a with
  | ⟨0, _⟩ => show win0_5.index t (0 : Fin 2) * 1 + 1 * j.val = j.val; rw [e0]; omega
  | ⟨1, _⟩ => show win0_5.index t (1 : Fin 2) * 64 + 1 * k.val = k.val; rw [e1]; omega

/-- An element `(p, k)` of window 6's block at point `t` is the element `(5000 t + p, k)` of its array. -/
theorem emb0_6 (t : Fin cfg0.N) (p : Fin 5000) (k : Fin 64) (h : t.val * 5000 + p.val < 130000) :
    ((cfg0.win 6).blk t).view.emb (ix2 p k : S5000x64.Idx) = (ix2 ⟨t.val * 5000 + p.val, h⟩ k : S130000x64.Idx) := by
  obtain ⟨e0, e1⟩ := idx0_6 t
  funext a; apply Fin.ext
  match a with
  | ⟨0, _⟩ => show win0_6.index t (0 : Fin 2) * 5000 + 1 * p.val = t.val * 5000 + p.val; rw [e0]; omega
  | ⟨1, _⟩ => show win0_6.index t (1 : Fin 2) * 64 + 1 * k.val = k.val; rw [e1]; omega

/-! ## What one point writes back -/

/-- The body's result on the blocks of any six arrays, at point `t`, is block `t` of the whole-array function. -/
theorem block0 (A0 A1 : S130000x64.Idx → EReal) (Q We Wh : S64x64.Idx → EReal) (b : S1x64.Idx → EReal) (t : Fin cfg0.N) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) Q) (((cfg0.win 3).blk t).view.read (Elt Ideal) We)
          (((cfg0.win 4).blk t).view.read (Elt Ideal) Wh) (((cfg0.win 5).blk t).view.read (Elt Ideal) b))
      = ((cfg0.win 6).blk t).view.read (Elt Ideal) (layerA A0 A1 Q We Wh b) := by
  have hN : cfg0.N = 26 := N_0
  have ht := t.isLt
  funext j
  obtain ⟨p, q, rfl⟩ : ∃ (p : Fin 5000) (q : Fin 64), j = ix2 p q := ⟨j 0, j 1, eq_ix2 (n0 := 5000) (n1 := 64) j⟩
  have h : t.val * 5000 + p.val < 130000 := by have := p.isLt; omega
  show out0_6 (F := Ideal) (((cfg0.win 0).blk t).view.read (Elt Ideal) A0) (((cfg0.win 1).blk t).view.read (Elt Ideal) A1) (((cfg0.win 2).blk t).view.read (Elt Ideal) Q) (((cfg0.win 3).blk t).view.read (Elt Ideal) We) (((cfg0.win 4).blk t).view.read (Elt Ideal) Wh) (((cfg0.win 5).blk t).view.read (Elt Ideal) b) (ix2 p q)
    = (layerA A0 A1 Q We Wh b) (((cfg0.win 6).blk t).view.emb (ix2 p q))
  rw [emb0_6 t p q h]
  refine (body_plain0 (((cfg0.win 0).blk t).view.read (Elt Ideal) A0) (((cfg0.win 1).blk t).view.read (Elt Ideal) A1) (((cfg0.win 2).blk t).view.read (Elt Ideal) Q) (((cfg0.win 3).blk t).view.read (Elt Ideal) We) (((cfg0.win 4).blk t).view.read (Elt Ideal) Wh) (((cfg0.win 5).blk t).view.read (Elt Ideal) b) p q).trans ?_
  show layer _ _ _ _ _ _ p q = layer (mat A0) (mat A1) (mat Q) (mat We) (mat Wh) (row0 b) ⟨_, h⟩ q
  refine layer_congr q (fun k => ?_) (fun k => ?_) (fun j k => ?_) (fun j k => ?_) (fun j k => ?_) (fun k => ?_)
  · show A0 (((cfg0.win 0).blk t).view.emb (ix2 p k)) = A0 (ix2 ⟨_, h⟩ k); rw [emb0_0 t p k h]
  · show A1 (((cfg0.win 1).blk t).view.emb (ix2 p k)) = A1 (ix2 ⟨_, h⟩ k); rw [emb0_1 t p k h]
  · show Q (((cfg0.win 2).blk t).view.emb (ix2 j k)) = Q (ix2 j k); rw [emb0_2 t j k]
  · show We (((cfg0.win 3).blk t).view.emb (ix2 j k)) = We (ix2 j k); rw [emb0_3 t j k]
  · show Wh (((cfg0.win 4).blk t).view.emb (ix2 j k)) = Wh (ix2 j k); rw [emb0_4 t j k]
  · show b (((cfg0.win 5).blk t).view.emb (ix2 0 k)) = b (ix2 0 k); rw [emb0_5 t 0 k]

/-- What point `t` writes back is block `t` of the whole-array function of the arrays the region finds. -/
theorem flushed0 (V : (c : Dev nD) → (b : Ref sig .tc) → Buf (Elt Ideal) ((c : Thread nD τ).loc b)) (c : Dev nD) (t : Fin cfg0.N) :
    (dat0 (F := Ideal) V c).flushed 6 t
      = ((cfg0.win 6).blk t).view.read (Elt Ideal) (layerA (V c main_v0) (V c main_v13) (V c main_v15) (V c main_v20) (V c main_v21) (V c main_v22)) := by
  show (cfg0.win 6).cut (grid0.coords t) ((dat0 V c).after 6 t) = _
  rw [after0_6]
  exact block0 (V c main_v0) (V c main_v13) (V c main_v15) (V c main_v20) (V c main_v21) (V c main_v22) t

/-! ## The blocks tile the array -/

/-- An index of the array is in point `t`'s block iff each coordinate is in the block's range on its axis. -/
theorem mem_blk0 (t : Fin cfg0.N) (i : S130000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v23).slice (win0_6.rect t)).set ↔ _
  rw [View.set_slice_whole, Rect.mem_set_unit]
  exact Iff.rfl

/-- Row `r` is in the block of point `r / 5000`, and every point writes its block back. -/
theorem cover0 (i : S130000x64.Idx) :
    ∃ t : Fin cfg0.N, (cfg0.win 6).flush t = true ∧ i ∈ ((cfg0.win 6).blk t).view.set := by
  have hN : cfg0.N = 26 := N_0
  have hi0 : (i 0).val < 130000 := (i 0).isLt
  have hi1 : (i 1).val < 64 := (i 1).isLt
  obtain ⟨t, ht⟩ : ∃ t : Fin cfg0.N, t.val = (i 0).val / 5000 := ⟨⟨(i 0).val / 5000, by rw [hN]; omega⟩, rfl⟩
  obtain ⟨e0, e1⟩ := idx0_6 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

/-! ## The output array after the region -/

theorem region0_value (V : (c : Dev nD) → (b : Ref sig .tc) → Buf (Elt Ideal) ((c : Thread nD τ).loc b)) (c : Dev nD) :
    (dat0 (F := Ideal) V c).arrAt 6 cfg0.N
      = layerA (V c main_v0) (V c main_v13) (V c main_v15) (V c main_v20) (V c main_v21) (V c main_v22) :=
  (dat0 V c).arrAt_eq_of_cover 6 _ (fun t _ => flushed0 V c t) cover0

end Cert.Bridge

end
-- ==== Proof.Region1.lean ====
/-
  The last graph-convolution layer of one branch on whole arrays. Each of the grid's 26 points writes back one block
  of 5000 rows: the layer followed by the unit-length scaling, of those rows of the arrays found when the region is
  entered. The blocks tile the 130000 rows, so the output array ends holding that function of the whole arrays.
-/
import proofs.«170398_j17961553231970_2_alg».proof.Proof.Gen.KernelIdeal.Frame
import proofs.«170398_j17961553231970_2_alg».proof.Proof.Spec
import proofs.«170398_j17961553231970_2_alg».proof.Proof.Body
import proofs.«170398_j17961553231970_2_alg».proof.Proof.RegionLib
import Idealize.ShloMosaic.Lib.Pipeline.Value

noncomputable section

namespace Cert.Bridge

open Cert.KernelIdeal Cert.KernelIdeal.Gen Idealize.ShloMosaic Idealize.ShloMosaic.ValueIdx
open Idealize.ShloMosaic.TcCoe
open Idealize.ShloMosaic.Pipeline (Dat)

/-! ## The block indices over the grid: the row-tiled windows are at block `(t, 0)`, the small ones at `(0, 0)` -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

/-! ## Where a block's element sits in its array: block index × block size + the coordinate inside the block -/

/-- An element `(p, k)` of window 0's block at point `t` is the element `(5000 t + p, k)` of its array. -/
theorem emb1_0 (t : Fin cfg1.N) (p : Fin 5000) (k : Fin 64) (h : t.val * 5000 + p.val < 130000) :
    ((cfg1.win 0).blk t).view.emb (ix2 p k : S5000x64.Idx) = (ix2 ⟨t.val * 5000 + p.val, h⟩ k : S130000x64.Idx) := by
  obtain ⟨e0, e1⟩ := idx1_0 t
  funext a; apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

/-- An element `(p, k)` of window 1's block at point `t` is the element `(5000 t + p, k)` of its array. -/
theorem emb1_1 (t : Fin cfg1.N) (p : Fin 5000) (k : Fin 64) (h : t.val * 5000 + p.val < 130000) :
    ((cfg1.win 1).blk t).view.emb (ix2 p k : S5000x64.Idx) = (ix2 ⟨t.val * 5000 + p.val, h⟩ k : S130000x64.Idx) := by
  obtain ⟨e0, e1⟩ := idx1_1 t
  funext a; apply Fin.ext
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

/-- Window 2's block is its whole array at every point. -/
theorem emb1_2 (t : Fin cfg1.N) (j : Fin 64) (k : Fin 64) :
    ((cfg1.win 2).blk t).view.emb (ix2 j k : S64x64.Idx) = (ix2 j k : S64x64.Idx) := by
  obtain ⟨e0, e1⟩ := idx1_2 t
  funext a; apply Fin.ext
  match a with
  | ⟨0, _⟩ => show win1_2.index t (0 : Fin 2) * 64 + 1 * j.val = j.val; rw [e0]; omega
  | ⟨1, _⟩ => show win1_2.index t (1 : Fin 2) * 64 + 1 * k.val = k.val; rw [e1]; omega

/-- Window 3's block is its whole array at every point. -/
theorem emb1_3 (t : Fin cfg1.N) (j : Fin 64) (k : Fin 64) :
    ((cfg1.win 3).blk t).view.emb (ix2 j k : S64x64.Idx) = (ix2 j k : S64x64.Idx) := by
  obtain ⟨e0, e1⟩ := idx1_3 t
  funext a; apply Fin.ext
  match a with
  | ⟨0, _⟩ => show win1_3.index t (0 : Fin 2) * 64 + 1 * j.val = j.val; rw [e0]; omega
  | ⟨1, _⟩ => show win1_3.index t (1 : Fin 2) * 64 + 1 * k.val = k.val; rw [e1]; omega

/-- Window 4's block is its whole array at every point. -/
theorem emb1_4 (t : Fin cfg1.N) (j : Fin 64) (k : Fin 64) :
    ((cfg1.win 4).blk t).view.emb (ix2 j k : S64x64.Idx) = (ix2 j k : S64x64.Idx) := by
  obtain ⟨e0, e1⟩ := idx1_4 t
  funext a; apply Fin.ext
  match a with
  | ⟨0, _⟩ => show win1_4.index t (0 : Fin 2) * 64 + 1 * j.val = j.val; rw [e0]; omega
  | ⟨1, _⟩ => show win1_4.index t (1 : Fin 2) * 64 + 1 * k.val = k.val; rw [e1]; omega

/-- Window 5's block is its whole array at every point. -/
theorem emb1_5 (t : Fin cfg1.N) (j : Fin 1) (k : Fin 64) :
    ((cfg1.win 5).blk t).view.emb (ix2 j k : S1x64.Idx) = (ix2 j k : S1x64.Idx) := by
  obtain ⟨e0, e1⟩ := idx1_5 t
  funext a; apply Fin.ext
  match a with
  | ⟨0, _⟩ => show win1_5.index t (0 : Fin 2) * 1 + 1 * j.val = j.val; rw [e0]; omega
  | ⟨1, _⟩ => show win1_5.index t (1 : Fin 2) * 64 + 1 * k.val = k.val; rw [e1]; omega

/-- An element `(p, k)` of window 6's block at point `t` is the element `(5000 t + p, k)` of its array. -/
theorem emb1_6 (t : Fin cfg1.N) (p : Fin 5000) (k : Fin 64) (h : t.val * 5000 + p.val < 130000) :
    ((cfg1.win 6).blk t).view.emb (ix2 p k : S5000x64.Idx) = (ix2 ⟨t.val * 5000 + p.val, h⟩ k : S130000x64.Idx) := by
  obtain ⟨e0, e1⟩ := idx1_6 t
  funext a; apply Fin.ext
  match a with
  | ⟨0, _⟩ => show win1_6.index t (0 : Fin 2) * 5000 + 1 * p.val = t.val * 5000 + p.val; rw [e0]; omega
  | ⟨1, _⟩ => show win1_6.index t (1 : Fin 2) * 64 + 1 * k.val = k.val; rw [e1]; omega

/-! ## What one point writes back -/

/-- The body's result on the blocks of any six arrays, at point `t`, is block `t` of the whole-array function. -/
theorem block1 (A0 A1 : S130000x64.Idx → EReal) (Q We Wh : S64x64.Idx → EReal) (b : S1x64.Idx → EReal) (t : Fin cfg1.N) :
    (cfg1.win 6).cut (grid1.coords t)
        (out1_6 (F := Ideal) (((cfg1.win 0).blk t).view.read (Elt Ideal) A0) (((cfg1.win 1).blk t).view.read (Elt Ideal) A1)
          (((cfg1.win 2).blk t).view.read (Elt Ideal) Q) (((cfg1.win 3).blk t).view.read (Elt Ideal) We)
          (((cfg1.win 4).blk t).view.read (Elt Ideal) Wh) (((cfg1.win 5).blk t).view.read (Elt Ideal) b))
      = ((cfg1.win 6).blk t).view.read (Elt Ideal) (unitA (layerA A0 A1 Q We Wh b)) := by
  have hN : cfg1.N = 26 := N_1
  have ht := t.isLt
  funext j
  obtain ⟨p, q, rfl⟩ : ∃ (p : Fin 5000) (q : Fin 64), j = ix2 p q := ⟨j 0, j 1, eq_ix2 (n0 := 5000) (n1 := 64) j⟩
  have h : t.val * 5000 + p.val < 130000 := by have := p.isLt; omega
  show out1_6 (F := Ideal) (((cfg1.win 0).blk t).view.read (Elt Ideal) A0) (((cfg1.win 1).blk t).view.read (Elt Ideal) A1) (((cfg1.win 2).blk t).view.read (Elt Ideal) Q) (((cfg1.win 3).blk t).view.read (Elt Ideal) We) (((cfg1.win 4).blk t).view.read (Elt Ideal) Wh) (((cfg1.win 5).blk t).view.read (Elt Ideal) b) (ix2 p q)
    = (unitA (layerA A0 A1 Q We Wh b)) (((cfg1.win 6).blk t).view.emb (ix2 p q))
  rw [emb1_6 t p q h]
  refine (body_norm1 (((cfg1.win 0).blk t).view.read (Elt Ideal) A0) (((cfg1.win 1).blk t).view.read (Elt Ideal) A1) (((cfg1.win 2).blk t).view.read (Elt Ideal) Q) (((cfg1.win 3).blk t).view.read (Elt Ideal) We) (((cfg1.win 4).blk t).view.read (Elt Ideal) Wh) (((cfg1.win 5).blk t).view.read (Elt Ideal) b) p q).trans ?_
  show unitRow (layer _ _ _ _ _ _) eps p q = unitRow (layer (mat A0) (mat A1) (mat Q) (mat We) (mat Wh) (row0 b)) eps ⟨_, h⟩ q
  refine unitRow_congr eps q fun k' => ?_
  refine layer_congr k' (fun k => ?_) (fun k => ?_) (fun j k => ?_) (fun j k => ?_) (fun j k => ?_) (fun k => ?_)
  · show A0 (((cfg1.win 0).blk t).view.emb (ix2 p k)) = A0 (ix2 ⟨_, h⟩ k); rw [emb1_0 t p k h]
  · show A1 (((cfg1.win 1).blk t).view.emb (ix2 p k)) = A1 (ix2 ⟨_, h⟩ k); rw [emb1_1 t p k h]
  · show Q (((cfg1.win 2).blk t).view.emb (ix2 j k)) = Q (ix2 j k); rw [emb1_2 t j k]
  · show We (((cfg1.win 3).blk t).view.emb (ix2 j k)) = We (ix2 j k); rw [emb1_3 t j k]
  · show Wh (((cfg1.win 4).blk t).view.emb (ix2 j k)) = Wh (ix2 j k); rw [emb1_4 t j k]
  · show b (((cfg1.win 5).blk t).view.emb (ix2 0 k)) = b (ix2 0 k); rw [emb1_5 t 0 k]

/-- What point `t` writes back is block `t` of the whole-array function of the arrays the region finds. -/
theorem flushed1 (V : (c : Dev nD) → (b : Ref sig .tc) → Buf (Elt Ideal) ((c : Thread nD τ).loc b)) (c : Dev nD) (t : Fin cfg1.N) :
    (dat1 (F := Ideal) V c).flushed 6 t
      = ((cfg1.win 6).blk t).view.read (Elt Ideal) (unitA (layerA (V c main_v23) (V c main_v36) (V c main_v38) (V c main_v43) (V c main_v44) (V c main_v45))) := by
  show (cfg1.win 6).cut (grid1.coords t) ((dat1 V c).after 6 t) = _
  rw [after1_6]
  exact block1 (V c main_v23) (V c main_v36) (V c main_v38) (V c main_v43) (V c main_v44) (V c main_v45) t

/-! ## The blocks tile the array -/

/-- An index of the array is in point `t`'s block iff each coordinate is in the block's range on its axis. -/
theorem mem_blk1 (t : Fin cfg1.N) (i : S130000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v46).slice (win1_6.rect t)).set ↔ _
  rw [View.set_slice_whole, Rect.mem_set_unit]
  exact Iff.rfl

/-- Row `r` is in the block of point `r / 5000`, and every point writes its block back. -/
theorem cover1 (i : S130000x64.Idx) :
    ∃ t : Fin cfg1.N, (cfg1.win 6).flush t = true ∧ i ∈ ((cfg1.win 6).blk t).view.set := by
  have hN : cfg1.N = 26 := N_1
  have hi0 : (i 0).val < 130000 := (i 0).isLt
  have hi1 : (i 1).val < 64 := (i 1).isLt
  obtain ⟨t, ht⟩ : ∃ t : Fin cfg1.N, t.val = (i 0).val / 5000 := ⟨⟨(i 0).val / 5000, by rw [hN]; omega⟩, rfl⟩
  obtain ⟨e0, e1⟩ := idx1_6 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 64 ≤ (i 1).val ∧ (i 1).val < win1_6.index t (1 : Fin 2) * 64 + 64; rw [e1]; omega

/-! ## The output array after the region -/

theorem region1_value (V : (c : Dev nD) → (b : Ref sig .tc) → Buf (Elt Ideal) ((c : Thread nD τ).loc b)) (c : Dev nD) :
    (dat1 (F := Ideal) V c).arrAt 6 cfg1.N
      = unitA (layerA (V c main_v23) (V c main_v36) (V c main_v38) (V c main_v43) (V c main_v44) (V c main_v45)) :=
  (dat1 V c).arrAt_eq_of_cover 6 _ (fun t _ => flushed1 V c t) cover1

end Cert.Bridge

end
-- ==== Proof.Region2.lean ====
/-
  The first graph-convolution layer of one branch on whole arrays. Each of the grid's 26 points writes back one block
  of 5000 rows: the layer's update of those rows of the arrays found when the region is entered. The blocks tile
  the 130000 rows, so the output array ends holding the layer of the whole arrays.
-/
import proofs.«170398_j17961553231970_2_alg».proof.Proof.Gen.KernelIdeal.Frame
import proofs.«170398_j17961553231970_2_alg».proof.Proof.Spec
import proofs.«170398_j17961553231970_2_alg».proof.Proof.Body
import proofs.«170398_j17961553231970_2_alg».proof.Proof.RegionLib
import Idealize.ShloMosaic.Lib.Pipeline.Value

noncomputable section

namespace Cert.Bridge

open Cert.KernelIdeal Cert.KernelIdeal.Gen Idealize.ShloMosaic Idealize.ShloMosaic.ValueIdx
open Idealize.ShloMosaic.TcCoe
open Idealize.ShloMosaic.Pipeline (Dat)

/-! ## The block indices over the grid: the row-tiled windows are at block `(t, 0)`, the small ones at `(0, 0)` -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)

/-! ## Where a block's element sits in its array: block index × block size + the coordinate inside the block -/

/-- An element `(p, k)` of window 0's block at point `t` is the element `(5000 t + p, k)` of its array. -/
theorem emb2_0 (t : Fin cfg2.N) (p : Fin 5000) (k : Fin 64) (h : t.val * 5000 + p.val < 130000) :
    ((cfg2.win 0).blk t).view.emb (ix2 p k : S5000x64.Idx) = (ix2 ⟨t.val * 5000 + p.val, h⟩ k : S130000x64.Idx) := by
  obtain ⟨e0, e1⟩ := idx2_0 t
  funext a; apply Fin.ext
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- An element `(p, k)` of window 1's block at point `t` is the element `(5000 t + p, k)` of its array. -/
theorem emb2_1 (t : Fin cfg2.N) (p : Fin 5000) (k : Fin 64) (h : t.val * 5000 + p.val < 130000) :
    ((cfg2.win 1).blk t).view.emb (ix2 p k : S5000x64.Idx) = (ix2 ⟨t.val * 5000 + p.val, h⟩ k : S130000x64.Idx) := by
  obtain ⟨e0, e1⟩ := idx2_1 t
  funext a; apply Fin.ext
  match a with
  | ⟨0, _⟩ => show win2_1.index t (0 : Fin 2) * 5000 + 1 * p.val = t.val * 5000 + p.val; rw [e0]; omega
  | ⟨1, _⟩ => show win2_1.index t (1 : Fin 2) * 64 + 1 * k.val = k.val; rw [e1]; omega

/-- Window 2's block is its whole array at every point. -/
theorem emb2_2 (t : Fin cfg2.N) (j : Fin 64) (k : Fin 64) :
    ((cfg2.win 2).blk t).view.emb (ix2 j k : S64x64.Idx) = (ix2 j k : S64x64.Idx) := by
  obtain ⟨e0, e1⟩ := idx2_2 t
  funext a; apply Fin.ext
  match a with
  | ⟨0, _⟩ => show win2_2.index t (0 : Fin 2) * 64 + 1 * j.val = j.val; rw [e0]; omega
  | ⟨1, _⟩ => show win2_2.index t (1 : Fin 2) * 64 + 1 * k.val = k.val; rw [e1]; omega

/-- Window 3's block is its whole array at every point. -/
theorem emb2_3 (t : Fin cfg2.N) (j : Fin 64) (k : Fin 64) :
    ((cfg2.win 3).blk t).view.emb (ix2 j k : S64x64.Idx) = (ix2 j k : S64x64.Idx) := by
  obtain ⟨e0, e1⟩ := idx2_3 t
  funext a; apply Fin.ext
  match a with
  | ⟨0, _⟩ => show win2_3.index t (0 : Fin 2) * 64 + 1 * j.val = j.val; rw [e0]; omega
  | ⟨1, _⟩ => show win2_3.index t (1 : Fin 2) * 64 + 1 * k.val = k.val; rw [e1]; omega

/-- Window 4's block is its whole array at every point. -/
theorem emb2_4 (t : Fin cfg2.N) (j : Fin 64) (k : Fin 64) :
    ((cfg2.win 4).blk t).view.emb (ix2 j k : S64x64.Idx) = (ix2 j k : S64x64.Idx) := by
  obtain ⟨e0, e1⟩ := idx2_4 t
  funext a; apply Fin.ext
  match a with
  | ⟨0, _⟩ => show win2_4.index t (0 : Fin 2) * 64 + 1 * j.val = j.val; rw [e0]; omega
  | ⟨1, _⟩ => show win2_4.index t (1 : Fin 2) * 64 + 1 * k.val = k.val; rw [e1]; omega

/-- Window 5's block is its whole array at every point. -/
theorem emb2_5 (t : Fin cfg2.N) (j : Fin 1) (k : Fin 64) :
    ((cfg2.win 5).blk t).view.emb (ix2 j k : S1x64.Idx) = (ix2 j k : S1x64.Idx) := by
  obtain ⟨e0, e1⟩ := idx2_5 t
  funext a; apply Fin.ext
  match a with
  | ⟨0, _⟩ => show win2_5.index t (0 : Fin 2) * 1 + 1 * j.val = j.val; rw [e0]; omega
  | ⟨1, _⟩ => show win2_5.index t (1 : Fin 2) * 64 + 1 * k.val = k.val; rw [e1]; omega

/-- An element `(p, k)` of window 6's block at point `t` is the element `(5000 t + p, k)` of its array. -/
theorem emb2_6 (t : Fin cfg2.N) (p : Fin 5000) (k : Fin 64) (h : t.val * 5000 + p.val < 130000) :
    ((cfg2.win 6).blk t).view.emb (ix2 p k : S5000x64.Idx) = (ix2 ⟨t.val * 5000 + p.val, h⟩ k : S130000x64.Idx) := by
  obtain ⟨e0, e1⟩ := idx2_6 t
  funext a; apply Fin.ext
  match a with
  | ⟨0, _⟩ => show win2_6.index t (0 : Fin 2) * 5000 + 1 * p.val = t.val * 5000 + p.val; rw [e0]; omega
  | ⟨1, _⟩ => show win2_6.index t (1 : Fin 2) * 64 + 1 * k.val = k.val; rw [e1]; omega

/-! ## What one point writes back -/

/-- The body's result on the blocks of any six arrays, at point `t`, is block `t` of the whole-array function. -/
theorem block2 (A0 A1 : S130000x64.Idx → EReal) (Q We Wh : S64x64.Idx → EReal) (b : S1x64.Idx → EReal) (t : Fin cfg2.N) :
    (cfg2.win 6).cut (grid2.coords t)
        (out2_6 (F := Ideal) (((cfg2.win 0).blk t).view.read (Elt Ideal) A0) (((cfg2.win 1).blk t).view.read (Elt Ideal) A1)
          (((cfg2.win 2).blk t).view.read (Elt Ideal) Q) (((cfg2.win 3).blk t).view.read (Elt Ideal) We)
          (((cfg2.win 4).blk t).view.read (Elt Ideal) Wh) (((cfg2.win 5).blk t).view.read (Elt Ideal) b))
      = ((cfg2.win 6).blk t).view.read (Elt Ideal) (layerA A0 A1 Q We Wh b) := by
  have hN : cfg2.N = 26 := N_2
  have ht := t.isLt
  funext j
  obtain ⟨p, q, rfl⟩ : ∃ (p : Fin 5000) (q : Fin 64), j = ix2 p q := ⟨j 0, j 1, eq_ix2 (n0 := 5000) (n1 := 64) j⟩
  have h : t.val * 5000 + p.val < 130000 := by have := p.isLt; omega
  show out2_6 (F := Ideal) (((cfg2.win 0).blk t).view.read (Elt Ideal) A0) (((cfg2.win 1).blk t).view.read (Elt Ideal) A1) (((cfg2.win 2).blk t).view.read (Elt Ideal) Q) (((cfg2.win 3).blk t).view.read (Elt Ideal) We) (((cfg2.win 4).blk t).view.read (Elt Ideal) Wh) (((cfg2.win 5).blk t).view.read (Elt Ideal) b) (ix2 p q)
    = (layerA A0 A1 Q We Wh b) (((cfg2.win 6).blk t).view.emb (ix2 p q))
  rw [emb2_6 t p q h]
  refine (body_plain2 (((cfg2.win 0).blk t).view.read (Elt Ideal) A0) (((cfg2.win 1).blk t).view.read (Elt Ideal) A1) (((cfg2.win 2).blk t).view.read (Elt Ideal) Q) (((cfg2.win 3).blk t).view.read (Elt Ideal) We) (((cfg2.win 4).blk t).view.read (Elt Ideal) Wh) (((cfg2.win 5).blk t).view.read (Elt Ideal) b) p q).trans ?_
  show layer _ _ _ _ _ _ p q = layer (mat A0) (mat A1) (mat Q) (mat We) (mat Wh) (row0 b) ⟨_, h⟩ q
  refine layer_congr q (fun k => ?_) (fun k => ?_) (fun j k => ?_) (fun j k => ?_) (fun j k => ?_) (fun k => ?_)
  · show A0 (((cfg2.win 0).blk t).view.emb (ix2 p k)) = A0 (ix2 ⟨_, h⟩ k); rw [emb2_0 t p k h]
  · show A1 (((cfg2.win 1).blk t).view.emb (ix2 p k)) = A1 (ix2 ⟨_, h⟩ k); rw [emb2_1 t p k h]
  · show Q (((cfg2.win 2).blk t).view.emb (ix2 j k)) = Q (ix2 j k); rw [emb2_2 t j k]
  · show We (((cfg2.win 3).blk t).view.emb (ix2 j k)) = We (ix2 j k); rw [emb2_3 t j k]
  · show Wh (((cfg2.win 4).blk t).view.emb (ix2 j k)) = Wh (ix2 j k); rw [emb2_4 t j k]
  · show b (((cfg2.win 5).blk t).view.emb (ix2 0 k)) = b (ix2 0 k); rw [emb2_5 t 0 k]

/-- What point `t` writes back is block `t` of the whole-array function of the arrays the region finds. -/
theorem flushed2 (V : (c : Dev nD) → (b : Ref sig .tc) → Buf (Elt Ideal) ((c : Thread nD τ).loc b)) (c : Dev nD) (t : Fin cfg2.N) :
    (dat2 (F := Ideal) V c).flushed 6 t
      = ((cfg2.win 6).blk t).view.read (Elt Ideal) (layerA (V c main_v0) (V c main_v13) (V c main_v48) (V c main_v53) (V c main_v54) (V c main_v55)) := by
  show (cfg2.win 6).cut (grid2.coords t) ((dat2 V c).after 6 t) = _
  rw [after2_6]
  exact block2 (V c main_v0) (V c main_v13) (V c main_v48) (V c main_v53) (V c main_v54) (V c main_v55) t

/-! ## The blocks tile the array -/

/-- An index of the array is in point `t`'s block iff each coordinate is in the block's range on its axis. -/
theorem mem_blk2 (t : Fin cfg2.N) (i : S130000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v56).slice (win2_6.rect t)).set ↔ _
  rw [View.set_slice_whole, Rect.mem_set_unit]
  exact Iff.rfl

/-- Row `r` is in the block of point `r / 5000`, and every point writes its block back. -/
theorem cover2 (i : S130000x64.Idx) :
    ∃ t : Fin cfg2.N, (cfg2.win 6).flush t = true ∧ i ∈ ((cfg2.win 6).blk t).view.set := by
  have hN : cfg2.N = 26 := N_2
  have hi0 : (i 0).val < 130000 := (i 0).isLt
  have hi1 : (i 1).val < 64 := (i 1).isLt
  obtain ⟨t, ht⟩ : ∃ t : Fin cfg2.N, t.val = (i 0).val / 5000 := ⟨⟨(i 0).val / 5000, by rw [hN]; omega⟩, rfl⟩
  obtain ⟨e0, e1⟩ := idx2_6 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 64 ≤ (i 1).val ∧ (i 1).val < win2_6.index t (1 : Fin 2) * 64 + 64; rw [e1]; omega

/-! ## The output array after the region -/

theorem region2_value (V : (c : Dev nD) → (b : Ref sig .tc) → Buf (Elt Ideal) ((c : Thread nD τ).loc b)) (c : Dev nD) :
    (dat2 (F := Ideal) V c).arrAt 6 cfg2.N
      = layerA (V c main_v0) (V c main_v13) (V c main_v48) (V c main_v53) (V c main_v54) (V c main_v55) :=
  (dat2 V c).arrAt_eq_of_cover 6 _ (fun t _ => flushed2 V c t) cover2

end Cert.Bridge

end
-- ==== Proof.Region3.lean ====
/-
  The last graph-convolution layer of one branch on whole arrays. Each of the grid's 26 points writes back one block
  of 5000 rows: the layer followed by the unit-length scaling, of those rows of the arrays found when the region is
  entered. The blocks tile the 130000 rows, so the output array ends holding that function of the whole arrays.
-/
import proofs.«170398_j17961553231970_2_alg».proof.Proof.Gen.KernelIdeal.Frame
import proofs.«170398_j17961553231970_2_alg».proof.Proof.Spec
import proofs.«170398_j17961553231970_2_alg».proof.Proof.Body
import proofs.«170398_j17961553231970_2_alg».proof.Proof.RegionLib
import Idealize.ShloMosaic.Lib.Pipeline.Value

noncomputable section

namespace Cert.Bridge

open Cert.KernelIdeal Cert.KernelIdeal.Gen Idealize.ShloMosaic Idealize.ShloMosaic.ValueIdx
open Idealize.ShloMosaic.TcCoe
open Idealize.ShloMosaic.Pipeline (Dat)

/-! ## The block indices over the grid: the row-tiled windows are at block `(t, 0)`, the small ones at `(0, 0)` -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = t.val ∧ win3_6.index t (1 : Fin 2) = 0 :=
  (by decide +kernel : ∀ t : Fin grid3.N, _)

/-! ## Where a block's element sits in its array: block index × block size + the coordinate inside the block -/

/-- An element `(p, k)` of window 0's block at point `t` is the element `(5000 t + p, k)` of its array. -/
theorem emb3_0 (t : Fin cfg3.N) (p : Fin 5000) (k : Fin 64) (h : t.val * 5000 + p.val < 130000) :
    ((cfg3.win 0).blk t).view.emb (ix2 p k : S5000x64.Idx) = (ix2 ⟨t.val * 5000 + p.val, h⟩ k : S130000x64.Idx) := by
  obtain ⟨e0, e1⟩ := idx3_0 t
  funext a; apply Fin.ext
  match a with
  | ⟨0, _⟩ => show win3_0.index t (0 : Fin 2) * 5000 + 1 * p.val = t.val * 5000 + p.val; rw [e0]; omega
  | ⟨1, _⟩ => show win3_0.index t (1 : Fin 2) * 64 + 1 * k.val = k.val; rw [e1]; omega

/-- An element `(p, k)` of window 1's block at point `t` is the element `(5000 t + p, k)` of its array. -/
theorem emb3_1 (t : Fin cfg3.N) (p : Fin 5000) (k : Fin 64) (h : t.val * 5000 + p.val < 130000) :
    ((cfg3.win 1).blk t).view.emb (ix2 p k : S5000x64.Idx) = (ix2 ⟨t.val * 5000 + p.val, h⟩ k : S130000x64.Idx) := by
  obtain ⟨e0, e1⟩ := idx3_1 t
  funext a; apply Fin.ext
  match a with
  | ⟨0, _⟩ => show win3_1.index t (0 : Fin 2) * 5000 + 1 * p.val = t.val * 5000 + p.val; rw [e0]; omega
  | ⟨1, _⟩ => show win3_1.index t (1 : Fin 2) * 64 + 1 * k.val = k.val; rw [e1]; omega

/-- Window 2's block is its whole array at every point. -/
theorem emb3_2 (t : Fin cfg3.N) (j : Fin 64) (k : Fin 64) :
    ((cfg3.win 2).blk t).view.emb (ix2 j k : S64x64.Idx) = (ix2 j k : S64x64.Idx) := by
  obtain ⟨e0, e1⟩ := idx3_2 t
  funext a; apply Fin.ext
  match a with
  | ⟨0, _⟩ => show win3_2.index t (0 : Fin 2) * 64 + 1 * j.val = j.val; rw [e0]; omega
  | ⟨1, _⟩ => show win3_2.index t (1 : Fin 2) * 64 + 1 * k.val = k.val; rw [e1]; omega

/-- Window 3's block is its whole array at every point. -/
theorem emb3_3 (t : Fin cfg3.N) (j : Fin 64) (k : Fin 64) :
    ((cfg3.win 3).blk t).view.emb (ix2 j k : S64x64.Idx) = (ix2 j k : S64x64.Idx) := by
  obtain ⟨e0, e1⟩ := idx3_3 t
  funext a; apply Fin.ext
  match a with
  | ⟨0, _⟩ => show win3_3.index t (0 : Fin 2) * 64 + 1 * j.val = j.val; rw [e0]; omega
  | ⟨1, _⟩ => show win3_3.index t (1 : Fin 2) * 64 + 1 * k.val = k.val; rw [e1]; omega

/-- Window 4's block is its whole array at every point. -/
theorem emb3_4 (t : Fin cfg3.N) (j : Fin 64) (k : Fin 64) :
    ((cfg3.win 4).blk t).view.emb (ix2 j k : S64x64.Idx) = (ix2 j k : S64x64.Idx) := by
  obtain ⟨e0, e1⟩ := idx3_4 t
  funext a; apply Fin.ext
  match a with
  | ⟨0, _⟩ => show win3_4.index t (0 : Fin 2) * 64 + 1 * j.val = j.val; rw [e0]; omega
  | ⟨1, _⟩ => show win3_4.index t (1 : Fin 2) * 64 + 1 * k.val = k.val; rw [e1]; omega

/-- Window 5's block is its whole array at every point. -/
theorem emb3_5 (t : Fin cfg3.N) (j : Fin 1) (k : Fin 64) :
    ((cfg3.win 5).blk t).view.emb (ix2 j k : S1x64.Idx) = (ix2 j k : S1x64.Idx) := by
  obtain ⟨e0, e1⟩ := idx3_5 t
  funext a; apply Fin.ext
  match a with
  | ⟨0, _⟩ => show win3_5.index t (0 : Fin 2) * 1 + 1 * j.val = j.val; rw [e0]; omega
  | ⟨1, _⟩ => show win3_5.index t (1 : Fin 2) * 64 + 1 * k.val = k.val; rw [e1]; omega

/-- An element `(p, k)` of window 6's block at point `t` is the element `(5000 t + p, k)` of its array. -/
theorem emb3_6 (t : Fin cfg3.N) (p : Fin 5000) (k : Fin 64) (h : t.val * 5000 + p.val < 130000) :
    ((cfg3.win 6).blk t).view.emb (ix2 p k : S5000x64.Idx) = (ix2 ⟨t.val * 5000 + p.val, h⟩ k : S130000x64.Idx) := by
  obtain ⟨e0, e1⟩ := idx3_6 t
  funext a; apply Fin.ext
  match a with
  | ⟨0, _⟩ => show win3_6.index t (0 : Fin 2) * 5000 + 1 * p.val = t.val * 5000 + p.val; rw [e0]; omega
  | ⟨1, _⟩ => show win3_6.index t (1 : Fin 2) * 64 + 1 * k.val = k.val; rw [e1]; omega

/-! ## What one point writes back -/

/-- The body's result on the blocks of any six arrays, at point `t`, is block `t` of the whole-array function. -/
theorem block3 (A0 A1 : S130000x64.Idx → EReal) (Q We Wh : S64x64.Idx → EReal) (b : S1x64.Idx → EReal) (t : Fin cfg3.N) :
    (cfg3.win 6).cut (grid3.coords t)
        (out3_6 (F := Ideal) (((cfg3.win 0).blk t).view.read (Elt Ideal) A0) (((cfg3.win 1).blk t).view.read (Elt Ideal) A1)
          (((cfg3.win 2).blk t).view.read (Elt Ideal) Q) (((cfg3.win 3).blk t).view.read (Elt Ideal) We)
          (((cfg3.win 4).blk t).view.read (Elt Ideal) Wh) (((cfg3.win 5).blk t).view.read (Elt Ideal) b))
      = ((cfg3.win 6).blk t).view.read (Elt Ideal) (unitA (layerA A0 A1 Q We Wh b)) := by
  have hN : cfg3.N = 26 := N_3
  have ht := t.isLt
  funext j
  obtain ⟨p, q, rfl⟩ : ∃ (p : Fin 5000) (q : Fin 64), j = ix2 p q := ⟨j 0, j 1, eq_ix2 (n0 := 5000) (n1 := 64) j⟩
  have h : t.val * 5000 + p.val < 130000 := by have := p.isLt; omega
  show out3_6 (F := Ideal) (((cfg3.win 0).blk t).view.read (Elt Ideal) A0) (((cfg3.win 1).blk t).view.read (Elt Ideal) A1) (((cfg3.win 2).blk t).view.read (Elt Ideal) Q) (((cfg3.win 3).blk t).view.read (Elt Ideal) We) (((cfg3.win 4).blk t).view.read (Elt Ideal) Wh) (((cfg3.win 5).blk t).view.read (Elt Ideal) b) (ix2 p q)
    = (unitA (layerA A0 A1 Q We Wh b)) (((cfg3.win 6).blk t).view.emb (ix2 p q))
  rw [emb3_6 t p q h]
  refine (body_norm3 (((cfg3.win 0).blk t).view.read (Elt Ideal) A0) (((cfg3.win 1).blk t).view.read (Elt Ideal) A1) (((cfg3.win 2).blk t).view.read (Elt Ideal) Q) (((cfg3.win 3).blk t).view.read (Elt Ideal) We) (((cfg3.win 4).blk t).view.read (Elt Ideal) Wh) (((cfg3.win 5).blk t).view.read (Elt Ideal) b) p q).trans ?_
  show unitRow (layer _ _ _ _ _ _) eps p q = unitRow (layer (mat A0) (mat A1) (mat Q) (mat We) (mat Wh) (row0 b)) eps ⟨_, h⟩ q
  refine unitRow_congr eps q fun k' => ?_
  refine layer_congr k' (fun k => ?_) (fun k => ?_) (fun j k => ?_) (fun j k => ?_) (fun j k => ?_) (fun k => ?_)
  · show A0 (((cfg3.win 0).blk t).view.emb (ix2 p k)) = A0 (ix2 ⟨_, h⟩ k); rw [emb3_0 t p k h]
  · show A1 (((cfg3.win 1).blk t).view.emb (ix2 p k)) = A1 (ix2 ⟨_, h⟩ k); rw [emb3_1 t p k h]
  · show Q (((cfg3.win 2).blk t).view.emb (ix2 j k)) = Q (ix2 j k); rw [emb3_2 t j k]
  · show We (((cfg3.win 3).blk t).view.emb (ix2 j k)) = We (ix2 j k); rw [emb3_3 t j k]
  · show Wh (((cfg3.win 4).blk t).view.emb (ix2 j k)) = Wh (ix2 j k); rw [emb3_4 t j k]
  · show b (((cfg3.win 5).blk t).view.emb (ix2 0 k)) = b (ix2 0 k); rw [emb3_5 t 0 k]

/-- What point `t` writes back is block `t` of the whole-array function of the arrays the region finds. -/
theorem flushed3 (V : (c : Dev nD) → (b : Ref sig .tc) → Buf (Elt Ideal) ((c : Thread nD τ).loc b)) (c : Dev nD) (t : Fin cfg3.N) :
    (dat3 (F := Ideal) V c).flushed 6 t
      = ((cfg3.win 6).blk t).view.read (Elt Ideal) (unitA (layerA (V c main_v56) (V c main_v69) (V c main_v71) (V c main_v76) (V c main_v77) (V c main_v78))) := by
  show (cfg3.win 6).cut (grid3.coords t) ((dat3 V c).after 6 t) = _
  rw [after3_6]
  exact block3 (V c main_v56) (V c main_v69) (V c main_v71) (V c main_v76) (V c main_v77) (V c main_v78) t

/-! ## The blocks tile the array -/

/-- An index of the array is in point `t`'s block iff each coordinate is in the block's range on its axis. -/
theorem mem_blk3 (t : Fin cfg3.N) (i : S130000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v79).slice (win3_6.rect t)).set ↔ _
  rw [View.set_slice_whole, Rect.mem_set_unit]
  exact Iff.rfl

/-- Row `r` is in the block of point `r / 5000`, and every point writes its block back. -/
theorem cover3 (i : S130000x64.Idx) :
    ∃ t : Fin cfg3.N, (cfg3.win 6).flush t = true ∧ i ∈ ((cfg3.win 6).blk t).view.set := by
  have hN : cfg3.N = 26 := N_3
  have hi0 : (i 0).val < 130000 := (i 0).isLt
  have hi1 : (i 1).val < 64 := (i 1).isLt
  obtain ⟨t, ht⟩ : ∃ t : Fin cfg3.N, t.val = (i 0).val / 5000 := ⟨⟨(i 0).val / 5000, by rw [hN]; omega⟩, rfl⟩
  obtain ⟨e0, e1⟩ := idx3_6 t
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 64 ≤ (i 1).val ∧ (i 1).val < win3_6.index t (1 : Fin 2) * 64 + 64; rw [e1]; omega

/-! ## The output array after the region -/

theorem region3_value (V : (c : Dev nD) → (b : Ref sig .tc) → Buf (Elt Ideal) ((c : Thread nD τ).loc b)) (c : Dev nD) :
    (dat3 (F := Ideal) V c).arrAt 6 cfg3.N
      = unitA (layerA (V c main_v56) (V c main_v69) (V c main_v71) (V c main_v76) (V c main_v77) (V c main_v78)) :=
  (dat3 V c).arrAt_eq_of_cover 6 _ (fun t _ => flushed3 V c t) cover3

end Cert.Bridge

end
-- ==== Proof.Region4.lean ====
/-
  The pairwise branch added to the graph branch, on whole arrays. Each of the grid's 20 points writes back one block
  of 5000 rows: `tanh (x · M) + g` on those rows of the arrays found when the region is entered. The blocks tile
  the 100000 rows, so the output array ends holding that function of the whole arrays.
-/
import proofs.«170398_j17961553231970_2_alg».proof.Proof.Gen.KernelIdeal.Frame
import proofs.«170398_j17961553231970_2_alg».proof.Proof.Spec
import proofs.«170398_j17961553231970_2_alg».proof.Proof.Body
import proofs.«170398_j17961553231970_2_alg».proof.Proof.RegionLib
import Idealize.ShloMosaic.Lib.Pipeline.Value

noncomputable section

namespace Cert.Bridge

open Cert.KernelIdeal Cert.KernelIdeal.Gen Idealize.ShloMosaic Idealize.ShloMosaic.ValueIdx
open Idealize.ShloMosaic.TcCoe
open Idealize.ShloMosaic.Pipeline (Dat)

/-! ## The block indices over the grid: the row-tiled windows are at block `(t, 0)`, the small one at `(0, 0)` -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = t.val ∧ win4_3.index t (1 : Fin 2) = 0 :=
  (by decide +kernel : ∀ t : Fin grid4.N, _)

/-! ## Where a block's element sits in its array: block index × block size + the coordinate inside the block -/

/-- An element `(p, k)` of window 0's block at point `t` is the element `(5000 t + p, k)` of its array. -/
theorem emb4_0 (t : Fin cfg4.N) (p : Fin 5000) (k : Fin 64) (h : t.val * 5000 + p.val < 100000) :
    ((cfg4.win 0).blk t).view.emb (ix2 p k : S5000x64.Idx) = (ix2 ⟨t.val * 5000 + p.val, h⟩ k : S100000x64.Idx) := by
  obtain ⟨e0, e1⟩ := idx4_0 t
  funext a; apply Fin.ext
  match a with
  | ⟨0, _⟩ => show win4_0.index t (0 : Fin 2) * 5000 + 1 * p.val = t.val * 5000 + p.val; rw [e0]; omega
  | ⟨1, _⟩ => show win4_0.index t (1 : Fin 2) * 64 + 1 * k.val = k.val; rw [e1]; omega

/-- Window 1's block is its whole array at every point. -/
theorem emb4_1 (t : Fin cfg4.N) (j : Fin 64) (k : Fin 64) :
    ((cfg4.win 1).blk t).view.emb (ix2 j k : S64x64.Idx) = (ix2 j k : S64x64.Idx) := by
  obtain ⟨e0, e1⟩ := idx4_1 t
  funext a; apply Fin.ext
  match a with
  | ⟨0, _⟩ => show win4_1.index t (0 : Fin 2) * 64 + 1 * j.val = j.val; rw [e0]; omega
  | ⟨1, _⟩ => show win4_1.index t (1 : Fin 2) * 64 + 1 * k.val = k.val; rw [e1]; omega

/-- An element `(p, k)` of window 2's block at point `t` is the element `(5000 t + p, k)` of its array. -/
theorem emb4_2 (t : Fin cfg4.N) (p : Fin 5000) (k : Fin 64) (h : t.val * 5000 + p.val < 100000) :
    ((cfg4.win 2).blk t).view.emb (ix2 p k : S5000x64.Idx) = (ix2 ⟨t.val * 5000 + p.val, h⟩ k : S100000x64.Idx) := by
  obtain ⟨e0, e1⟩ := idx4_2 t
  funext a; apply Fin.ext
  match a with
  | ⟨0, _⟩ => show win4_2.index t (0 : Fin 2) * 5000 + 1 * p.val = t.val * 5000 + p.val; rw [e0]; omega
  | ⟨1, _⟩ => show win4_2.index t (1 : Fin 2) * 64 + 1 * k.val = k.val; rw [e1]; omega

/-- An element `(p, k)` of window 3's block at point `t` is the element `(5000 t + p, k)` of its array. -/
theorem emb4_3 (t : Fin cfg4.N) (p : Fin 5000) (k : Fin 64) (h : t.val * 5000 + p.val < 100000) :
    ((cfg4.win 3).blk t).view.emb (ix2 p k : S5000x64.Idx) = (ix2 ⟨t.val * 5000 + p.val, h⟩ k : S100000x64.Idx) := by
  obtain ⟨e0, e1⟩ := idx4_3 t
  funext a; apply Fin.ext
  match a with
  | ⟨0, _⟩ => show win4_3.index t (0 : Fin 2) * 5000 + 1 * p.val = t.val * 5000 + p.val; rw [e0]; omega
  | ⟨1, _⟩ => show win4_3.index t (1 : Fin 2) * 64 + 1 * k.val = k.val; rw [e1]; omega

/-! ## What one point writes back -/

/-- The body's result on the blocks of any three arrays, at point `t`, is block `t` of the whole-array function. -/
theorem block4 (X : S100000x64.Idx → EReal) (M : S64x64.Idx → EReal) (Gr : S100000x64.Idx → EReal) (t : Fin cfg4.N) :
    (cfg4.win 3).cut (grid4.coords t)
        (out4_3 (F := Ideal) (((cfg4.win 0).blk t).view.read (Elt Ideal) X) (((cfg4.win 1).blk t).view.read (Elt Ideal) M)
          (((cfg4.win 2).blk t).view.read (Elt Ideal) Gr))
      = ((cfg4.win 3).blk t).view.read (Elt Ideal) (pairA X M Gr) := by
  have hN : cfg4.N = 20 := N_4
  have ht := t.isLt
  funext j
  obtain ⟨p, q, rfl⟩ : ∃ (p : Fin 5000) (q : Fin 64), j = ix2 p q := ⟨j 0, j 1, eq_ix2 (n0 := 5000) (n1 := 64) j⟩
  have h : t.val * 5000 + p.val < 100000 := by have := p.isLt; omega
  show out4_3 (F := Ideal) (((cfg4.win 0).blk t).view.read (Elt Ideal) X) (((cfg4.win 1).blk t).view.read (Elt Ideal) M) (((cfg4.win 2).blk t).view.read (Elt Ideal) Gr) (ix2 p q)
    = (pairA X M Gr) (((cfg4.win 3).blk t).view.emb (ix2 p q))
  rw [emb4_3 t p q h]
  refine (body_pair4 (((cfg4.win 0).blk t).view.read (Elt Ideal) X) (((cfg4.win 1).blk t).view.read (Elt Ideal) M) (((cfg4.win 2).blk t).view.read (Elt Ideal) Gr) p q).trans ?_
  show pairRow _ _ _ p q = pairRow (mat X) (mat M) (mat Gr) ⟨_, h⟩ q
  refine pairRow_congr q (fun k => ?_) (fun j k => ?_) (fun k => ?_)
  · show X (((cfg4.win 0).blk t).view.emb (ix2 p k)) = X (ix2 ⟨_, h⟩ k); rw [emb4_0 t p k h]
  · show M (((cfg4.win 1).blk t).view.emb (ix2 j k)) = M (ix2 j k); rw [emb4_1 t j k]
  · show Gr (((cfg4.win 2).blk t).view.emb (ix2 p k)) = Gr (ix2 ⟨_, h⟩ k); rw [emb4_2 t p k h]

/-- What point `t` writes back is block `t` of the whole-array function of the arrays the region finds. -/
theorem flushed4 (V : (c : Dev nD) → (b : Ref sig .tc) → Buf (Elt Ideal) ((c : Thread nD τ).loc b)) (c : Dev nD) (t : Fin cfg4.N) :
    (dat4 (F := Ideal) V c).flushed 3 t
      = ((cfg4.win 3).blk t).view.read (Elt Ideal) (pairA (V c main_v94) (V c main_arg11) (V c main_v80)) := by
  show (cfg4.win 3).cut (grid4.coords t) ((dat4 V c).after 3 t) = _
  rw [after4_3]
  exact block4 (V c main_v94) (V c main_arg11) (V c main_v80) t

/-! ## The blocks tile the array -/

/-- An index of the array is in point `t`'s block iff each coordinate is in the block's range on its axis. -/
theorem mem_blk4 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v108).slice (win4_3.rect t)).set ↔ _
  rw [View.set_slice_whole, Rect.mem_set_unit]
  exact Iff.rfl

/-- Row `r` is in the block of point `r / 5000`, and every point writes its block back. -/
theorem cover4 (i : S100000x64.Idx) :
    ∃ t : Fin cfg4.N, (cfg4.win 3).flush t = true ∧ i ∈ ((cfg4.win 3).blk t).view.set := by
  have hN : cfg4.N = 20 := N_4
  have hi0 : (i 0).val < 100000 := (i 0).isLt
  have hi1 : (i 1).val < 64 := (i 1).isLt
  obtain ⟨t, ht⟩ : ∃ t : Fin cfg4.N, t.val = (i 0).val / 5000 := ⟨⟨(i 0).val / 5000, by rw [hN]; omega⟩, rfl⟩
  obtain ⟨e0, e1⟩ := idx4_3 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 64 ≤ (i 1).val ∧ (i 1).val < win4_3.index t (1 : Fin 2) * 64 + 64; rw [e1]; omega

/-! ## The output array after the region -/

theorem region4_value (V : (c : Dev nD) → (b : Ref sig .tc) → Buf (Elt Ideal) ((c : Thread nD τ).loc b)) (c : Dev nD) :
    (dat4 (F := Ideal) V c).arrAt 3 cfg4.N
      = pairA (V c main_v94) (V c main_arg11) (V c main_v80) :=
  (dat4 V c).arrAt_eq_of_cover 3 _ (fun t _ => flushed4 V c t) cover4

end Cert.Bridge

end
-- ==== Proof.Region5.lean ====
/-
  The pairwise branch added to the graph branch, on whole arrays. Each of the grid's 6 points writes back one block
  of 5000 rows: `tanh (x · M) + g` on those rows of the arrays found when the region is entered. The blocks tile
  the 30000 rows, so the output array ends holding that function of the whole arrays.
-/
import proofs.«170398_j17961553231970_2_alg».proof.Proof.Gen.KernelIdeal.Frame
import proofs.«170398_j17961553231970_2_alg».proof.Proof.Spec
import proofs.«170398_j17961553231970_2_alg».proof.Proof.Body
import proofs.«170398_j17961553231970_2_alg».proof.Proof.RegionLib
import Idealize.ShloMosaic.Lib.Pipeline.Value

noncomputable section

namespace Cert.Bridge

open Cert.KernelIdeal Cert.KernelIdeal.Gen Idealize.ShloMosaic Idealize.ShloMosaic.ValueIdx
open Idealize.ShloMosaic.TcCoe
open Idealize.ShloMosaic.Pipeline (Dat)

/-! ## The block indices over the grid: the row-tiled windows are at block `(t, 0)`, the small one at `(0, 0)` -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = t.val ∧ win5_3.index t (1 : Fin 2) = 0 :=
  (by decide +kernel : ∀ t : Fin grid5.N, _)

/-! ## Where a block's element sits in its array: block index × block size + the coordinate inside the block -/

/-- An element `(p, k)` of window 0's block at point `t` is the element `(5000 t + p, k)` of its array. -/
theorem emb5_0 (t : Fin cfg5.N) (p : Fin 5000) (k : Fin 64) (h : t.val * 5000 + p.val < 30000) :
    ((cfg5.win 0).blk t).view.emb (ix2 p k : S5000x64.Idx) = (ix2 ⟨t.val * 5000 + p.val, h⟩ k : S30000x64.Idx) := by
  obtain ⟨e0, e1⟩ := idx5_0 t
  funext a; apply Fin.ext
  match a with
  | ⟨0, _⟩ => show win5_0.index t (0 : Fin 2) * 5000 + 1 * p.val = t.val * 5000 + p.val; rw [e0]; omega
  | ⟨1, _⟩ => show win5_0.index t (1 : Fin 2) * 64 + 1 * k.val = k.val; rw [e1]; omega

/-- Window 1's block is its whole array at every point. -/
theorem emb5_1 (t : Fin cfg5.N) (j : Fin 64) (k : Fin 64) :
    ((cfg5.win 1).blk t).view.emb (ix2 j k : S64x64.Idx) = (ix2 j k : S64x64.Idx) := by
  obtain ⟨e0, e1⟩ := idx5_1 t
  funext a; apply Fin.ext
  match a with
  | ⟨0, _⟩ => show win5_1.index t (0 : Fin 2) * 64 + 1 * j.val = j.val; rw [e0]; omega
  | ⟨1, _⟩ => show win5_1.index t (1 : Fin 2) * 64 + 1 * k.val = k.val; rw [e1]; omega

/-- An element `(p, k)` of window 2's block at point `t` is the element `(5000 t + p, k)` of its array. -/
theorem emb5_2 (t : Fin cfg5.N) (p : Fin 5000) (k : Fin 64) (h : t.val * 5000 + p.val < 30000) :
    ((cfg5.win 2).blk t).view.emb (ix2 p k : S5000x64.Idx) = (ix2 ⟨t.val * 5000 + p.val, h⟩ k : S30000x64.Idx) := by
  obtain ⟨e0, e1⟩ := idx5_2 t
  funext a; apply Fin.ext
  match a with
  | ⟨0, _⟩ => show win5_2.index t (0 : Fin 2) * 5000 + 1 * p.val = t.val * 5000 + p.val; rw [e0]; omega
  | ⟨1, _⟩ => show win5_2.index t (1 : Fin 2) * 64 + 1 * k.val = k.val; rw [e1]; omega

/-- An element `(p, k)` of window 3's block at point `t` is the element `(5000 t + p, k)` of its array. -/
theorem emb5_3 (t : Fin cfg5.N) (p : Fin 5000) (k : Fin 64) (h : t.val * 5000 + p.val < 30000) :
    ((cfg5.win 3).blk t).view.emb (ix2 p k : S5000x64.Idx) = (ix2 ⟨t.val * 5000 + p.val, h⟩ k : S30000x64.Idx) := by
  obtain ⟨e0, e1⟩ := idx5_3 t
  funext a; apply Fin.ext
  match a with
  | ⟨0, _⟩ => show win5_3.index t (0 : Fin 2) * 5000 + 1 * p.val = t.val * 5000 + p.val; rw [e0]; omega
  | ⟨1, _⟩ => show win5_3.index t (1 : Fin 2) * 64 + 1 * k.val = k.val; rw [e1]; omega

/-! ## What one point writes back -/

/-- The body's result on the blocks of any three arrays, at point `t`, is block `t` of the whole-array function. -/
theorem block5 (X : S30000x64.Idx → EReal) (M : S64x64.Idx → EReal) (Gr : S30000x64.Idx → EReal) (t : Fin cfg5.N) :
    (cfg5.win 3).cut (grid5.coords t)
        (out5_3 (F := Ideal) (((cfg5.win 0).blk t).view.read (Elt Ideal) X) (((cfg5.win 1).blk t).view.read (Elt Ideal) M)
          (((cfg5.win 2).blk t).view.read (Elt Ideal) Gr))
      = ((cfg5.win 3).blk t).view.read (Elt Ideal) (pairA X M Gr) := by
  have hN : cfg5.N = 6 := N_5
  have ht := t.isLt
  funext j
  obtain ⟨p, q, rfl⟩ : ∃ (p : Fin 5000) (q : Fin 64), j = ix2 p q := ⟨j 0, j 1, eq_ix2 (n0 := 5000) (n1 := 64) j⟩
  have h : t.val * 5000 + p.val < 30000 := by have := p.isLt; omega
  show out5_3 (F := Ideal) (((cfg5.win 0).blk t).view.read (Elt Ideal) X) (((cfg5.win 1).blk t).view.read (Elt Ideal) M) (((cfg5.win 2).blk t).view.read (Elt Ideal) Gr) (ix2 p q)
    = (pairA X M Gr) (((cfg5.win 3).blk t).view.emb (ix2 p q))
  rw [emb5_3 t p q h]
  refine (body_pair5 (((cfg5.win 0).blk t).view.read (Elt Ideal) X) (((cfg5.win 1).blk t).view.read (Elt Ideal) M) (((cfg5.win 2).blk t).view.read (Elt Ideal) Gr) p q).trans ?_
  show pairRow _ _ _ p q = pairRow (mat X) (mat M) (mat Gr) ⟨_, h⟩ q
  refine pairRow_congr q (fun k => ?_) (fun j k => ?_) (fun k => ?_)
  · show X (((cfg5.win 0).blk t).view.emb (ix2 p k)) = X (ix2 ⟨_, h⟩ k); rw [emb5_0 t p k h]
  · show M (((cfg5.win 1).blk t).view.emb (ix2 j k)) = M (ix2 j k); rw [emb5_1 t j k]
  · show Gr (((cfg5.win 2).blk t).view.emb (ix2 p k)) = Gr (ix2 ⟨_, h⟩ k); rw [emb5_2 t p k h]

/-- What point `t` writes back is block `t` of the whole-array function of the arrays the region finds. -/
theorem flushed5 (V : (c : Dev nD) → (b : Ref sig .tc) → Buf (Elt Ideal) ((c : Thread nD τ).loc b)) (c : Dev nD) (t : Fin cfg5.N) :
    (dat5 (F := Ideal) V c).flushed 3 t
      = ((cfg5.win 3).blk t).view.read (Elt Ideal) (pairA (V c main_v107) (V c main_arg12) (V c main_v81)) := by
  show (cfg5.win 3).cut (grid5.coords t) ((dat5 V c).after 3 t) = _
  rw [after5_3]
  exact block5 (V c main_v107) (V c main_arg12) (V c main_v81) t

/-! ## The blocks tile the array -/

/-- An index of the array is in point `t`'s block iff each coordinate is in the block's range on its axis. -/
theorem mem_blk5 (t : Fin cfg5.N) (i : S30000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v109).slice (win5_3.rect t)).set ↔ _
  rw [View.set_slice_whole, Rect.mem_set_unit]
  exact Iff.rfl

/-- Row `r` is in the block of point `r / 5000`, and every point writes its block back. -/
theorem cover5 (i : S30000x64.Idx) :
    ∃ t : Fin cfg5.N, (cfg5.win 3).flush t = true ∧ i ∈ ((cfg5.win 3).blk t).view.set := by
  have hN : cfg5.N = 6 := N_5
  have hi0 : (i 0).val < 30000 := (i 0).isLt
  have hi1 : (i 1).val < 64 := (i 1).isLt
  obtain ⟨t, ht⟩ : ∃ t : Fin cfg5.N, t.val = (i 0).val / 5000 := ⟨⟨(i 0).val / 5000, by rw [hN]; omega⟩, rfl⟩
  obtain ⟨e0, e1⟩ := idx5_3 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; rw [e0, ht]; omega
  | ⟨1, _⟩ => show win5_3.index t (1 : Fin 2) * 64 ≤ (i 1).val ∧ (i 1).val < win5_3.index t (1 : Fin 2) * 64 + 64; rw [e1]; omega

/-! ## The output array after the region -/

theorem region5_value (V : (c : Dev nD) → (b : Ref sig .tc) → Buf (Elt Ideal) ((c : Thread nD τ).loc b)) (c : Dev nD) :
    (dat5 (F := Ideal) V c).arrAt 3 cfg5.N
      = pairA (V c main_v107) (V c main_arg12) (V c main_v81) :=
  (dat5 V c).arrAt_eq_of_cover 3 _ (fun t _ => flushed5 V c t) cover5

end Cert.Bridge

end
-- ==== Proof.KHost.lean ====
/-
  The idealized kernel program's result buffer, read back to the argument arrays.

  The buffer contents at each boundary of @main are a fold from the launch memory: a host stretch applies its
  operations, a region leaves each of its output arrays at what its grid points wrote back and every other buffer as
  it found it. Followed here, buffer by buffer: the stacked embeddings and their adjacency aggregate feed both
  branches' first layers; each first layer's output and its own aggregate feed the second, normalising, layer; the
  user rows of one and the item rows of the other are added to the pairwise branches; the two results are stacked.
-/
import proofs.«170398_j17961553231970_2_alg».proof.Proof.Gen.KernelIdeal.Frame
import proofs.«170398_j17961553231970_2_alg».proof.Proof.KDefs
import proofs.«170398_j17961553231970_2_alg».proof.Proof.KKeep
import proofs.«170398_j17961553231970_2_alg».proof.Proof.KSt0
import proofs.«170398_j17961553231970_2_alg».proof.Proof.KSt1
import proofs.«170398_j17961553231970_2_alg».proof.Proof.KSt2
import proofs.«170398_j17961553231970_2_alg».proof.Proof.KSt3
import proofs.«170398_j17961553231970_2_alg».proof.Proof.KSt4
import proofs.«170398_j17961553231970_2_alg».proof.Proof.Region0
import proofs.«170398_j17961553231970_2_alg».proof.Proof.Region1
import proofs.«170398_j17961553231970_2_alg».proof.Proof.Region2
import proofs.«170398_j17961553231970_2_alg».proof.Proof.Region3
import proofs.«170398_j17961553231970_2_alg».proof.Proof.Region4
import proofs.«170398_j17961553231970_2_alg».proof.Proof.Region5
import Idealize.ShloMosaic.Lib.StableHlo.Run

set_option maxRecDepth 16384

noncomputable section

namespace Cert.Bridge.K

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0: the user branch's first layer -/

theorem r0 : (W2 m ρ c (Proc.devRef .tc main_v23)) = U1 m c := by
  refine (W2_arr m ρ c 6).trans ((region0_value (V1 m ρ) c).trans ?_)
  show layerA (W1 m ρ c (Proc.devRef .tc main_v0)) (W1 m ρ c (Proc.devRef .tc main_v13)) (W1 m ρ c (Proc.devRef .tc main_v15)) (W1 m ρ c (Proc.devRef .tc main_v20)) (W1 m ρ c (Proc.devRef .tc main_v21)) (W1 m ρ c (Proc.devRef .tc main_v22)) = _
  rw [s0_v0, s0_v13, s0_v15, s0_v20, s0_v21, s0_v22]
  rfl
/-- Region 0 leaves the arrays it only reads as it found them. -/
theorem c2_v0 : (W2 m ρ c (Proc.devRef .tc main_v0)) = E0 m c :=
  (W2_arr m ρ c 0).trans (((dat0 (V1 m ρ) c).arrAt_in 0 rfl _).trans ((A_eq0 (V1 m ρ) c 0).trans (s0_v0 m ρ c)))
theorem c2_v13 : (W2 m ρ c (Proc.devRef .tc main_v13)) = G0 m c :=
  (W2_arr m ρ c 1).trans (((dat0 (V1 m ρ) c).arrAt_in 1 rfl _).trans ((A_eq0 (V1 m ρ) c 1).trans (s0_v13 m ρ c)))

/-! ## Region 1: the user branch's second layer -/

theorem s1_v36 : (W3 m ρ c (Proc.devRef .tc main_v36)) = spA (m ((c : Thread nD τ).loc main_arg2)) (m ((c : Thread nD τ).loc main_arg13)) (m ((c : Thread nD τ).loc main_arg14)) (U1 m c) := by
  rw [st1_v36, to2 m ρ c main_arg2 (by decide) (by decide), to2 m ρ c main_arg13 (by decide) (by decide), to2 m ρ c main_arg14 (by decide) (by decide), r0 m ρ c]
theorem s1_v38 : (W3 m ρ c (Proc.devRef .tc main_v38)) = q1 (m ((c : Thread nD τ).loc main_arg5)) := by
  rw [st1_v38, to2 m ρ c main_arg5 (by decide) (by decide)]
theorem s1_v43 : (W3 m ρ c (Proc.devRef .tc main_v43)) = wTop (w1 (m ((c : Thread nD τ).loc main_arg7))) := by
  rw [st1_v43, to2 m ρ c main_arg7 (by decide) (by decide)]
theorem s1_v44 : (W3 m ρ c (Proc.devRef .tc main_v44)) = wBot (w1 (m ((c : Thread nD τ).loc main_arg7))) := by
  rw [st1_v44, to2 m ρ c main_arg7 (by decide) (by decide)]
theorem s1_v45 : (W3 m ρ c (Proc.devRef .tc main_v45)) = bRow (b1 (m ((c : Thread nD τ).loc main_arg9))) := by
  rw [st1_v45, to2 m ρ c main_arg9 (by decide) (by decide)]
theorem s1_v23 : (W3 m ρ c (Proc.devRef .tc main_v23)) = U1 m c := (keep1 m ρ c main_v23 (by decide)).trans (r0 m ρ c)
theorem r1 : (W4 m ρ c (Proc.devRef .tc main_v46)) = U2 m c := by
  refine (W4_arr m ρ c 6).trans ((region1_value (V3 m ρ) c).trans ?_)
  show unitA (layerA (W3 m ρ c (Proc.devRef .tc main_v23)) (W3 m ρ c (Proc.devRef .tc main_v36)) (W3 m ρ c (Proc.devRef .tc main_v38)) (W3 m ρ c (Proc.devRef .tc main_v43)) (W3 m ρ c (Proc.devRef .tc main_v44)) (W3 m ρ c (Proc.devRef .tc main_v45))) = _
  rw [s1_v23, s1_v36, s1_v38, s1_v43, s1_v44, s1_v45]
  rfl
theorem c4_v0 : (W4 m ρ c (Proc.devRef .tc main_v0)) = E0 m c :=
  (W4_of_ne m ρ c main_v0 (by decide)).trans ((keep1 m ρ c main_v0 (by decide)).trans (c2_v0 m ρ c))
theorem c4_v13 : (W4 m ρ c (Proc.devRef .tc main_v13)) = G0 m c :=
  (W4_of_ne m ρ c main_v13 (by decide)).trans ((keep1 m ρ c main_v13 (by decide)).trans (c2_v13 m ρ c))

/-! ## Region 2: the item branch's first layer -/

theorem s2_v48 : (W5 m ρ c (Proc.devRef .tc main_v48)) = q0 (m ((c : Thread nD τ).loc main_arg6)) := by
  rw [st2_v48, to4 m ρ c main_arg6 (by decide) (by decide) (by decide) (by decide)]
theorem s2_v53 : (W5 m ρ c (Proc.devRef .tc main_v53)) = wTop (w0 (m ((c : Thread nD τ).loc main_arg8))) := by
  rw [st2_v53, to4 m ρ c main_arg8 (by decide) (by decide) (by decide) (by decide)]
theorem s2_v54 : (W5 m ρ c (Proc.devRef .tc main_v54)) = wBot (w0 (m ((c : Thread nD τ).loc main_arg8))) := by
  rw [st2_v54, to4 m ρ c main_arg8 (by decide) (by decide) (by decide) (by decide)]
theorem s2_v55 : (W5 m ρ c (Proc.devRef .tc main_v55)) = bRow (b0 (m ((c : Thread nD τ).loc main_arg10))) := by
  rw [st2_v55, to4 m ρ c main_arg10 (by decide) (by decide) (by decide) (by decide)]
theorem s2_v0 : (W5 m ρ c (Proc.devRef .tc main_v0)) = E0 m c := (keep2 m ρ c main_v0 (by decide)).trans (c4_v0 m ρ c)
theorem s2_v13 : (W5 m ρ c (Proc.devRef .tc main_v13)) = G0 m c := (keep2 m ρ c main_v13 (by decide)).trans (c4_v13 m ρ c)
theorem r2 : (W6 m ρ c (Proc.devRef .tc main_v56)) = I1 m c := by
  refine (W6_arr m ρ c 6).trans ((region2_value (V5 m ρ) c).trans ?_)
  show layerA (W5 m ρ c (Proc.devRef .tc main_v0)) (W5 m ρ c (Proc.devRef .tc main_v13)) (W5 m ρ c (Proc.devRef .tc main_v48)) (W5 m ρ c (Proc.devRef .tc main_v53)) (W5 m ρ c (Proc.devRef .tc main_v54)) (W5 m ρ c (Proc.devRef .tc main_v55)) = _
  rw [s2_v0, s2_v13, s2_v48, s2_v53, s2_v54, s2_v55]
  rfl
theorem c6_v46 : (W6 m ρ c (Proc.devRef .tc main_v46)) = U2 m c :=
  (W6_of_ne m ρ c main_v46 (by decide)).trans ((keep2 m ρ c main_v46 (by decide)).trans (r1 m ρ c))

/-! ## Region 3: the item branch's second layer -/

theorem s3_v69 : (W7 m ρ c (Proc.devRef .tc main_v69)) = spA (m ((c : Thread nD τ).loc main_arg2)) (m ((c : Thread nD τ).loc main_arg13)) (m ((c : Thread nD τ).loc main_arg14)) (I1 m c) := by
  rw [st3_v69, to6 m ρ c main_arg2 (by decide) (by decide) (by decide) (by decide) (by decide) (by decide), to6 m ρ c main_arg13 (by decide) (by decide) (by decide) (by decide) (by decide) (by decide), to6 m ρ c main_arg14 (by decide) (by decide) (by decide) (by decide) (by decide) (by decide), r2 m ρ c]
theorem s3_v71 : (W7 m ρ c (Proc.devRef .tc main_v71)) = q1 (m ((c : Thread nD τ).loc main_arg6)) := by
  rw [st3_v71, to6 m ρ c main_arg6 (by decide) (by decide) (by decide) (by decide) (by decide) (by decide)]
theorem s3_v76 : (W7 m ρ c (Proc.devRef .tc main_v76)) = wTop (w1 (m ((c : Thread nD τ).loc main_arg8))) := by
  rw [st3_v76, to6 m ρ c main_arg8 (by decide) (by decide) (by decide) (by decide) (by decide) (by decide)]
theorem s3_v77 : (W7 m ρ c (Proc.devRef .tc main_v77)) = wBot (w1 (m ((c : Thread nD τ).loc main_arg8))) := by
  rw [st3_v77, to6 m ρ c main_arg8 (by decide) (by decide) (by decide) (by decide) (by decide) (by decide)]
theorem s3_v78 : (W7 m ρ c (Proc.devRef .tc main_v78)) = bRow (b1 (m ((c : Thread nD τ).loc main_arg10))) := by
  rw [st3_v78, to6 m ρ c main_arg10 (by decide) (by decide) (by decide) (by decide) (by decide) (by decide)]
theorem s3_v56 : (W7 m ρ c (Proc.devRef .tc main_v56)) = I1 m c := (keep3 m ρ c main_v56 (by decide)).trans (r2 m ρ c)
theorem r3 : (W8 m ρ c (Proc.devRef .tc main_v79)) = I2 m c := by
  refine (W8_arr m ρ c 6).trans ((region3_value (V7 m ρ) c).trans ?_)
  show unitA (layerA (W7 m ρ c (Proc.devRef .tc main_v56)) (W7 m ρ c (Proc.devRef .tc main_v69)) (W7 m ρ c (Proc.devRef .tc main_v71)) (W7 m ρ c (Proc.devRef .tc main_v76)) (W7 m ρ c (Proc.devRef .tc main_v77)) (W7 m ρ c (Proc.devRef .tc main_v78))) = _
  rw [s3_v56, s3_v69, s3_v71, s3_v76, s3_v77, s3_v78]
  rfl
theorem c8_v46 : (W8 m ρ c (Proc.devRef .tc main_v46)) = U2 m c :=
  (W8_of_ne m ρ c main_v46 (by decide)).trans ((keep3 m ρ c main_v46 (by decide)).trans (c6_v46 m ρ c))

/-! ## Regions 4 and 5: the pairwise branches added to the graph branches -/

theorem s4_v80 : (W9 m ρ c (Proc.devRef .tc main_v80)) = top (U2 m c) := by
  rw [st4_v80, c8_v46 m ρ c]
theorem s4_v81 : (W9 m ρ c (Proc.devRef .tc main_v81)) = bot (I2 m c) := by
  rw [st4_v81, r3 m ρ c]
theorem s4_v94 : (W9 m ρ c (Proc.devRef .tc main_v94)) = spS (m ((c : Thread nD τ).loc main_arg3)) (m ((c : Thread nD τ).loc main_arg15)) (m ((c : Thread nD τ).loc main_arg16)) (m ((c : Thread nD τ).loc main_arg0)) := by
  rw [st4_v94, to8 m ρ c main_arg3 (by decide) (by decide) (by decide) (by decide) (by decide) (by decide) (by decide) (by decide), to8 m ρ c main_arg15 (by decide) (by decide) (by decide) (by decide) (by decide) (by decide) (by decide) (by decide), to8 m ρ c main_arg16 (by decide) (by decide) (by decide) (by decide) (by decide) (by decide) (by decide) (by decide), to8 m ρ c main_arg0 (by decide) (by decide) (by decide) (by decide) (by decide) (by decide) (by decide) (by decide)]
theorem s4_v107 : (W9 m ρ c (Proc.devRef .tc main_v107)) = spH (m ((c : Thread nD τ).loc main_arg4)) (m ((c : Thread nD τ).loc main_arg17)) (m ((c : Thread nD τ).loc main_arg18)) (m ((c : Thread nD τ).loc main_arg1)) := by
  rw [st4_v107, to8 m ρ c main_arg4 (by decide) (by decide) (by decide) (by decide) (by decide) (by decide) (by decide) (by decide), to8 m ρ c main_arg17 (by decide) (by decide) (by decide) (by decide) (by decide) (by decide) (by decide) (by decide), to8 m ρ c main_arg18 (by decide) (by decide) (by decide) (by decide) (by decide) (by decide) (by decide) (by decide), to8 m ρ c main_arg1 (by decide) (by decide) (by decide) (by decide) (by decide) (by decide) (by decide) (by decide)]
theorem s4_arg11 : (W9 m ρ c (Proc.devRef .tc main_arg11)) = (m ((c : Thread nD τ).loc main_arg11)) := (keep4 m ρ c main_arg11 (by decide)).trans (to8 m ρ c main_arg11 (by decide) (by decide) (by decide) (by decide) (by decide) (by decide) (by decide) (by decide))
theorem s4_arg12 : (W9 m ρ c (Proc.devRef .tc main_arg12)) = (m ((c : Thread nD τ).loc main_arg12)) := (keep4 m ρ c main_arg12 (by decide)).trans (to8 m ρ c main_arg12 (by decide) (by decide) (by decide) (by decide) (by decide) (by decide) (by decide) (by decide))
theorem r4 : (W10 m ρ c (Proc.devRef .tc main_v108)) = pairA (spS (m ((c : Thread nD τ).loc main_arg3)) (m ((c : Thread nD τ).loc main_arg15)) (m ((c : Thread nD τ).loc main_arg16)) (m ((c : Thread nD τ).loc main_arg0))) (m ((c : Thread nD τ).loc main_arg11)) (top (U2 m c)) := by
  refine (W10_arr m ρ c 3).trans ((region4_value (V9 m ρ) c).trans ?_)
  show pairA (W9 m ρ c (Proc.devRef .tc main_v94)) (W9 m ρ c (Proc.devRef .tc main_arg11)) (W9 m ρ c (Proc.devRef .tc main_v80)) = _
  rw [s4_v94, s4_arg11, s4_v80]
theorem c10_v107 : (W10 m ρ c (Proc.devRef .tc main_v107)) = spH (m ((c : Thread nD τ).loc main_arg4)) (m ((c : Thread nD τ).loc main_arg17)) (m ((c : Thread nD τ).loc main_arg18)) (m ((c : Thread nD τ).loc main_arg1)) :=
  (W10_of_ne m ρ c main_v107 (by decide)).trans (s4_v107 m ρ c)
theorem c10_v81 : (W10 m ρ c (Proc.devRef .tc main_v81)) = bot (I2 m c) := (W10_of_ne m ρ c main_v81 (by decide)).trans (s4_v81 m ρ c)
theorem c10_arg12 : (W10 m ρ c (Proc.devRef .tc main_arg12)) = (m ((c : Thread nD τ).loc main_arg12)) := (W10_of_ne m ρ c main_arg12 (by decide)).trans (s4_arg12 m ρ c)
theorem r5 : (W11 m ρ c (Proc.devRef .tc main_v109)) = pairA (spH (m ((c : Thread nD τ).loc main_arg4)) (m ((c : Thread nD τ).loc main_arg17)) (m ((c : Thread nD τ).loc main_arg18)) (m ((c : Thread nD τ).loc main_arg1))) (m ((c : Thread nD τ).loc main_arg12)) (bot (I2 m c)) := by
  refine (W11_arr m ρ c 3).trans ((region5_value (V10 m ρ) c).trans ?_)
  show pairA (W10 m ρ c (Proc.devRef .tc main_v107)) (W10 m ρ c (Proc.devRef .tc main_arg12)) (W10 m ρ c (Proc.devRef .tc main_v81)) = _
  rw [c10_v107, c10_arg12, c10_v81]
theorem c11_v108 : (W11 m ρ c (Proc.devRef .tc main_v108)) = pairA (spS (m ((c : Thread nD τ).loc main_arg3)) (m ((c : Thread nD τ).loc main_arg15)) (m ((c : Thread nD τ).loc main_arg16)) (m ((c : Thread nD τ).loc main_arg0))) (m ((c : Thread nD τ).loc main_arg11)) (top (U2 m c)) :=
  (W11_of_ne m ρ c main_v108 (by decide)).trans (r4 m ρ c)

/-! ## The result -/

/-- The result buffer after the last host stretch is the composition of the program's components at the launch
    contents of the argument arrays. -/
theorem result_eq : W12 m ρ c (Proc.devRef .tc main_v110) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  dsimp only [W12, hostOps6]
  after_results_simp
  rw [c11_v108, r5]
  rfl

end Cert.Bridge.K

end
-- ==== Proof.RefTerm.lean ====
/-
  The reference program's result as the composition of its components.

  Its run ends with the result buffer at one closed term of the argument arrays. Named here are the pieces that term is
  made of — stacking the user and item rows, the three sparse aggregations (a gather of rows, a scaling by the edge
  values and a scatter-add into zeros), a layer `tanh ([ego, tanh (agg · Q)] · W + b)`, the scaling of each row to
  unit length, and the pairwise branch added to a slice of the graph branch — and the term is shown to be exactly
  their composition. Nothing is computed: the two sides are the same term once the names are unfolded.
-/
import proofs.«170398_j17961553231970_2_alg».proof.Proof.Gen.ReferenceIdeal.Run
import proofs.«170398_j17961553231970_2_alg».proof.Proof.Skel

set_option maxRecDepth 16384

noncomputable section

namespace Cert.Bridge.R

open Cert.ReferenceIdeal Cert.ReferenceIdeal.Gen Cert.ReferenceIdeal.Value
open Idealize.ShloMosaic Idealize.ShloMosaic.TcCoe Idealize.SL.Sem Idealize.ShloMosaic.StableHlo

/-- The user rows stacked on the item rows. -/
def cat (a : A100) (b : A30) : A130 :=
  concatenate S130000x64 0 [⟨S100000x64, a⟩, ⟨S30000x64, b⟩] concatenates_S100000x64_S30000x64_S130000x64_d0

/-- The adjacency aggregation of a 130000-row array: row `rows e` collects `vals e` times row `cols e`. -/
def spA (vals : FVec Ideal S4000000 .f32) (rows cols : IVec S4000000 32) (x : A130) : A130 :=
  Host.scatterAdd (F := Ideal) scatter_S130000x64_S4000000x1_S4000000x64_1_0_0_1 (broadcastInDim S130000x64 ![] bcast_S_S130000x64 (constant S_ .f32 0x00000000#32)) (broadcastInDim S4000000x1 ![0] bcast_S4000000_S4000000x1_0 rows) (mulf (broadcastInDim S4000000x64 ![0, 1] bcast_S4000000x1_S4000000x64_0_1 (broadcastInDim S4000000x1 ![0] bcast_S4000000_S4000000x1_0 vals)) (Host.gather gather_S130000x64_S4000000x1_S4000000x64_1_0_n_n_0_1_164 x (broadcastInDim S4000000x1 ![0] bcast_S4000000_S4000000x1_0 (select (cmpi .slt cols (broadcastInDim S4000000 ![] bcast_S_S4000000 (constantI S_ 32 0#32))) (addi cols (broadcastInDim S4000000 ![] bcast_S_S4000000 (constantI S_ 32 130000#32))) cols))))

/-- The symptom aggregation of the user rows. -/
def spS (vals : FVec Ideal S1600000 .f32) (rows cols : IVec S1600000 32) (x : A100) : A100 :=
  Host.scatterAdd (F := Ideal) scatter_S100000x64_S1600000x1_S1600000x64_1_0_0_1 (broadcastInDim S100000x64 ![] bcast_S_S100000x64 (constant S_ .f32 0x00000000#32)) (broadcastInDim S1600000x1 ![0] bcast_S1600000_S1600000x1_0 rows) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 x (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))

/-- The herb aggregation of the item rows. -/
def spH (vals : FVec Ideal S480000 .f32) (rows cols : IVec S480000 32) (x : A30) : A30 :=
  Host.scatterAdd (F := Ideal) scatter_S30000x64_S480000x1_S480000x64_1_0_0_1 (broadcastInDim S30000x64 ![] bcast_S_S30000x64 (constant S_ .f32 0x00000000#32)) (broadcastInDim S480000x1 ![0] bcast_S480000_S480000x1_0 rows) (mulf (broadcastInDim S480000x64 ![0, 1] bcast_S480000x1_S480000x64_0_1 (broadcastInDim S480000x1 ![0] bcast_S480000_S480000x1_0 vals)) (Host.gather gather_S30000x64_S480000x1_S480000x64_1_0_n_n_0_1_164 x (broadcastInDim S480000x1 ![0] bcast_S480000_S480000x1_0 (select (cmpi .slt cols (broadcastInDim S480000 ![] bcast_S_S480000 (constantI S_ 32 0#32))) (addi cols (broadcastInDim S480000 ![] bcast_S_S480000 (constantI S_ 32 30000#32))) cols))))

/-- Layer `l`'s 64 × 64 matrix `Q`, its 128 × 64 matrix `W` and its bias vector, cut out of the stacked parameters. -/
def q0 (Q : FVec Ideal S2x64x64 .f32) : FVec Ideal S64x64 .f32 :=
  shapeCast _ (extractStridedSlice S1x64x64 ![0, 0, 0] Q slices_S2x64x64_S1x64x64_0_0_0) shapeCasts_S1x64x64_S64x64
def q1 (Q : FVec Ideal S2x64x64 .f32) : FVec Ideal S64x64 .f32 :=
  shapeCast _ (extractStridedSlice S1x64x64 ![1, 0, 0] Q slices_S2x64x64_S1x64x64_1_0_0) shapeCasts_S1x64x64_S64x64
def w0 (W : FVec Ideal S2x128x64 .f32) : FVec Ideal S128x64 .f32 :=
  shapeCast _ (extractStridedSlice S1x128x64 ![0, 0, 0] W slices_S2x128x64_S1x128x64_0_0_0) shapeCasts_S1x128x64_S128x64
def w1 (W : FVec Ideal S2x128x64 .f32) : FVec Ideal S128x64 .f32 :=
  shapeCast _ (extractStridedSlice S1x128x64 ![1, 0, 0] W slices_S2x128x64_S1x128x64_1_0_0) shapeCasts_S1x128x64_S128x64
def b0 (b : FVec Ideal S2x64 .f32) : FVec Ideal S64 .f32 :=
  shapeCast _ (extractStridedSlice S1x64 ![0, 0] b slices_S2x64_S1x64_0_0) shapeCasts_S1x64_S64
def b1 (b : FVec Ideal S2x64 .f32) : FVec Ideal S64 .f32 :=
  shapeCast _ (extractStridedSlice S1x64 ![1, 0] b slices_S2x64_S1x64_1_0) shapeCasts_S1x64_S64

/-- One layer on whole arrays: `tanh ([ego, tanh (agg · Q)] · W + b)`. -/
def refLayer (Q : FVec Ideal S64x64 .f32) (W : FVec Ideal S128x64 .f32) (bvec : FVec Ideal S64 .f32) (ego agg : A130) : A130 :=
  Host.tanh (F := Ideal) (addf (Host.dotGeneral dot_S130000x128_S128x64_S130000x64_1_0_0_1_n_n none (concatenate S130000x128 1 [⟨S130000x64, ego⟩, ⟨S130000x64, (Host.tanh (Host.dotGeneral dot_S130000x64_S64x64_S130000x64_1_0_0_1_n_n none agg Q))⟩] concatenates_S130000x64_S130000x64_S130000x128_d1) W) (broadcastInDim S130000x64 ![0, 1] bcast_S1x64_S130000x64_0_1 (broadcastInDim S1x64 ![1] bcast_S64_S1x64_1 bvec)))

/-- Every row divided by its length, the length guarded from below. -/
def refUnit (X : A130) : A130 :=
  Host.divf (F := Ideal) X (broadcastInDim S130000x64 ![0, 1] bcast_S130000x1_S130000x64_0_1 (maximumf (Host.sqrt (broadcastInDim S130000x1 ![0] bcast_S130000_S130000x1_0 (Host.reduceAdd (mulf X X) (constant S_ .f32 0x00000000#32) reducesTo_S130000x64_S130000_d1 h_S_))) (broadcastInDim S130000x1 ![] bcast_S_S130000x1 (constant S_ .f32 0x2B8CBCCC#32))))

/-- The user rows and the item rows of a stacked array. -/
def top (X : A130) : A100 := extractStridedSlice S100000x64 ![0, 0] X slices_S130000x64_S100000x64_0_0
def bot (X : A130) : A30 := extractStridedSlice S30000x64 ![100000, 0] X slices_S130000x64_S30000x64_100000_0

/-- The pairwise branch added to the graph branch, on the user rows and on the item rows. -/
def pair100 (M : FVec Ideal S64x64 .f32) (x g : A100) : A100 :=
  addf (F := Ideal) g (Host.tanh (Host.dotGeneral dot_S100000x64_S64x64_S100000x64_1_0_0_1_n_n none x M))
def pair30 (M : FVec Ideal S64x64 .f32) (x g : A30) : A30 :=
  addf (F := Ideal) g (Host.tanh (Host.dotGeneral dot_S30000x64_S64x64_S30000x64_1_0_0_1_n_n none x M))

/-- The reference's result as a function of its nineteen argument arrays: the user and item embeddings, the three
    lists of edge values, the stacked `Q`, `W` and bias parameters of the two branches, the two pairwise matrices,
    and the row and column lists of the three sparse matrices. -/
def resultOf (a0 : A100) (a1 : A30) (a2 : FVec Ideal S4000000 .f32) (a3 : FVec Ideal S1600000 .f32) (a4 : FVec Ideal S480000 .f32)
    (a5 a6 : FVec Ideal S2x64x64 .f32) (a7 a8 : FVec Ideal S2x128x64 .f32) (a9 a10 : FVec Ideal S2x64 .f32)
    (a11 a12 : FVec Ideal S64x64 .f32) (a13 a14 : IVec S4000000 32) (a15 a16 : IVec S1600000 32) (a17 a18 : IVec S480000 32) : A130 :=
  skeleton cat (spA a2 a13 a14)
    (refLayer (q0 a5) (w0 a7) (b0 a9)) (fun e a => refUnit (refLayer (q1 a5) (w1 a7) (b1 a9) e a))
    (refLayer (q0 a6) (w0 a8) (b0 a10)) (fun e a => refUnit (refLayer (q1 a6) (w1 a8) (b1 a10) e a))
    top bot (fun x g => pair100 a11 x g) (fun x g => pair30 a12 x g)
    (spS a3 a15 a16 a0) (spH a4 a17 a18 a1) a0 a1

/-- The run's term for the result buffer is that composition of the argument buffers' contents. -/
theorem result_eq (V0 : Valuation τ sig (Elt Ideal)) :
    val4 V0 (Proc.devRef .tc main_v159) = resultOf (V0 (Proc.devRef .tc main_arg0)) (V0 (Proc.devRef .tc main_arg1))
      (V0 (Proc.devRef .tc main_arg2)) (V0 (Proc.devRef .tc main_arg3)) (V0 (Proc.devRef .tc main_arg4))
      (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10))
      (V0 (Proc.devRef .tc main_arg11)) (V0 (Proc.devRef .tc main_arg12)) (V0 (Proc.devRef .tc main_arg13))
      (V0 (Proc.devRef .tc main_arg14)) (V0 (Proc.devRef .tc main_arg15)) (V0 (Proc.devRef .tc main_arg16))
      (V0 (Proc.devRef .tc main_arg17)) (V0 (Proc.devRef .tc main_arg18)) :=
  (val4_main_v159 (F := Ideal) V0).trans (by
    unfold resultOf skeleton branch cat spA spS spH q0 q1 w0 w1 b0 b1 refLayer refUnit top bot pair100 pair30
    unfold res_main_v54 res_main_v116 res_main_v27 res_main_v89 res_main_v0
    rfl)

end Cert.Bridge.R

end
-- ==== Proof.RefAlg.lean ====
/-
  The reference program's dense steps, on whole arrays, are the specification's functions.

  Each step is read at an entry (p, q), one operation at a time:
    · a matrix product is the sum over the contracted coordinate;
    · the product of the row (ego | hid) of 128 entries with the 128 × 64 matrix W splits, at column 64, into
      the product of ego with the rows 0‥63 of W plus the product of hid with the rows 64‥127 of W;
    · a bias row broadcast down the rows reads the row's entry at q;
    · a row's sum of squares, kept as a column and broadcast back along the row, reads the sum at p;
    · a scalar broadcast reads the scalar.
  Sums are finite sums in the extended reals; only commutativity of + is used.
-/
import proofs.«170398_j17961553231970_2_alg».proof.ReferenceIdeal
import proofs.«170398_j17961553231970_2_alg».proof.Proof.Spec
import proofs.«170398_j17961553231970_2_alg».proof.Proof.LibMatmulAt
import Idealize.ShloMosaic.Lib.IdealHost
import Idealize.ShloMosaic.Lib.ValueLayout

noncomputable section

namespace Cert.Bridge

open Idealize.ShloMosaic Idealize.ShloMosaic.ValueIdx
open Cert.ReferenceIdeal Cert.ReferenceIdeal.Facts₀
open scoped BigOperators

/-! ## Single operations at an entry -/

/-- The host's tanh at an entry. -/
theorem hostTanh_apply {s : Shape} {φ : FTy} (x : FVec Ideal s φ) (i : s.Idx) : Host.tanh x i = Ideal.tanh (x i) := rfl

/-- The host's square root at an entry. -/
theorem hostSqrt_apply {s : Shape} {φ : FTy} (x : FVec Ideal s φ) (i : s.Idx) : Host.sqrt x i = Ideal.sqrt (x i) := rfl

/-- A sum over 128 coordinates is the sum over the first 64 plus the sum over the last 64. -/
theorem sum_fin128 (f : Fin 128 → EReal) :
    ∑ k : Fin 128, f k = ∑ k : Fin 64, f ⟨k.val, by omega⟩ + ∑ k : Fin 64, f ⟨64 + k.val, by omega⟩ :=
  Fin.sum_univ_add (M := EReal) (a := 64) (b := 64) f

/-- A vector of 64 entries laid as the one row of a 1 × 64 array, by a broadcast or by a reshape: the same array. -/
theorem bias_row_eq (bvec : FVec Ideal S64 .f32) (hb : S64.BroadcastsInDim S1x64 (![1] : Fin 1 → Fin S1x64.rank))
    (hc : S64.ShapeCasts S1x64) :
    broadcastInDim (⟨2, ![1, 64]⟩ : Shape) ![1] hb bvec = shapeCast (⟨2, ![1, 64]⟩ : Shape) bvec hc := by
  funext i
  obtain ⟨u, q, rfl⟩ : ∃ (u : Fin 1) (q : Fin 64), i = ix2 u q := ⟨i 0, i 1, eq_ix2 i⟩
  rw [shapeCast_a_1a_apply]
  exact broadcastInDim_apply _ hb bvec (ix2 u q) (ix1 q) (fun a => match a with | ⟨0, _⟩ => rfl)

section
variable [Cert.ReferenceIdeal.Facts₀]

local macro "dot_fact" : tactic =>
  `(tactic| (intro i q; simp [DotDims.lhsIdx, DotDims.rhsIdx, dot_S130000x128_S128x64_S130000x64_1_0_0_1_n_n,
    dot_S130000x64_S64x64_S130000x64_1_0_0_1_n_n, dot_S100000x64_S64x64_S100000x64_1_0_0_1_n_n,
    dot_S30000x64_S64x64_S30000x64_1_0_0_1_n_n] <;> rfl))

/-- The product of a 130000 × 128 array with a 128 × 64 matrix, at an entry. -/
theorem dot128_apply (l : FVec Ideal S130000x128 .f32) (r : FVec Ideal S128x64 .f32) (p : Fin 130000) (q : Fin 64) :
    Host.dotGeneral dot_S130000x128_S128x64_S130000x64_1_0_0_1_n_n none l r (ix2 p q)
      = ∑ k : Fin 128, l (ix2 p k) * r (ix2 k q) :=
  Cert.Lib.dotGeneral_plain_apply dot_S130000x128_S128x64_S130000x64_1_0_0_1_n_n rfl rfl
    (by dot_fact) (by dot_fact) (by dot_fact) (by dot_fact) none .single l r p q

/-- The product of a 130000 × 64 array with a 64 × 64 matrix, at an entry. -/
theorem dot64_apply (l : FVec Ideal S130000x64 .f32) (r : FVec Ideal S64x64 .f32) (p : Fin 130000) (q : Fin 64) :
    Host.dotGeneral dot_S130000x64_S64x64_S130000x64_1_0_0_1_n_n none l r (ix2 p q)
      = ∑ k : Fin 64, l (ix2 p k) * r (ix2 k q) :=
  Cert.Lib.dotGeneral_plain_apply dot_S130000x64_S64x64_S130000x64_1_0_0_1_n_n rfl rfl
    (by dot_fact) (by dot_fact) (by dot_fact) (by dot_fact) none .single l r p q

/-- The product of a 100000 × 64 array with a 64 × 64 matrix, at an entry. -/
theorem dot100000_apply (l : FVec Ideal S100000x64 .f32) (r : FVec Ideal S64x64 .f32) (p : Fin 100000) (q : Fin 64) :
    Host.dotGeneral dot_S100000x64_S64x64_S100000x64_1_0_0_1_n_n none l r (ix2 p q)
      = ∑ k : Fin 64, l (ix2 p k) * r (ix2 k q) :=
  Cert.Lib.dotGeneral_plain_apply dot_S100000x64_S64x64_S100000x64_1_0_0_1_n_n rfl rfl
    (by dot_fact) (by dot_fact) (by dot_fact) (by dot_fact) none .single l r p q

/-- The product of a 30000 × 64 array with a 64 × 64 matrix, at an entry. -/
theorem dot30000_apply (l : FVec Ideal S30000x64 .f32) (r : FVec Ideal S64x64 .f32) (p : Fin 30000) (q : Fin 64) :
    Host.dotGeneral dot_S30000x64_S64x64_S30000x64_1_0_0_1_n_n none l r (ix2 p q)
      = ∑ k : Fin 64, l (ix2 p k) * r (ix2 k q) :=
  Cert.Lib.dotGeneral_plain_apply dot_S30000x64_S64x64_S30000x64_1_0_0_1_n_n rfl rfl
    (by dot_fact) (by dot_fact) (by dot_fact) (by dot_fact) none .single l r p q

/-- Two 130000 × 64 arrays laid side by side: a column below 64 reads the first. -/
theorem cat_left (x₁ x₂ : FVec Ideal S130000x64 .f32) (p : Fin 130000) (k : Fin 64) :
    concatenate S130000x128 1 [⟨S130000x64, x₁⟩, ⟨S130000x64, x₂⟩] concatenates_S130000x64_S130000x64_S130000x128_d1
        (ix2 p (⟨k.val, by omega⟩ : Fin 128)) = x₁ (ix2 p k) :=
  concatenate_pair_apply_left (1 : Fin 2) x₁ x₂ _ (ix2 p (⟨k.val, by omega⟩ : Fin 128)) rfl (ix2 p k)
    (fun b => match b with | ⟨0, _⟩ => rfl | ⟨1, _⟩ => rfl)

/-- Two 130000 × 64 arrays laid side by side: column 64 + k reads the second at column k. -/
theorem cat_right (x₁ x₂ : FVec Ideal S130000x64 .f32) (p : Fin 130000) (k : Fin 64) :
    concatenate S130000x128 1 [⟨S130000x64, x₁⟩, ⟨S130000x64, x₂⟩] concatenates_S130000x64_S130000x64_S130000x128_d1
        (ix2 p (⟨64 + k.val, by omega⟩ : Fin 128)) = x₂ (ix2 p k) :=
  concatenate_pair_apply_right (1 : Fin 2) x₁ x₂ _ (ix2 p (⟨64 + k.val, by omega⟩ : Fin 128)) rfl rfl (ix2 p k)
    (fun b => match b with | ⟨0, _⟩ => fun _ => rfl | ⟨1, _⟩ => fun h => absurd rfl h)
    (Nat.add_comm k.val 64)

/-- The bias row broadcast down the 130000 rows, at an entry. -/
theorem bcastRow_apply (B : FVec Ideal S1x64 .f32) (p : Fin 130000) (q : Fin 64) :
    broadcastInDim S130000x64 ![0, 1] bcast_S1x64_S130000x64_0_1 B (ix2 p q) = B (ix2 (0 : Fin 1) q) :=
  broadcastInDim_apply _ _ B (ix2 p q) (ix2 (0 : Fin 1) q) (fun a => match a with | ⟨0, _⟩ => rfl | ⟨1, _⟩ => rfl)

/-! ## One layer -/

/-- The reference's layer at an entry. -/
theorem refLayer_apply (ego agg : FVec Ideal S130000x64 .f32) (Q : FVec Ideal S64x64 .f32) (W : FVec Ideal S128x64 .f32)
    (B : FVec Ideal S1x64 .f32) (h0 : S128x64.Slices ![0, 0] S64x64) (h64 : S128x64.Slices ![64, 0] S64x64)
    (p : Fin 130000) (q : Fin 64) :
    Host.tanh (addf (Host.dotGeneral dot_S130000x128_S128x64_S130000x64_1_0_0_1_n_n none
        (concatenate S130000x128 1 [⟨S130000x64, ego⟩, ⟨S130000x64, Host.tanh (Host.dotGeneral dot_S130000x64_S64x64_S130000x64_1_0_0_1_n_n none agg Q)⟩]
          concatenates_S130000x64_S130000x64_S130000x128_d1) W)
      (broadcastInDim S130000x64 ![0, 1] bcast_S1x64_S130000x64_0_1 B)) (ix2 p q)
    = Ideal.tanh ((∑ k : Fin 64, ego (ix2 p k) * extractStridedSlice S64x64 ![0, 0] W h0 (ix2 k q)
        + ∑ k : Fin 64, Ideal.tanh (∑ j : Fin 64, agg (ix2 p j) * Q (ix2 j k)) * extractStridedSlice S64x64 ![64, 0] W h64 (ix2 k q))
        + B (ix2 (0 : Fin 1) q)) := by
  rw [hostTanh_apply, addf_apply, dot128_apply, bcastRow_apply]
  refine congrArg Ideal.tanh (congrArg (· + B (ix2 (0 : Fin 1) q)) ?_)
  refine (sum_fin128 _).trans ?_
  refine congrArg₂ (· + ·) (Finset.sum_congr rfl fun k _ => ?_) (Finset.sum_congr rfl fun k _ => ?_)
  · exact congrArg₂ (· * ·) (cat_left _ _ p k)
      (slice2_axis0_apply 0 W h0 k q (⟨k.val, by omega⟩ : Fin 128) (Nat.zero_add _).symm).symm
  · refine congrArg₂ (· * ·) ((cat_right _ _ p k).trans ?_)
      (slice2_axis0_apply 64 W h64 k q (⟨64 + k.val, by omega⟩ : Fin 128) rfl).symm
    rw [hostTanh_apply, dot64_apply]

/-- The reference's layer on whole arrays is the specification's layer, the 128 × 64 matrix cut into its rows 0‥63 and
    its rows 64‥127. -/
theorem refLayer_eq (ego agg : FVec Ideal S130000x64 .f32) (Q : FVec Ideal S64x64 .f32) (W : FVec Ideal S128x64 .f32)
    (B : FVec Ideal S1x64 .f32) (h0 : S128x64.Slices ![0, 0] S64x64) (h64 : S128x64.Slices ![64, 0] S64x64) :
    Host.tanh (addf (Host.dotGeneral dot_S130000x128_S128x64_S130000x64_1_0_0_1_n_n none
        (concatenate S130000x128 1 [⟨S130000x64, ego⟩, ⟨S130000x64, Host.tanh (Host.dotGeneral dot_S130000x64_S64x64_S130000x64_1_0_0_1_n_n none agg Q)⟩]
          concatenates_S130000x64_S130000x64_S130000x128_d1) W)
      (broadcastInDim S130000x64 ![0, 1] bcast_S1x64_S130000x64_0_1 B))
    = layerA ego agg Q (extractStridedSlice S64x64 ![0, 0] W h0) (extractStridedSlice S64x64 ![64, 0] W h64) B := by
  funext i
  obtain ⟨p, q, rfl⟩ : ∃ (p : Fin 130000) (q : Fin 64), i = ix2 p q := ⟨i 0, i 1, eq_ix2 i⟩
  exact refLayer_apply ego agg Q W B h0 h64 p q

/-! ## The scaling to unit length -/

/-- The reference's scaling of every row to unit length is the specification's. -/
theorem refUnit_eq (X : FVec Ideal S130000x64 .f32) :
    Host.divf (F := Ideal) X (broadcastInDim S130000x64 ![0, 1] bcast_S130000x1_S130000x64_0_1
      (maximumf (Host.sqrt (broadcastInDim S130000x1 ![0] bcast_S130000_S130000x1_0
          (Host.reduceAdd (F := Ideal) (mulf X X) (constant (F := Ideal) S_ .f32 0x00000000#32) reducesTo_S130000x64_S130000_d1 h_S_)))
        (broadcastInDim S130000x1 ![] bcast_S_S130000x1 (constant (F := Ideal) S_ .f32 0x2B8CBCCC#32))))
    = unitA X := by
  funext i
  obtain ⟨p, q, rfl⟩ : ∃ (p : Fin 130000) (q : Fin 64), i = ix2 p q := ⟨i 0, i 1, eq_ix2 i⟩
  show _ = Ideal.div (X (ix2 p q)) (max (Ideal.sqrt (∑ k : Fin 64, X (ix2 p k) * X (ix2 p k))) eps)
  rw [hostDivf_apply]
  refine congrArg (Ideal.div (X (ix2 p q))) ?_
  refine (broadcastInDim_apply _ _ _ (ix2 p q) (ix2 p (0 : Fin 1))
    (fun a => match a with | ⟨0, _⟩ => rfl | ⟨1, _⟩ => rfl)).trans ?_
  rw [maximumf_apply, hostSqrt_apply]
  refine congrArg₂ max (congrArg Ideal.sqrt ?_) ?_
  · refine (broadcastInDim_apply _ _ _ (ix2 p (0 : Fin 1)) (ix1 p) (fun a => match a with | ⟨0, _⟩ => rfl)).trans ?_
    have hR : S130000x64.Reduces [1] S130000 := by decide
    rw [hostReduceAdd_apply]
    refine (Ideal.hostReduceAdd_single _ hR _ _ _).trans ?_
    rw [constant_apply, Ideal.ofBits_zero_f32, zero_add]
    show (∑ k : Fin 64, (mulf X X) (hR.lift (ix1 p) k)) = ∑ k : Fin 64, X (ix2 p k) * X (ix2 p k)
    refine Finset.sum_congr rfl fun k _ => ?_
    have e : hR.lift (ix1 p) k = ix2 p k := funext fun c => match c with | ⟨0, _⟩ => rfl | ⟨1, _⟩ => rfl
    rw [e]; rfl
  · rw [broadcastInDim_scalar_apply, constant_apply]; rfl

/-! ## The pairwise branch added to the graph branch -/

/-- The reference's sum of the graph branch and the pairwise branch, on the first 100000 rows. -/
theorem refPair_eq100000 (x g : FVec Ideal S100000x64 .f32) (M : FVec Ideal S64x64 .f32) :
    addf g (Host.tanh (Host.dotGeneral dot_S100000x64_S64x64_S100000x64_1_0_0_1_n_n none x M)) = pairA x M g := by
  funext i
  obtain ⟨p, q, rfl⟩ : ∃ (p : Fin 100000) (q : Fin 64), i = ix2 p q := ⟨i 0, i 1, eq_ix2 i⟩
  show _ = Ideal.tanh (∑ k : Fin 64, x (ix2 p k) * M (ix2 k q)) + g (ix2 p q)
  rw [addf_apply, hostTanh_apply, dot100000_apply]
  exact add_comm _ _

/-- The same on the last 30000 rows. -/
theorem refPair_eq30000 (x g : FVec Ideal S30000x64 .f32) (M : FVec Ideal S64x64 .f32) :
    addf g (Host.tanh (Host.dotGeneral dot_S30000x64_S64x64_S30000x64_1_0_0_1_n_n none x M)) = pairA x M g := by
  funext i
  obtain ⟨p, q, rfl⟩ : ∃ (p : Fin 30000) (q : Fin 64), i = ix2 p q := ⟨i 0, i 1, eq_ix2 i⟩
  show _ = Ideal.tanh (∑ k : Fin 64, x (ix2 p k) * M (ix2 k q)) + g (ix2 p q)
  rw [addf_apply, hostTanh_apply, dot30000_apply]
  exact add_comm _ _

end

end Cert.Bridge

end
-- ==== Proof.Bridge.lean ====
/-
  The two programs' results are one function of the argument arrays.

  Both are the same composition; it suffices that they agree component by component. The host operations around the
  dense steps — stacking the rows, the sparse aggregations, the cuts out of the stacked parameters, the two row
  slices — are the same operations in both programs. A layer of the kernel program, computed row by row over the two
  halves of `W`, is the reference's `tanh ([ego, tanh (agg · Q)] · W + b)`: the sum over the 128 columns of the
  concatenation is the sum over the first 64 plus the sum over the last 64. The scaling to unit length is the same
  quotient in both, and the pairwise branch differs only in the order of the two summands.
-/
import proofs.«170398_j17961553231970_2_alg».proof.Proof.KDefs
import proofs.«170398_j17961553231970_2_alg».proof.Proof.RefTerm
import proofs.«170398_j17961553231970_2_alg».proof.Proof.RefAlg

set_option maxRecDepth 16384

noncomputable section

namespace Cert.Bridge

open Idealize.ShloMosaic

/-- The kernel program's layer is the reference's. -/
theorem kLayer_eq (Q : FVec Ideal Cert.ReferenceIdeal.S64x64 .f32) (W : FVec Ideal Cert.ReferenceIdeal.S128x64 .f32)
    (bvec : FVec Ideal Cert.ReferenceIdeal.S64 .f32) (e a : A130) : K.kLayer Q W bvec e a = R.refLayer Q W bvec e a := by
  unfold K.kLayer R.refLayer K.wTop K.wBot K.bRow
  rw [refLayer_eq e a Q W _ Cert.KernelIdeal.Gen.slices_S128x64_S64x64_0_0 Cert.KernelIdeal.Gen.slices_S128x64_S64x64_64_0]
  rw [bias_row_eq bvec _ Cert.KernelIdeal.Gen.shapeCasts_S64_S1x64]

/-- The kernel program's result is the reference's, whatever the argument arrays hold. -/
theorem resultOf_eq (a0 : A100) (a1 : A30) (a2 : FVec Ideal Cert.KernelIdeal.S4000000 .f32) (a3 : FVec Ideal Cert.KernelIdeal.S1600000 .f32)
    (a4 : FVec Ideal Cert.KernelIdeal.S480000 .f32) (a5 a6 : FVec Ideal Cert.KernelIdeal.S2x64x64 .f32)
    (a7 a8 : FVec Ideal Cert.KernelIdeal.S2x128x64 .f32) (a9 a10 : FVec Ideal Cert.KernelIdeal.S2x64 .f32)
    (a11 a12 : FVec Ideal Cert.KernelIdeal.S64x64 .f32) (a13 a14 : IVec Cert.KernelIdeal.S4000000 32)
    (a15 a16 : IVec Cert.KernelIdeal.S1600000 32) (a17 a18 : IVec Cert.KernelIdeal.S480000 32) :
    K.resultOf a0 a1 a2 a3 a4 a5 a6 a7 a8 a9 a10 a11 a12 a13 a14 a15 a16 a17 a18
      = R.resultOf a0 a1 a2 a3 a4 a5 a6 a7 a8 a9 a10 a11 a12 a13 a14 a15 a16 a17 a18 := by
  unfold K.resultOf R.resultOf
  have hcat : K.cat = R.cat := rfl
  have hspA : K.spA a2 a13 a14 = R.spA a2 a13 a14 := rfl
  have hspS : K.spS a3 a15 a16 a0 = R.spS a3 a15 a16 a0 := rfl
  have hspH : K.spH a4 a17 a18 a1 = R.spH a4 a17 a18 a1 := rfl
  have htop : K.top = R.top := rfl
  have hbot : K.bot = R.bot := rfl
  have hq0 : ∀ Q, K.q0 Q = R.q0 Q := fun _ => rfl
  have hq1 : ∀ Q, K.q1 Q = R.q1 Q := fun _ => rfl
  have hw0 : ∀ W, K.w0 W = R.w0 W := fun _ => rfl
  have hw1 : ∀ W, K.w1 W = R.w1 W := fun _ => rfl
  have hb0 : ∀ b, K.b0 b = R.b0 b := fun _ => rfl
  have hb1 : ∀ b, K.b1 b = R.b1 b := fun _ => rfl
  have hL : ∀ Q W bvec, K.kLayer Q W bvec = R.refLayer Q W bvec := fun Q W bvec => funext fun e => funext fun a => kLayer_eq Q W bvec e a
  have hU : ∀ X : A130, unitA X = R.refUnit X := fun X => (refUnit_eq X).symm
  have hP4 : (fun x g : A100 => pairA x a11 g) = fun x g => R.pair100 a11 x g := funext fun x => funext fun g => (refPair_eq100000 x g a11).symm
  have hP5 : (fun x g : A30 => pairA x a12 g) = fun x g => R.pair30 a12 x g := funext fun x => funext fun g => (refPair_eq30000 x g a12).symm
  rw [hcat, hspA, hspS, hspH, htop, hbot, hP4, hP5]
  simp only [hq0, hq1, hw0, hw1, hb0, hb1, hL, hU]

end Cert.Bridge

end
-- ==== Proof.lean ====
/-
  The certificate of a two-branch, two-layer graph-convolution network with a pairwise branch.

  Both programs stack the user and item embeddings, aggregate them over the adjacency (a gather of rows scaled by the
  edge values and scatter-added into zeros), and run in each branch the layer
      ego ↦ tanh ([ego, tanh (agg · Q)] · W + b)
  twice, the second time on the first output and its own aggregate, then scale every row to unit length (the length
  guarded from below by a small ε); the user rows of one branch and the item rows of the other are added to
  tanh (agg' · M) of the symptom and herb aggregates, and the two results are stacked.
  The kernel program computes the dense steps in six tiled regions, 5000 rows at a time, with W split into its upper
  and lower 64 rows, so that [ego, h] · W = ego · W_top + h · W_bot: on the extended reals this is a regrouping of
  one finite sum, and the pairwise branch is added in the other order — commutativity. The sparse aggregations, the
  cuts out of the stacked parameters and the slices are the same host operations in both programs. No step uses
  distributivity or cancellation, so the finiteness of the inputs is never needed.
  The three frames are the generated frame runs; nothing was rewritten by the idealization, so `preserves` is trivial.
-/
import proofs.«170398_j17961553231970_2_alg».proof.Defs
import proofs.«170398_j17961553231970_2_alg».proof.Proof.Gen.Kernel
import proofs.«170398_j17961553231970_2_alg».proof.Proof.Gen.Kernel.Skeleton
import proofs.«170398_j17961553231970_2_alg».proof.Proof.Gen.Kernel.Launch
import proofs.«170398_j17961553231970_2_alg».proof.Proof.Gen.Kernel.Points
import proofs.«170398_j17961553231970_2_alg».proof.Proof.Gen.Kernel.Frame
import proofs.«170398_j17961553231970_2_alg».proof.Proof.Gen.KernelIdeal
import proofs.«170398_j17961553231970_2_alg».proof.Proof.Gen.KernelIdeal.Skeleton
import proofs.«170398_j17961553231970_2_alg».proof.Proof.Gen.KernelIdeal.Launch
import proofs.«170398_j17961553231970_2_alg».proof.Proof.Gen.KernelIdeal.Points
import proofs.«170398_j17961553231970_2_alg».proof.Proof.Gen.KernelIdeal.Frame
import proofs.«170398_j17961553231970_2_alg».proof.Proof.Gen.ReferenceIdeal
import proofs.«170398_j17961553231970_2_alg».proof.Proof.Gen.ReferenceIdeal.Run
import proofs.«170398_j17961553231970_2_alg».proof.Proof.Gen.Pre_finite_inputs
import proofs.«170398_j17961553231970_2_alg».proof.Proof.KRun
import proofs.«170398_j17961553231970_2_alg».proof.Proof.KHost
import proofs.«170398_j17961553231970_2_alg».proof.Proof.RefTerm
import proofs.«170398_j17961553231970_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nineteen argument arrays the kernel program's result buffer ends at the
    composition of its components and the reference's at the composition of its own; the two compositions are one
    function of the arguments. -/
theorem algebraic : Cert.algebraic_KernelIdeal_ReferenceIdeal := by
  intro m ρ m' ρ' _ hagree
  refine ⟨fun c => Cert.Bridge.K.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.Bridge.K.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    refine ((Cert.ReferenceIdeal.Value.val4_main_v159 (F := Ideal) (launchContents m' c)).symm.trans
      ((Cert.Bridge.R.result_eq (launchContents m' c)).trans ?_))
    show Cert.Bridge.R.resultOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    exact (Cert.Bridge.resultOf_eq _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
